-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S200x10000 : Shape := ⟨2, ![200, 10000]⟩
abbrev S200x128 : Shape := ⟨2, ![200, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 21
  | .vmem => 64
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S10000x128, .bf16⟩
  | .hbm, ⟨8, _⟩ => ⟨S10000x10000, .bf16⟩
  | .hbm, ⟨9, _⟩ => ⟨S10000x128, .bf16⟩
  | .hbm, ⟨10, _⟩ => ⟨S10000x128, .bf16⟩
  | .hbm, ⟨11, _⟩ => ⟨S10000x128, .bf16⟩
  | .hbm, ⟨12, _⟩ => ⟨S10000x128, .bf16⟩
  | .hbm, ⟨13, _⟩ => ⟨S10000x128, .bf16⟩
  | .hbm, ⟨14, _⟩ => ⟨S1x128, .f32⟩
  | .hbm, ⟨15, _⟩ => ⟨S10000x128, .bf16⟩
  | .hbm, ⟨16, _⟩ => ⟨S10000x128, .bf16⟩
  | .hbm, ⟨17, _⟩ => ⟨S10000x128, .bf16⟩
  | .hbm, ⟨18, _⟩ => ⟨S10000x128, .bf16⟩
  | .hbm, ⟨19, _⟩ => ⟨S10000x128, .bf16⟩
  | .hbm, ⟨20, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .bf16⟩
  | .local _ .vmem, ⟨5, _⟩ => ⟨S2000x128, .bf16⟩
  | .local _ .vmem, ⟨6, _⟩ => ⟨S200x10000, .f32⟩
  | .local _ .vmem, ⟨7, _⟩ => ⟨S200x10000, .f32⟩
  | .local _ .vmem, ⟨8, _⟩ => ⟨S10000x128, .bf16⟩
  | .local _ .vmem, ⟨9, _⟩ => ⟨S200x10000, .bf16⟩
  | .local _ .vmem, ⟨10, _⟩ => ⟨S200x10000, .bf16⟩
  | .local _ .vmem, ⟨11, _⟩ => ⟨S200x128, .bf16⟩
  | .local _ .vmem, ⟨12, _⟩ => ⟨S200x128, .bf16⟩
  | .local _ .vmem, ⟨13, _⟩ => ⟨S400x10000, .bf16⟩
  | .local _ .vmem, ⟨14, _⟩ => ⟨S400x10000, .bf16⟩
  | .local _ .vmem, ⟨15, _⟩ => ⟨S10000x128, .bf16⟩
  | .local _ .vmem, ⟨16, _⟩ => ⟨S400x128, .bf16⟩
  | .local _ .vmem, ⟨17, _⟩ => ⟨S400x128, .bf16⟩
  | .local _ .vmem, ⟨18, _⟩ => ⟨S400x10000, .bf16⟩
  | .local _ .vmem, ⟨19, _⟩ => ⟨S400x10000, .bf16⟩
  | .local _ .vmem, ⟨20, _⟩ => ⟨S10000x128, .bf16⟩
  | .local _ .vmem, ⟨21, _⟩ => ⟨S400x128, .bf16⟩
  | .local _ .vmem, ⟨22, _⟩ => ⟨S400x128, .bf16⟩
  | .local _ .vmem, ⟨23, _⟩ => ⟨S400x10000, .bf16⟩
  | .local _ .vmem, ⟨24, _⟩ => ⟨S400x10000, .bf16⟩
  | .local _ .vmem, ⟨25, _⟩ => ⟨S10000x128, .bf16⟩
  | .local _ .vmem, ⟨26, _⟩ => ⟨S400x128, .bf16⟩
  | .local _ .vmem, ⟨27, _⟩ => ⟨S400x128, .bf16⟩
  | .local _ .vmem, ⟨28, _⟩ => ⟨S400x10000, .bf16⟩
  | .local _ .vmem, ⟨29, _⟩ => ⟨S400x10000, .bf16⟩
  | .local _ .vmem, ⟨30, _⟩ => ⟨S10000x128, .bf16⟩
  | .local _ .vmem, ⟨31, _⟩ => ⟨S400x128, .bf16⟩
  | .local _ .vmem, ⟨32, _⟩ => ⟨S400x128, .bf16⟩
  | .local _ .vmem, ⟨33, _⟩ => ⟨S2000x128, .bf16⟩
  | .local _ .vmem, ⟨34, _⟩ => ⟨S2000x128, .bf16⟩
  | .local _ .vmem, ⟨35, _⟩ => ⟨S128x128, .f32⟩
  | .local _ .vmem, ⟨36, _⟩ => ⟨S1x128, .f32⟩
  | .local _ .vmem, ⟨37, _⟩ => ⟨S2000x128, .bf16⟩
  | .local _ .vmem, ⟨38, _⟩ => ⟨S2000x128, .bf16⟩
  | .local _ .vmem, ⟨39, _⟩ => ⟨S400x10000, .bf16⟩
  | .local _ .vmem, ⟨40, _⟩ => ⟨S400x10000, .bf16⟩
  | .local _ .vmem, ⟨41, _⟩ => ⟨S10000x128, .bf16⟩
  | .local _ .vmem, ⟨42, _⟩ => ⟨S400x128, .bf16⟩
  | .local _ .vmem, ⟨43, _⟩ => ⟨S400x128, .bf16⟩
  | .local _ .vmem, ⟨44, _⟩ => ⟨S400x10000, .bf16⟩
  | .local _ .vmem, ⟨45, _⟩ => ⟨S400x10000, .bf16⟩
  | .local _ .vmem, ⟨46, _⟩ => ⟨S10000x128, .bf16⟩
  | .local _ .vmem, ⟨47, _⟩ => ⟨S400x128, .bf16⟩
  | .local _ .vmem, ⟨48, _⟩ => ⟨S400x128, .bf16⟩
  | .local _ .vmem, ⟨49, _⟩ => ⟨S400x10000, .bf16⟩
  | .local _ .vmem, ⟨50, _⟩ => ⟨S400x10000, .bf16⟩
  | .local _ .vmem, ⟨51, _⟩ => ⟨S10000x128, .bf16⟩
  | .local _ .vmem, ⟨52, _⟩ => ⟨S400x128, .bf16⟩
  | .local _ .vmem, ⟨53, _⟩ => ⟨S400x128, .bf16⟩
  | .local _ .vmem, ⟨54, _⟩ => ⟨S400x10000, .bf16⟩
  | .local _ .vmem, ⟨55, _⟩ => ⟨S400x10000, .bf16⟩
  | .local _ .vmem, ⟨56, _⟩ => ⟨S10000x128, .bf16⟩
  | .local _ .vmem, ⟨57, _⟩ => ⟨S400x128, .bf16⟩
  | .local _ .vmem, ⟨58, _⟩ => ⟨S400x128, .bf16⟩
  | .local _ .vmem, ⟨59, _⟩ => ⟨S400x10000, .bf16⟩
  | .local _ .vmem, ⟨60, _⟩ => ⟨S400x10000, .bf16⟩
  | .local _ .vmem, ⟨61, _⟩ => ⟨S10000x128, .bf16⟩
  | .local _ .vmem, ⟨62, _⟩ => ⟨S400x128, .f32⟩
  | .local _ .vmem, ⟨63, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg2_1 : Ref sig .tc := ⟨.vmem, 48, rfl⟩
abbrev cc9_stg0_0 : Ref sig .tc := ⟨.vmem, 49, rfl⟩
abbrev cc9_stg0_1 : Ref sig .tc := ⟨.vmem, 50, rfl⟩
abbrev cc9_stg1_0 : Ref sig .tc := ⟨.vmem, 51, rfl⟩
abbrev cc9_stg2_0 : Ref sig .tc := ⟨.vmem, 52, rfl⟩
abbrev cc9_stg2_1 : Ref sig .tc := ⟨.vmem, 53, rfl⟩
abbrev cc10_stg0_0 : Ref sig .tc := ⟨.vmem, 54, rfl⟩
abbrev cc10_stg0_1 : Ref sig .tc := ⟨.vmem, 55, rfl⟩
abbrev cc10_stg1_0 : Ref sig .tc := ⟨.vmem, 56, rfl⟩
abbrev cc10_stg2_0 : Ref sig .tc := ⟨.vmem, 57, rfl⟩
abbrev cc10_stg2_1 : Ref sig .tc := ⟨.vmem, 58, rfl⟩
abbrev cc11_stg0_0 : Ref sig .tc := ⟨.vmem, 59, rfl⟩
abbrev cc11_stg0_1 : Ref sig .tc := ⟨.vmem, 60, rfl⟩
abbrev cc11_stg1_0 : Ref sig .tc := ⟨.vmem, 61, rfl⟩
abbrev cc11_stg2_0 : Ref sig .tc := ⟨.vmem, 62, rfl⟩
abbrev cc11_stg2_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem2_1 : DmaSem sig := 53
abbrev cc10_sem0_0 : DmaSem sig := 54
abbrev cc10_sem0_1 : DmaSem sig := 55
abbrev cc10_sem1_0 : DmaSem sig := 56
abbrev cc10_sem2_0 : DmaSem sig := 57
abbrev cc10_sem2_1 : DmaSem sig := 58
abbrev cc11_sem0_0 : DmaSem sig := 59
abbrev cc11_sem0_1 : DmaSem sig := 60
abbrev cc11_sem1_0 : DmaSem sig := 61
abbrev cc11_sem2_0 : DmaSem sig := 62
abbrev cc11_sem2_1 : DmaSem sig := 63

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x10000 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x10000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S400x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S400x10000 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S10000x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S400x128 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S400x10000 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S10000x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S400x128 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S400x10000 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S10000x128 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S400x128 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S400x10000 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S10000x128 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S400x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S200x128_S200x128_0_0 : ∀ a, (![0, 0] : Fin 2 → Nat) a + S200x128.size a ≤ S200x128.size a
  h_S200x128 : 0 < S200x128.numel
  packedbf16_S200x128_S200x128_0_0 : (Rect.unit (s := S200x128) ![0, 0] S200x128.size inb_S200x128_S200x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S2000x128_S2000x128 : S2000x128.ShapeCasts S2000x128
  reduces_S400x128_S400 : S400x128.Reduces [1] S400
  shapeCasts_S400_S400x1 : S400.ShapeCasts S400x1
  broadcasts_S400x1_S400x128 : S400x1.Broadcasts S400x128
  dot_S2000x128_S128x128_S2000x128_1_0_0_1_n_n_wf : DotDims.WF S2000x128 S128x128 S2000x128 [1] [0] [0] [1] [] []
  dot_S200x10000_S10000x128_S200x128_1_0_0_1_n_n_wf : DotDims.WF S200x10000 S10000x128 S200x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .bf16 = 32 ∨ (Rect.block (s := S10000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x10000.size a ≤ S10000x10000.size a
  hwx1_2 : ∀ i : grid1.Coords, EltTy.bits .bf16 = 32 ∨ (Rect.block (s := S10000x10000) S200x10000.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x128.size a ≤ S10000x128.size a
  hwx1_3 : ∀ i : grid1.Coords, EltTy.bits .bf16 = 32 ∨ (Rect.block (s := S10000x128) S200x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .bf16 = 32 ∨ (Rect.block (s := S10000x128) S400x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .bf16 = 32 ∨ (Rect.block (s := S10000x128) S400x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x128.size a ≤ S10000x128.size a
  hwx4_2 : ∀ i : grid4.Coords, EltTy.bits .bf16 = 32 ∨ (Rect.block (s := S10000x128) S400x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S10000x128.size a
  hwx5_1 : ∀ i : grid5.Coords, EltTy.bits .bf16 = 32 ∨ (Rect.block (s := S10000x128) S10000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x128.size a ≤ S10000x128.size a
  hwx5_2 : ∀ i : grid5.Coords, EltTy.bits .bf16 = 32 ∨ (Rect.block (s := S10000x128) S400x128.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S10000x128.size a
  hwx6_0 : ∀ i : grid6.Coords, EltTy.bits .bf16 = 32 ∨ (Rect.block (s := S10000x128) S2000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S10000x128.size a
  hwx6_3 : ∀ i : grid6.Coords, EltTy.bits .bf16 = 32 ∨ (Rect.block (s := S10000x128) S2000x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x10000.size a ≤ S10000x10000.size a
  hwx7_0 : ∀ i : grid7.Coords, EltTy.bits .bf16 = 32 ∨ (Rect.block (s := S10000x10000) S400x10000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S10000x128.size a
  hwx7_1 : ∀ i : grid7.Coords, EltTy.bits .bf16 = 32 ∨ (Rect.block (s := S10000x128) S10000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S400x128.size a ≤ S10000x128.size a
  hwx7_2 : ∀ i : grid7.Coords, EltTy.bits .bf16 = 32 ∨ (Rect.block (s := S10000x128) S400x128.size (cc7_transform_2 i) (hinb7_2 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S400x10000.size a ≤ S10000x10000.size a
  hwx8_0 : ∀ i : grid8.Coords, EltTy.bits .bf16 = 32 ∨ (Rect.block (s := S10000x10000) S400x10000.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S10000x128.size a ≤ S10000x128.size a
  hwx8_1 : ∀ i : grid8.Coords, EltTy.bits .bf16 = 32 ∨ (Rect.block (s := S10000x128) S10000x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S400x128.size a ≤ S10000x128.size a
  hwx8_2 : ∀ i : grid8.Coords, EltTy.bits .bf16 = 32 ∨ (Rect.block (s := S10000x128) S400x128.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S400x10000.size a ≤ S10000x10000.size a
  hwx9_0 : ∀ i : grid9.Coords, EltTy.bits .bf16 = 32 ∨ (Rect.block (s := S10000x10000) S400x10000.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S10000x128.size a ≤ S10000x128.size a
  hwx9_1 : ∀ i : grid9.Coords, EltTy.bits .bf16 = 32 ∨ (Rect.block (s := S10000x128) S10000x128.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S400x128.size a ≤ S10000x128.size a
  hwx9_2 : ∀ i : grid9.Coords, EltTy.bits .bf16 = 32 ∨ (Rect.block (s := S10000x128) S400x128.size (cc9_transform_2 i) (hinb9_2 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S400x10000.size a ≤ S10000x10000.size a
  hwx10_0 : ∀ i : grid10.Coords, EltTy.bits .bf16 = 32 ∨ (Rect.block (s := S10000x10000) S400x10000.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S10000x128.size a ≤ S10000x128.size a
  hwx10_1 : ∀ i : grid10.Coords, EltTy.bits .bf16 = 32 ∨ (Rect.block (s := S10000x128) S10000x128.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S400x128.size a ≤ S10000x128.size a
  hwx10_2 : ∀ i : grid10.Coords, EltTy.bits .bf16 = 32 ∨ (Rect.block (s := S10000x128) S400x128.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S400x10000.size a ≤ S10000x10000.size a
  hwx11_0 : ∀ i : grid11.Coords, EltTy.bits .bf16 = 32 ∨ (Rect.block (s := S10000x10000) S400x10000.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S10000x128.size a ≤ S10000x128.size a
  hwx11_1 : ∀ i : grid11.Coords, EltTy.bits .bf16 = 32 ∨ (Rect.block (s := S10000x128) S10000x128.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S400x128.size a ≤ S10000x128.size a
  hwx11_2 : ∀ i : grid11.Coords, EltTy.bits .f32 = 32 ∨ (Rect.block (s := S10000x128) S400x128.size (cc11_transform_2 i) (hinb11_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S200x10000.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S200x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S400x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v2_0) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v5) S400x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v2_0) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S10000x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v6) S400x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v6) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v7) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v8) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v2_0) S400x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v8) S10000x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v9) S400x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v2_0) S400x10000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v9) S10000x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v10) S400x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v2_0) S400x10000.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v10) S10000x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v11) S400x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v2_0) S400x10000.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v11) S10000x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v12) S400x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v2_0) S400x10000.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v12) S10000x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v13) S400x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 54
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .i1⟩
  | .hbm, ⟨18, _⟩ => ⟨S_, .f32⟩
  | .hbm, ⟨19, _⟩ => ⟨S10000x128, .f32⟩
  | .hbm, ⟨20, _⟩ => ⟨S10000x128, .i1⟩
  | .hbm, ⟨21, _⟩ => ⟨S_, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S1x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S_, .f32⟩
  | .hbm, ⟨40, _⟩ => ⟨S10000, .f32⟩
  | .hbm, ⟨41, _⟩ => ⟨S_, .f32⟩
  | .hbm, ⟨42, _⟩ => ⟨S10000, .f32⟩
  | .hbm, ⟨43, _⟩ => ⟨S10000, .f32⟩
  | .hbm, ⟨44, _⟩ => ⟨S10000x1, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S_, .f32⟩
  | .hbm, ⟨49, _⟩ => ⟨S10000, .f32⟩
  | .hbm, ⟨50, _⟩ => ⟨S10000x1, .f32⟩
  | .hbm, ⟨51, _⟩ => ⟨S10000x1, .f32⟩
  | .hbm, ⟨52, _⟩ => ⟨S10000x128, .f32⟩
  | .hbm, ⟨53, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_cst_1 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_v4 : Ref sig .tc := ⟨.hbm, 24, rfl⟩
abbrev main_call0_v5 : Ref sig .tc := ⟨.hbm, 25, rfl⟩
abbrev main_call0_cst_2 : Ref sig .tc := ⟨.hbm, 26, rfl⟩
abbrev main_call0_v6 : Ref sig .tc := ⟨.hbm, 27, rfl⟩
abbrev main_call0_v7 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_cst : Ref sig .tc := ⟨.hbm, 39, rfl⟩
abbrev main_call1_v0 : Ref sig .tc := ⟨.hbm, 40, rfl⟩
abbrev main_call1_cst_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_1 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_v19 : Ref sig .tc := ⟨.hbm, 53, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The function both programs compute, on the extended reals, index by index.

  With X : [N, D], A : [N, N], W₁ W₂ : [D, D], b₁ b₂ : [D]  (N = 10000, D = 128):

      H₀ = X · W₁ + b₁            (the bias added to every row)
      H₅ = A · (A · (A · (A · (A · H₀))))
      E  = elu H₅                 (x where 0 < x, otherwise eˣ − 1)
      K₀ = E · W₂ + b₂
      K₅ = A · (A · (A · (A · (A · K₀))))
      out(r, q) = (K₅(r, q) − μ r) − log (∑ l, exp (K₅(r, l) − μ r)),   μ r = the maximum of row r of K₅.

  A matrix product is the plain sum over the contraction index; on the extended reals addition and
  multiplication are commutative and associative, so the sum needs no order, and nothing below uses
  distributivity or cancellation: no finiteness of the inputs is needed.
  This module mentions neither program.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `a` rows and `b` columns. -/
abbrev Mat (a b : Nat) : Type := (⟨2, ![a, b]⟩ : Shape).Idx → EReal
/-- A vector of extended reals of length `a`. -/
abbrev Vc (a : Nat) : Type := (⟨1, ![a]⟩ : Shape).Idx → EReal

/-- The matrix product: entry (r, q) is the sum over `l` of x(r, l) · y(l, q). -/
def mm {a k b : Nat} (x : Mat a k) (y : Mat k b) : Mat a b :=
  fun i => ∑ l : Fin k, x (ix2 (i 0) l) * y (ix2 l (i 1))

/-- The affine map x · w + b, the bias `b` added to every row. -/
def lin {a k b : Nat} (x : Mat a k) (w : Mat k b) (bias : Vc b) : Mat a b :=
  fun i => mm x w i + bias (ix1 (i 1))

/-- ELU with unit slope, on one extended real: x above zero, eˣ − 1 otherwise (−1 at −∞). -/
def elu1 (x : EReal) : EReal := if 0 < x then x else Ideal.exp x - 1

/-- ELU entry by entry. -/
def elu {a b : Nat} (h : Mat a b) : Mat a b := fun i => elu1 (h i)

/-- The maximum of row `r`, as the fold of `max` from −∞ over the row's entries. -/
def rowMax {a b : Nat} (y : Mat a b) (r : Fin a) : EReal :=
  (Finset.univ : Finset (Fin b)).fold max ⊥ (fun l => y (ix2 r l))

/-- Row-wise log-softmax in its shifted form: (y − μ) − log ∑ exp (y − μ), μ the row's maximum. -/
def lsm {a b : Nat} (y : Mat a b) : Mat a b :=
  fun i => (y i - rowMax y (i 0)) - Ideal.log (∑ l : Fin b, Ideal.exp (y (ix2 (i 0) l) - rowMax y (i 0)))

/-- Five propagation steps: A · (A · (A · (A · (A · h)))). -/
def prop5 {n d : Nat} (adj : Mat n n) (h : Mat n d) : Mat n d :=
  mm adj (mm adj (mm adj (mm adj (mm adj h))))

/-- The whole network, as one function of the six argument arrays. -/
def G {n d : Nat} (x : Mat n d) (adj : Mat n n) (w1 : Mat d d) (b1 : Vc d) (w2 : Mat d d) (b2 : Vc d) : Mat n d :=
  lsm (prop5 adj (lin (elu (prop5 adj (lin x w1 b1))) w2 b2))

/-! ## The three float patterns the programs write, as extended reals -/

theorem ofBits_one : Ideal.ofBits .f32 0x3F800000#32 = 1 := by
  simp [Ideal.ofBits, Ideal.ieee, -EReal.coe_mul]; norm_num

theorem ofBits_neg_inf : Ideal.ofBits .f32 0xFF800000#32 = ⊥ := by
  simp [Ideal.ofBits, Ideal.ieee]

theorem ofBits_zero : Ideal.ofBits .f32 0x00000000#32 = 0 := Ideal.ofBits_zero_f32

/-- The comparison "x above zero" as the programs print it, read as a one-bit word. -/
theorem cmp_ogt_zero (x : EReal) : Ideal.cmp .ogt x 0 = if 0 < x then 1#1 else 0#1 := by
  unfold Ideal.cmp; by_cases h : 0 < x <;> simp [h]

/-- ELU as the kernel spells it: select (x > 0) x (eˣ − 1). -/
theorem elu1_select (x : EReal) : Scalar.select (Ideal.cmp .ogt x 0) x (Ideal.exp x - 1) = elu1 x := by
  rw [cmp_ogt_zero]; unfold elu1
  by_cases h : 0 < x
  · rw [if_pos h, if_pos h]; exact select_one _ _
  · rw [if_neg h, if_neg h]; exact select_zero _ _

end Cert.Spec

end
-- ==== Proof.KRun.lean ====
/-
  The kernel program's run with its result named: every weakly fair execution of the twelve regions and
  the two stretches of host operations between them terminates, nothing faulting, and in every final
  state the result buffer holds what the last boundary's contents (the fold of the regions' write-backs
  through the program) say it holds, the six argument arrays as launched. The statement is the frame's
  with one more conjunct; the thread state carried through the segments already holds every unscoped
  buffer at the last boundary's contents, and the result buffer is one of them.
-/
import proofs.«157186_g48524540510793_cont_sun_m_1392_3_alg».proof.Proof.Gen.KernelIdeal.Frame

set_option maxRecDepth 16384

noncomputable section

namespace Cert.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read against the last boundary's contents. -/
theorem run_named : θ_run defs (onTc (τ := τ) (main (F := F))) ⟨m, fun _ => 0, ρ⟩ (fun r => ∀ c : Dev nD,
      r.2.mem ((c.tc : Thread nD τ).loc main_v13) = W14 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v13 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KVal

end
-- ==== Proof.SpecLaws.lean ====
/-
  Two facts about the specification's functions, used where a kernel block is compared with the whole array.
  (1) Row-wise log-softmax at (r, q) reads row r only: if row p of y is row r of y', the two values agree.
  (2) The affine map with its bias held as a one-row matrix is the affine map with the bias as a vector.
-/
import proofs.«157186_g48524540510793_cont_sun_m_1392_3_alg».proof.Proof.Spec

noncomputable section

namespace Cert.Spec

open Idealize.ShloMosaic Idealize.ShloMosaic.ValueIdx

/-- Log-softmax of row p of `y` equals log-softmax of row r of `y'` when the two rows are equal. -/
theorem lsm_congr_row {a a' b : Nat} (y : Mat a b) (y' : Mat a' b) (p : Fin a) (r : Fin a') (q : Fin b)
    (hrow : ∀ l : Fin b, y (ix2 p l) = y' (ix2 r l)) : lsm y (ix2 p q) = lsm y' (ix2 r q) := by
  have hmax : rowMax y p = rowMax y' r := by
    unfold rowMax
    exact congrArg (fun f : Fin b → EReal => (Finset.univ : Finset (Fin b)).fold max ⊥ f) (funext hrow)
  show (y (ix2 p q) - rowMax y p) - Ideal.log (∑ l : Fin b, Ideal.exp (y (ix2 p l) - rowMax y p))
    = (y' (ix2 r q) - rowMax y' r) - Ideal.log (∑ l : Fin b, Ideal.exp (y' (ix2 r l) - rowMax y' r))
  rw [hmax, hrow q]
  simp only [hrow]

/-- x · w + b with the bias held as a one-row matrix, that row added to every row of the product. -/
def linRow {a k b : Nat} (x : Mat a k) (w : Mat k b) (bb : Mat 1 b) : Mat a b :=
  fun i => mm x w i + bb (ix2 (0 : Fin 1) (i 1))

theorem linRow_eq_lin {a k b : Nat} (x : Mat a k) (w : Mat k b) (bb : Mat 1 b) (bias : Vc b)
    (h : ∀ q : Fin b, bb (ix2 (0 : Fin 1) q) = bias (ix1 q)) : linRow x w bb = lin x w bias := by
  funext i
  show mm x w i + bb (ix2 (0 : Fin 1) (i 1)) = mm x w i + bias (ix1 (i 1))
  exact congrArg (fun z : EReal => mm x w i + z) (h (i 1))

end Cert.Spec

end
-- ==== Proof.Payloads.lean ====
/-
  The arithmetic of each kernel body, read at an index, on the extended reals.

  Every store of the twelve kernel bodies writes one pure term over the vectors the body loaded before it.
  Read at the ideal values — where a format change is the identity and a shape cast to the same shape is the
  identity — and at one index (p, q), each term is one of four things:

    * x · w + b:         (∑ l, x(p, l) · w(l, q)) + b(0, q), the bias row added to every row;
    * a · h:             ∑ l, a(p, l) · h(l, q), the plain sum over the contraction index (the product is
                         accumulated into the zero matrix, and 0 + s = s);
    * elu(h) · w + b:    the same affine map after ELU entry by entry, ELU spelt select (x > 0) x (eˣ − 1);
    * log-softmax(a · h): with y = a · h and μ the maximum of row p of y,
                         (y(p, q) − μ) − log ∑ l, exp (y(p, l) − μ).

  The only steps that are not pointwise are the matrix product (its contraction index is re-indexed by the one
  contracted coordinate), the two row reductions (the source index above row p with dropped coordinate k is
  (p, k)) and the keepdims casts [a] → [a, 1] → [a, b] (a column read at its row).
-/
import proofs.«157186_g48524540510793_cont_sun_m_1392_3_alg».proof.Proof.Gen.KernelIdeal.Skeleton
import proofs.«157186_g48524540510793_cont_sun_m_1392_3_alg».proof.Proof.Gen.KernelIdeal
import proofs.«157186_g48524540510793_cont_sun_m_1392_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Payloads

open Idealize.ShloMosaic Idealize.ShloMosaic.ValueIdx
open Cert.KernelIdeal Cert.KernelIdeal.Gen Cert.Spec

/-! ## A matrix product into the zero matrix, read at an index -/

/-- A product of an m×k by a k×n matrix accumulated into the zero matrix, read at (a, b): the sum over the
    contracted coordinate of the products of the entries. The contraction index has one axis, of extent k; the sum
    over it is re-indexed by that axis's coordinate c, at which the left operand is read at (a, c) and the right
    one at (c, b). -/
private theorem matmul_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The propagation step's product, a 400×10000 block of the adjacency matrix by the 10000×128 features, into
    the zero matrix, read at (p, q). -/
private theorem prop_apply (a : FVec Ideal S400x10000 .bf16) (h : FVec Ideal S10000x128 .bf16) (p : Fin 400) (q : Fin 128) :
    matmul dot_S400x10000_S10000x128_S400x128_1_0_0_1_n_n none a h
        (constant (F := Ideal) S400x128 .f32 0x00000000#32) (ix2 p q)
      = ∑ l : Fin 10000, a (ix2 p l) * h (ix2 l q) :=
  matmul_zero_apply _ a h p q

/-! ## The first affine map, the cast and the first propagation step -/

/-- x · w + b at (p, q): the bias row is broadcast over the rows, so its entry at (p, q) is b(0, q). -/
theorem pay0 (x : FVec Ideal S2000x128 .f32) (w : FVec Ideal S128x128 .f32) (bb : FVec Ideal S1x128 .f32) (p : Fin 2000) (q : Fin 128) :
    k0_pay1 (F := Ideal) x w bb (ix2 p q) = (∑ l : Fin 128, x (ix2 p l) * w (ix2 l q)) + bb (ix2 (0 : Fin 1) q) := by
  unfold k0_pay1
  rw [shapeCast_self]
  show matmul _ none x w _ (ix2 p q) + broadcastTo S2000x128 bb _ (ix2 p q) = _
  rw [broadcastTo_1b_ab_apply]
  exact congrArg (· + bb (ix2 (0 : Fin 1) q)) (matmul_zero_apply _ x w p q)

/-- The adjacency block narrowed to the shorter format: on the extended reals, the block itself. -/
theorem pay1a (a : FVec Ideal S200x10000 .f32) (i : S200x10000.Idx) : k1_pay1 (F := Ideal) a i = a i := rfl

/-- The first propagation step, on a 200-row block of the adjacency matrix. -/
theorem pay1b (a : FVec Ideal S200x10000 .f32) (h : FVec Ideal S10000x128 .bf16) (p : Fin 200) (q : Fin 128) :
    k1_pay2 (F := Ideal) a h (ix2 p q) = ∑ l : Fin 10000, a (ix2 p l) * h (ix2 l q) := by
  unfold k1_pay2
  rw [shapeCast_self]
  exact matmul_zero_apply _ (k1_pay1 (F := Ideal) a) h p q

/-! ## The propagation steps: a 400-row block of the adjacency matrix times the features -/

theorem pay2 (a : FVec Ideal S400x10000 .bf16) (h : FVec Ideal S10000x128 .bf16) (p : Fin 400) (q : Fin 128) :
    k2_pay1 (F := Ideal) a h (ix2 p q) = ∑ l : Fin 10000, a (ix2 p l) * h (ix2 l q) := by
  unfold k2_pay1
  rw [shapeCast_self, shapeCast_self]
  exact prop_apply a h p q

theorem pay3 (a : FVec Ideal S400x10000 .bf16) (h : FVec Ideal S10000x128 .bf16) (p : Fin 400) (q : Fin 128) :
    k3_pay1 (F := Ideal) a h (ix2 p q) = ∑ l : Fin 10000, a (ix2 p l) * h (ix2 l q) := by
  unfold k3_pay1
  rw [shapeCast_self, shapeCast_self]
  exact prop_apply a h p q

theorem pay4 (a : FVec Ideal S400x10000 .bf16) (h : FVec Ideal S10000x128 .bf16) (p : Fin 400) (q : Fin 128) :
    k4_pay1 (F := Ideal) a h (ix2 p q) = ∑ l : Fin 10000, a (ix2 p l) * h (ix2 l q) := by
  unfold k4_pay1
  rw [shapeCast_self, shapeCast_self]
  exact prop_apply a h p q

theorem pay5 (a : FVec Ideal S400x10000 .bf16) (h : FVec Ideal S10000x128 .bf16) (p : Fin 400) (q : Fin 128) :
    k5_pay1 (F := Ideal) a h (ix2 p q) = ∑ l : Fin 10000, a (ix2 p l) * h (ix2 l q) := by
  unfold k5_pay1
  rw [shapeCast_self, shapeCast_self]
  exact prop_apply a h p q

/-! ## The second affine map, after ELU -/

/-- ELU as the kernel spells it on a vector — select (x > 0) x (eˣ − 1), the zero and the one given by the words
    of 0.0 and 1.0 — read at an index. -/
private theorem elu_apply (h : FVec Ideal S2000x128 .bf16) (hb : FTy.bits .bf16 < FTy.bits .f32) (i : S2000x128.Idx) :
    select (cmpf .ogt (extf .f32 h hb) (broadcast S2000x128 (Scalar.ofBits (F := Ideal) .f32 0x00000000#32)))
      (extf .f32 h hb)
      (subf (exp (extf .f32 h hb)) (broadcast S2000x128 (Scalar.ofBits (F := Ideal) .f32 0x3F800000#32))) i
      = elu1 (h i) := by
  show Scalar.select (Ideal.cmp .ogt (h i) (Ideal.ofBits .f32 0x00000000#32)) (h i)
      (Ideal.exp (h i) - Ideal.ofBits .f32 0x3F800000#32) = _
  rw [ofBits_zero, ofBits_one]
  exact elu1_select _

/-- elu(h) · w + b at (p, q). -/
theorem pay6 (h : FVec Ideal S2000x128 .bf16) (w : FVec Ideal S128x128 .f32) (bb : FVec Ideal S1x128 .f32) (p : Fin 2000) (q : Fin 128) :
    k6_pay1 (F := Ideal) h w bb (ix2 p q) = (∑ l : Fin 128, Cert.Spec.elu1 (h (ix2 p l)) * w (ix2 l q)) + bb (ix2 (0 : Fin 1) q) := by
  unfold k6_pay1
  rw [shapeCast_self, shapeCast_self]
  show matmul _ none _ w _ (ix2 p q) + broadcastTo S2000x128 bb _ (ix2 p q) = _
  rw [broadcastTo_1b_ab_apply]
  refine (congrArg (· + bb (ix2 (0 : Fin 1) q)) (matmul_zero_apply _ _ w p q)).trans ?_
  refine congrArg (· + bb (ix2 (0 : Fin 1) q)) (Finset.sum_congr rfl fun l _ => ?_)
  exact congrArg (· * w (ix2 l q)) (elu_apply h _ (ix2 p l))

/-! ## The propagation steps of the second layer -/

theorem pay7 (a : FVec Ideal S400x10000 .bf16) (h : FVec Ideal S10000x128 .bf16) (p : Fin 400) (q : Fin 128) :
    k7_pay1 (F := Ideal) a h (ix2 p q) = ∑ l : Fin 10000, a (ix2 p l) * h (ix2 l q) := by
  unfold k7_pay1
  rw [shapeCast_self, shapeCast_self]
  exact prop_apply a h p q

theorem pay8 (a : FVec Ideal S400x10000 .bf16) (h : FVec Ideal S10000x128 .bf16) (p : Fin 400) (q : Fin 128) :
    k8_pay1 (F := Ideal) a h (ix2 p q) = ∑ l : Fin 10000, a (ix2 p l) * h (ix2 l q) := by
  unfold k8_pay1
  rw [shapeCast_self, shapeCast_self]
  exact prop_apply a h p q

theorem pay9 (a : FVec Ideal S400x10000 .bf16) (h : FVec Ideal S10000x128 .bf16) (p : Fin 400) (q : Fin 128) :
    k9_pay1 (F := Ideal) a h (ix2 p q) = ∑ l : Fin 10000, a (ix2 p l) * h (ix2 l q) := by
  unfold k9_pay1
  rw [shapeCast_self, shapeCast_self]
  exact prop_apply a h p q

theorem pay10 (a : FVec Ideal S400x10000 .bf16) (h : FVec Ideal S10000x128 .bf16) (p : Fin 400) (q : Fin 128) :
    k10_pay1 (F := Ideal) a h (ix2 p q) = ∑ l : Fin 10000, a (ix2 p l) * h (ix2 l q) := by
  unfold k10_pay1
  rw [shapeCast_self, shapeCast_self]
  exact prop_apply a h p q

/-! ## The keepdims casts: a column [a] as [a, 1], and an [a, 1] column broadcast over the row -/

/-- An `[a]` array cast to `[a, 1]` reads, at `(p, u)`, the operand at `p`, whatever the unit coordinate `u`. -/
private theorem shapeCast_a_a1_apply {a : ℕ} {α : Type} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
private theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over a reduction of the second axis of an `[a, b]` array, the source index above row `p` with the dropped
    coordinate `k` is `(p, k)`. -/
private theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum over the second axis, from the word of −∞, read at row `p`: the row's maximum. -/
private theorem rowMax_apply (y : FVec Ideal S400x128 .f32) (h : S400x128.Reduces [1] S400) (hφ : FKind.Formats .f32)
    (hacc : (0xFF800000#32 : BitVec 32) = FKind.maximumf.neutral .f32 hφ) (p : Fin 400) :
    multiReduction .maximumf [1] S400 y 0xFF800000#32 h hφ hacc (ix1 p) = rowMax y p := by
  refine (Ideal.multiReduction_maximumf_single y 0xFF800000#32 h hφ hacc (ix1 p)).trans ?_
  show (Finset.univ : Finset (Fin 128)).fold max (Ideal.ofBits .f32 0xFF800000#32) (y ∘ h.lift (ix1 p)) = _
  rw [ofBits_neg_inf]
  unfold rowMax
  exact congrArg (fun f => (Finset.univ : Finset (Fin 128)).fold max ⊥ f) (funext fun l => congrArg y (lift_row h p l))

/-- The sum over the second axis read at row `p`: the sum of the row's entries. -/
private theorem rowSum_apply (y : FVec Ideal S400x128 .f32) (h : S400x128.Reduces [1] S400) (hφ : FKind.Formats .f32)
    (hacc : (0x00000000#32 : BitVec 32) = FKind.add.neutral .f32 hφ) (p : Fin 400) :
    multiReduction .add [1] S400 y 0x00000000#32 h hφ hacc (ix1 p) = ∑ l : Fin 128, y (ix2 p l) := by
  refine (Ideal.multiReduction_add_single y 0x00000000#32 h hφ hacc (ix1 p)).trans ?_
  exact Finset.sum_congr rfl fun l _ => congrArg y (lift_row h p l)

/-! ## The last propagation step and the row-wise log-softmax -/

/-- The kernel's row-wise log-softmax chain over a matrix `Y` — the row maximum kept as a column and broadcast
    back, the shifted entries, their exponentials summed along the row, the logarithm of the sum broadcast back
    and subtracted — read at (p, q): the shifted log-softmax of `Y` there. -/
private theorem lsm_chain (Y : FVec Ideal S400x128 .f32) (p : Fin 400) (q : Fin 128)
    (hr : S400x128.Reduces [1] S400) (hφ : FKind.Formats .f32)
    (hmax : (0xFF800000#32 : BitVec 32) = FKind.maximumf.neutral .f32 hφ)
    (hadd : (0x00000000#32 : BitVec 32) = FKind.add.neutral .f32 hφ)
    (hsc : S400.ShapeCasts S400x1) (hbc : S400x1.Broadcasts S400x128) :
    subf (subf Y (broadcastTo S400x128 (shapeCast S400x1 (multiReduction .maximumf [1] S400 Y 0xFF800000#32 hr hφ hmax) hsc) hbc))
      (broadcastTo S400x128 (log (shapeCast S400x1 (multiReduction .add [1] S400
          (exp (subf Y (broadcastTo S400x128 (shapeCast S400x1 (multiReduction .maximumf [1] S400 Y 0xFF800000#32 hr hφ hmax) hsc) hbc)))
          0x00000000#32 hr hφ hadd) hsc)) hbc) (ix2 p q)
      = lsm Y (ix2 p q) := by
  -- the row maximum, broadcast back over the row
  have hA : ∀ (r : Fin 400) (l : Fin 128),
      broadcastTo S400x128 (shapeCast S400x1 (multiReduction .maximumf [1] S400 Y 0xFF800000#32 hr hφ hmax) hsc) hbc (ix2 r l)
        = rowMax Y r := fun r l =>
    (broadcastTo_a1_ab_apply _ hbc r l).trans ((shapeCast_a_a1_apply _ hsc r 0).trans (rowMax_apply Y hr hφ hmax r))
  -- the shifted entries
  have hB : ∀ (r : Fin 400) (l : Fin 128),
      subf Y (broadcastTo S400x128 (shapeCast S400x1 (multiReduction .maximumf [1] S400 Y 0xFF800000#32 hr hφ hmax) hsc) hbc) (ix2 r l)
        = Y (ix2 r l) - rowMax Y r := fun r l => congrArg (Y (ix2 r l) - ·) (hA r l)
  -- the logarithm of the row's sum of exponentials, broadcast back over the row
  have hD : broadcastTo S400x128 (log (shapeCast S400x1 (multiReduction .add [1] S400
          (exp (subf Y (broadcastTo S400x128 (shapeCast S400x1 (multiReduction .maximumf [1] S400 Y 0xFF800000#32 hr hφ hmax) hsc) hbc)))
          0x00000000#32 hr hφ hadd) hsc)) hbc (ix2 p q)
        = Ideal.log (∑ l : Fin 128, Ideal.exp (Y (ix2 p l) - rowMax Y p)) :=
    (broadcastTo_a1_ab_apply _ hbc p q).trans (congrArg Ideal.log ((shapeCast_a_a1_apply _ hsc p 0).trans
      ((rowSum_apply _ hr hφ hadd p).trans (Finset.sum_congr rfl fun l _ => congrArg Ideal.exp (hB p l)))))
  show subf Y _ (ix2 p q) - broadcastTo S400x128 _ hbc (ix2 p q) = _
  rw [hD, hB]
  rfl

/-- The last propagation step followed by the row-wise log-softmax, at (p, q). -/
theorem pay11 (a : FVec Ideal S400x10000 .bf16) (h : FVec Ideal S10000x128 .bf16) (p : Fin 400) (q : Fin 128) :
    k11_pay1 (F := Ideal) a h (ix2 p q) = Cert.Spec.lsm (Cert.Spec.mm a h) (ix2 p q) := by
  have hy : (matmul dot_S400x10000_S10000x128_S400x128_1_0_0_1_n_n none a h
      (constant (F := Ideal) S400x128 .f32 0x00000000#32) : FVec Ideal S400x128 .f32) = Cert.Spec.mm a h := by
    funext i
    obtain ⟨r, l, rfl⟩ : ∃ (r : Fin 400) (l : Fin 128), i = ix2 r l := ⟨i 0, i 1, eq_ix2 i⟩
    exact prop_apply a h r l
  unfold k11_pay1
  rw [shapeCast_self, shapeCast_self]
  refine (lsm_chain _ p q _ _ _ _ _ _).trans ?_
  exact congrArg (fun Y => lsm Y (ix2 p q)) hy

end Cert.Payloads

end
-- ==== Proof.R0.lean ====
/-
  The affine step, read off the pipeline's proof data: after all 5 grid points have written their blocks
  back, the output array is x · w + b, the bias row added to every row, where x, w and the one-row bias are
  the three input arrays as the region finds them. Point `t` computes rows 2000 t … 2000 t + 1999 from its
  block of x (those rows), the whole of w and the whole bias row; the 5 row blocks tile the 10000 rows.
-/
import proofs.«157186_g48524540510793_cont_sun_m_1392_3_alg».proof.Proof.Gen.KernelIdeal.Frame
import proofs.«157186_g48524540510793_cont_sun_m_1392_3_alg».proof.Proof.Spec
import proofs.«157186_g48524540510793_cont_sun_m_1392_3_alg».proof.Proof.SpecLaws
import Idealize.ShloMosaic.Lib.Pipeline.Value

noncomputable section

namespace Cert.KVal.R0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 5 points: the x block and the output block sit at row block `t`,
    column block 0; the w block and the bias block are the whole arrays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of x · w + b. -/
theorem flushed_eq
    (hpay : ∀ (x : FVec Ideal S2000x128 .f32) (w : FVec Ideal S128x128 .f32) (bb : FVec Ideal S1x128 .f32) (p : Fin 2000) (q : Fin 128),
      k0_pay1 (F := Ideal) x w bb (ix2 p q) = (∑ l : Fin 128, x (ix2 p l) * w (ix2 l q)) + bb (ix2 (0 : Fin 1) q))
    (c : Dev nD) (t : Fin cfg0.N) :
    (dat0 (F := Ideal) V c).flushed 3 t
      = ((cfg0.win 3).blk t).view.read (Elt Ideal) (Spec.linRow (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  obtain ⟨e0, e1, e2, e3, e4, e5, e6, e7⟩ := idx_facts t
  have htN : t.val < 5 := by
    have h := t.isLt; have hN : cfg0.N = 5 := N_0; omega
  funext j
  obtain ⟨p, q, rfl⟩ : ∃ (p : Fin 2000) (q : Fin 128), j = ix2 p q := ⟨j 0, j 1, eq_ix2 j⟩
  have hr : t.val * 2000 + p.val < 10000 := by have := p.isLt; omega
  have hemb : ((cfg0.win 3).blk t).view.emb (ix2 p q) = ix2 (⟨t.val * 2000 + p.val, hr⟩ : Fin 10000) q := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
    = (Spec.linRow (V c (Pipeline.arrRef spec0 0)) (V c (Pipeline.arrRef spec0 1)) (V c (Pipeline.arrRef spec0 2))) (((cfg0.win 3).blk t).view.emb (ix2 p q))
  rw [hemb]
  refine (hpay (iblk0 V c 0 t) (iblk0 V c 1 t) (iblk0 V c 2 t) p q).trans ?_
  unfold Spec.linRow Spec.mm
  have hB : iblk0 V c 2 t (ix2 (0 : Fin 1) q) = V c (Pipeline.arrRef spec0 2) (ix2 (0 : Fin 1) q) := by
    have hb : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 128 + 1 * q.val = q.val; omega
    show V c (Pipeline.arrRef spec0 2) (((cfg0.win 2).blk t).view.emb (ix2 (0 : Fin 1) q)) = _
    exact congrArg (V c (Pipeline.arrRef spec0 2)) hb
  rw [hB]
  refine congrArg (fun z : EReal => z + V c (Pipeline.arrRef spec0 2) (ix2 (0 : Fin 1) q)) (Finset.sum_congr rfl fun l _ => ?_)
  have h0 : ((cfg0.win 0).blk t).view.emb (ix2 p l) = ix2 (⟨t.val * 2000 + p.val, hr⟩ : Fin 10000) l := by
    funext a; apply Fin.ext
    match a with
    | ⟨0, _⟩ => show win0_0.index t (0 : Fin 2) * 2000 + 1 * p.val = t.val * 2000 + p.val; omega
    | ⟨1, _⟩ => show win0_0.index t (1 : Fin 2) * 128 + 1 * l.val = l.val; omega
  have h1 : ((cfg0.win 1).blk t).view.emb (ix2 l q) = ix2 l q := by
    funext a; apply Fin.ext
    match a with
    | ⟨0, _⟩ => show win0_1.index t (0 : Fin 2) * 128 + 1 * l.val = l.val; omega
    | ⟨1, _⟩ => show win0_1.index t (1 : Fin 2) * 128 + 1 * q.val = q.val; omega
  have hA : iblk0 V c 0 t (ix2 p l) = V c (Pipeline.arrRef spec0 0) (ix2 (⟨t.val * 2000 + p.val, hr⟩ : Fin 10000) l) := by
    show V c (Pipeline.arrRef spec0 0) (((cfg0.win 0).blk t).view.emb (ix2 p l)) = _
    exact congrArg (V c (Pipeline.arrRef spec0 0)) h0
  have hW : iblk0 V c 1 t (ix2 l q) = V c (Pipeline.arrRef spec0 1) (ix2 l q) := by
    show V c (Pipeline.arrRef spec0 1) (((cfg0.win 1).blk t).view.emb (ix2 l q)) = _
    exact congrArg (V c (Pipeline.arrRef spec0 1)) h1
  rw [hA, hW]

/-- An index of the output array is in point `t`'s block iff each coordinate is in the block's range. -/
theorem mem_blk (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole (Pipeline.arrRef spec0 3)).slice (win0_3.rect t)).set ↔ _
  rw [View.set_slice_whole, Rect.mem_set_unit]
  exact Iff.rfl

/-- Every index of the output array is in some point's block: row r is in block r / 2000. -/
theorem cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hlt : (i 0).val / 2000 < grid0.N := by rw [N_0]; omega
  refine ⟨⟨(i 0).val / 2000, hlt⟩, flush0_3 _, ?_⟩
  rw [mem_blk]
  obtain ⟨e0, e1, e2, e3, e4, e5, e6, e7⟩ := idx_facts ⟨(i 0).val / 2000, hlt⟩
  have e6' : win0_3.index ⟨(i 0).val / 2000, hlt⟩ (0 : Fin 2) = (i 0).val / 2000 := e6
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    omega

/-- The output array after the region: x · w + b of the three input arrays as the region finds them. -/
theorem out
    (hpay : ∀ (x : FVec Ideal S2000x128 .f32) (w : FVec Ideal S128x128 .f32) (bb : FVec Ideal S1x128 .f32) (p : Fin 2000) (q : Fin 128),
      k0_pay1 (F := Ideal) x w bb (ix2 p q) = (∑ l : Fin 128, x (ix2 p l) * w (ix2 l q)) + bb (ix2 (0 : Fin 1) q))
    (c : Dev nD) :
    (dat0 (F := Ideal) V c).arrAt 3 cfg0.N = Spec.linRow (V c (Pipeline.arrRef spec0 0)) (V c (Pipeline.arrRef spec0 1)) (V c (Pipeline.arrRef spec0 2)) :=
  (dat0 (F := Ideal) V c).arrAt_eq_of_cover 3 _ (fun t _ => flushed_eq V hpay c t) (cover)

end Cert.KVal.R0

end
-- ==== Proof.R1.lean ====
/-
  The first propagation step, which also re-stores A in the narrower float format, read off the pipeline's
  proof data. On the extended reals a change of float format is the identity, so after all 50 grid points
  have written their blocks back the first output array is A itself, entry by entry, and the second is
  A · h. Point `t` handles rows 200 t … 200 t + 199: its block of A is those rows, its block of h the whole
  array, and the 50 row blocks tile the 10000 rows of either output.
-/
import proofs.«157186_g48524540510793_cont_sun_m_1392_3_alg».proof.Proof.Gen.KernelIdeal.Frame
import proofs.«157186_g48524540510793_cont_sun_m_1392_3_alg».proof.Proof.Spec
import Idealize.ShloMosaic.Lib.Pipeline.Value

noncomputable section

namespace Cert.KVal.R1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 50 points: the A block and both output blocks sit at row block `t`,
    column block 0; the h block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-! ## The first output: A, entry by entry -/

/-- What point `t` writes back to the first output is block `t` of A. -/
theorem flushedA_eq
    (hpay : ∀ (a : FVec Ideal S200x10000 .f32) (i : S200x10000.Idx), k1_pay1 (F := Ideal) a i = a i)
    (c : Dev nD) (t : Fin cfg1.N) :
    (dat1 (F := Ideal) V c).flushed 2 t
      = ((cfg1.win 2).blk t).view.read (Elt Ideal) (fun i => V c (Pipeline.arrRef spec1 0) i) := by
  show (cfg1.win 2).cut (grid1.coords t) ((dat1 V c).after 2 t) = _
  rw [after1_2]
  unfold out1_2
  rw [View.canon_unit_zero hz]
  simp only [View.ld_unit_zero (S := S200x10000) hz]
  obtain ⟨e0, e1, e2, e3, e4, e5, e6, e7⟩ := idx_facts t
  funext j
  show k1_pay1 (F := Ideal) (iblk1 V c 0 t) j = V c (Pipeline.arrRef spec1 0) (((cfg1.win 2).blk t).view.emb j)
  refine (hpay (iblk1 V c 0 t) j).trans ?_
  have h0 : ((cfg1.win 0).blk t).view.emb j = ((cfg1.win 2).blk t).view.emb j := by
    funext a; apply Fin.ext
    match a with
    | ⟨0, _⟩ => show win1_0.index t (0 : Fin 2) * 200 + 1 * (j 0).val = win1_2.index t (0 : Fin 2) * 200 + 1 * (j 0).val; omega
    | ⟨1, _⟩ => show win1_0.index t (1 : Fin 2) * 10000 + 1 * (j 1).val = win1_2.index t (1 : Fin 2) * 10000 + 1 * (j 1).val; omega
  show V c (Pipeline.arrRef spec1 0) (((cfg1.win 0).blk t).view.emb j) = V c (Pipeline.arrRef spec1 0) (((cfg1.win 2).blk t).view.emb j)
  exact congrArg (V c (Pipeline.arrRef spec1 0)) h0

theorem mem_blkA (t : Fin cfg1.N) (i : S10000x10000.Idx) :
    i ∈ ((cfg1.win 2).blk t).view.set ↔ ∀ a : Fin 2, win1_2.index t a * S200x10000.size a ≤ (i a).val ∧ (i a).val < win1_2.index t a * S200x10000.size a + S200x10000.size a := by
  show i ∈ ((View.whole (Pipeline.arrRef spec1 2)).slice (win1_2.rect t)).set ↔ _
  rw [View.set_slice_whole, Rect.mem_set_unit]
  exact Iff.rfl

/-- Every index of the first output is in some point's block: row r is in block r / 200. -/
theorem coverA (i : S10000x10000.Idx) : ∃ t : Fin cfg1.N, (cfg1.win 2).flush t = true ∧ i ∈ ((cfg1.win 2).blk t).view.set := by
  have hi0 : (i 0).val < 10000 := (i 0).isLt
  have hi1 : (i 1).val < 10000 := (i 1).isLt
  have hlt : (i 0).val / 200 < grid1.N := by rw [N_1]; omega
  refine ⟨⟨(i 0).val / 200, hlt⟩, flush1_2 _, ?_⟩
  rw [mem_blkA]
  obtain ⟨e0, e1, e2, e3, e4, e5, e6, e7⟩ := idx_facts ⟨(i 0).val / 200, hlt⟩
  have e4' : win1_2.index ⟨(i 0).val / 200, hlt⟩ (0 : Fin 2) = (i 0).val / 200 := e4
  intro a
  match a with
  | ⟨0, _⟩ =>
    show win1_2.index ⟨(i 0).val / 200, hlt⟩ (0 : Fin 2) * 200 ≤ (i 0).val ∧ (i 0).val < win1_2.index ⟨(i 0).val / 200, hlt⟩ (0 : Fin 2) * 200 + 200
    omega
  | ⟨1, _⟩ =>
    show win1_2.index ⟨(i 0).val / 200, hlt⟩ (1 : Fin 2) * 10000 ≤ (i 1).val ∧ (i 1).val < win1_2.index ⟨(i 0).val / 200, hlt⟩ (1 : Fin 2) * 10000 + 10000
    omega

/-- The first output array after the region: A, entry by entry. -/
theorem outA
    (hpay : ∀ (a : FVec Ideal S200x10000 .f32) (i : S200x10000.Idx), k1_pay1 (F := Ideal) a i = a i)
    (c : Dev nD) :
    (dat1 (F := Ideal) V c).arrAt 2 cfg1.N = fun i => V c (Pipeline.arrRef spec1 0) i :=
  (dat1 (F := Ideal) V c).arrAt_eq_of_cover 2 _ (fun t _ => flushedA_eq V hpay c t) (coverA)

/-! ## The second output: A · h -/

/-- What point `t` writes back to the second output is block `t` of A · h. -/
theorem flushedH_eq
    (hpay : ∀ (a : FVec Ideal S200x10000 .f32) (h : FVec Ideal S10000x128 .bf16) (p : Fin 200) (q : Fin 128),
      k1_pay2 (F := Ideal) a h (ix2 p q) = ∑ l : Fin 10000, a (ix2 p l) * h (ix2 l q))
    (c : Dev nD) (t : Fin cfg1.N) :
    (dat1 (F := Ideal) V c).flushed 3 t
      = ((cfg1.win 3).blk t).view.read (Elt Ideal) (Spec.mm (V c (Pipeline.arrRef spec1 0)) (V c (Pipeline.arrRef spec1 1))) := by
  show (cfg1.win 3).cut (grid1.coords t) ((dat1 V c).after 3 t) = _
  rw [after1_3]
  unfold out1_3
  rw [View.canon_unit_zero hz]
  simp only [View.ld_unit_zero (S := S200x10000) hz, View.ld_unit_zero (S := S10000x128) hz]
  obtain ⟨e0, e1, e2, e3, e4, e5, e6, e7⟩ := idx_facts t
  funext j
  obtain ⟨p, q, rfl⟩ : ∃ (p : Fin 200) (q : Fin 128), j = ix2 p q := ⟨j 0, j 1, eq_ix2 j⟩
  show k1_pay2 (F := Ideal) (iblk1 V c 0 t) (iblk1 V c 1 t) (ix2 p q)
    = Spec.mm (V c (Pipeline.arrRef spec1 0)) (V c (Pipeline.arrRef spec1 1)) (((cfg1.win 3).blk t).view.emb (ix2 p q))
  refine (hpay (iblk1 V c 0 t) (iblk1 V c 1 t) p q).trans ?_
  unfold Spec.mm
  refine Finset.sum_congr rfl fun l _ => ?_
  have h0 : ((cfg1.win 0).blk t).view.emb (ix2 p l) = ix2 ((((cfg1.win 3).blk t).view.emb (ix2 p q)) 0) l := by
    funext a; apply Fin.ext
    match a with
    | ⟨0, _⟩ => show win1_0.index t (0 : Fin 2) * 200 + 1 * p.val = win1_3.index t (0 : Fin 2) * 200 + 1 * p.val; omega
    | ⟨1, _⟩ => show win1_0.index t (1 : Fin 2) * 10000 + 1 * l.val = l.val; omega
  have h1 : ((cfg1.win 1).blk t).view.emb (ix2 l q) = ix2 l ((((cfg1.win 3).blk t).view.emb (ix2 p q)) 1) := by
    funext a; apply Fin.ext
    match a with
    | ⟨0, _⟩ => show win1_1.index t (0 : Fin 2) * 10000 + 1 * l.val = l.val; omega
    | ⟨1, _⟩ => show win1_1.index t (1 : Fin 2) * 128 + 1 * q.val = win1_3.index t (1 : Fin 2) * 128 + 1 * q.val; omega
  have hA : iblk1 V c 0 t (ix2 p l) = V c (Pipeline.arrRef spec1 0) (ix2 ((((cfg1.win 3).blk t).view.emb (ix2 p q)) 0) l) := by
    show V c (Pipeline.arrRef spec1 0) (((cfg1.win 0).blk t).view.emb (ix2 p l)) = _
    exact congrArg (V c (Pipeline.arrRef spec1 0)) h0
  have hH : iblk1 V c 1 t (ix2 l q) = V c (Pipeline.arrRef spec1 1) (ix2 l ((((cfg1.win 3).blk t).view.emb (ix2 p q)) 1)) := by
    show V c (Pipeline.arrRef spec1 1) (((cfg1.win 1).blk t).view.emb (ix2 l q)) = _
    exact congrArg (V c (Pipeline.arrRef spec1 1)) h1
  rw [hA, hH]

theorem mem_blkH (t : Fin cfg1.N) (i : S10000x128.Idx) :
    i ∈ ((cfg1.win 3).blk t).view.set ↔ ∀ a : Fin 2, win1_3.index t a * S200x128.size a ≤ (i a).val ∧ (i a).val < win1_3.index t a * S200x128.size a + S200x128.size a := by
  show i ∈ ((View.whole (Pipeline.arrRef spec1 3)).slice (win1_3.rect t)).set ↔ _
  rw [View.set_slice_whole, Rect.mem_set_unit]
  exact Iff.rfl

/-- Every index of the second output is in some point's block: row r is in block r / 200. -/
theorem coverH (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  have hlt : (i 0).val / 200 < grid1.N := by rw [N_1]; omega
  refine ⟨⟨(i 0).val / 200, hlt⟩, flush1_3 _, ?_⟩
  rw [mem_blkH]
  obtain ⟨e0, e1, e2, e3, e4, e5, e6, e7⟩ := idx_facts ⟨(i 0).val / 200, hlt⟩
  have e6' : win1_3.index ⟨(i 0).val / 200, hlt⟩ (0 : Fin 2) = (i 0).val / 200 := e6
  intro a
  match a with
  | ⟨0, _⟩ =>
    show win1_3.index ⟨(i 0).val / 200, hlt⟩ (0 : Fin 2) * 200 ≤ (i 0).val ∧ (i 0).val < win1_3.index ⟨(i 0).val / 200, hlt⟩ (0 : Fin 2) * 200 + 200
    omega
  | ⟨1, _⟩ =>
    show win1_3.index ⟨(i 0).val / 200, hlt⟩ (1 : Fin 2) * 128 ≤ (i 1).val ∧ (i 1).val < win1_3.index ⟨(i 0).val / 200, hlt⟩ (1 : Fin 2) * 128 + 128
    omega

/-- The second output array after the region: A · h of the two input arrays as the region finds them. -/
theorem outH
    (hpay : ∀ (a : FVec Ideal S200x10000 .f32) (h : FVec Ideal S10000x128 .bf16) (p : Fin 200) (q : Fin 128),
      k1_pay2 (F := Ideal) a h (ix2 p q) = ∑ l : Fin 10000, a (ix2 p l) * h (ix2 l q))
    (c : Dev nD) :
    (dat1 (F := Ideal) V c).arrAt 3 cfg1.N = Spec.mm (V c (Pipeline.arrRef spec1 0)) (V c (Pipeline.arrRef spec1 1)) :=
  (dat1 (F := Ideal) V c).arrAt_eq_of_cover 3 _ (fun t _ => flushedH_eq V hpay c t) (coverH)

end Cert.KVal.R1

end
-- ==== Proof.R2.lean ====
/-
  One propagation step, read off the pipeline's proof data: after all 25 grid points have written their
  blocks back, the output array of the step is A · h, where A and h are the two input arrays as the
  region finds them. Point `t` computes rows 400 t … 400 t + 399: its block of A is those rows (all 10000
  columns), its block of h is the whole array, and the 25 row blocks tile the 10000 rows.
-/
import proofs.«157186_g48524540510793_cont_sun_m_1392_3_alg».proof.Proof.Gen.KernelIdeal.Frame
import proofs.«157186_g48524540510793_cont_sun_m_1392_3_alg».proof.Proof.Spec
import Idealize.ShloMosaic.Lib.Pipeline.Value

noncomputable section

namespace Cert.KVal.R2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the A block and the output block sit at row block `t`,
    column block 0; the h block is the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of A · h: entry (p, q) of the body's product is the sum over
    `l` of the A block at (p, l) times h at (l, q); the A block's row p is row 400 t + p of A, and that is
    the row of the output block's entry. -/
theorem flushed_eq
    (hpay : ∀ (a : FVec Ideal S400x10000 .bf16) (h : FVec Ideal S10000x128 .bf16) (p : Fin 400) (q : Fin 128),
      k2_pay1 (F := Ideal) a h (ix2 p q) = ∑ l : Fin 10000, a (ix2 p l) * h (ix2 l q))
    (c : Dev nD) (t : Fin cfg2.N) :
    (dat2 (F := Ideal) V c).flushed 2 t
      = ((cfg2.win 2).blk t).view.read (Elt Ideal) (Spec.mm (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S400x10000) hz, View.ld_unit_zero (S := S10000x128) hz]
  obtain ⟨e0, e1, e2, e3, e4, e5⟩ := idx_facts t
  funext j
  obtain ⟨p, q, rfl⟩ : ∃ (p : Fin 400) (q : Fin 128), j = ix2 p q := ⟨j 0, j 1, eq_ix2 j⟩
  show k2_pay1 (F := Ideal) (iblk2 V c 0 t) (iblk2 V c 1 t) (ix2 p q)
    = Spec.mm (V c (Pipeline.arrRef spec2 0)) (V c (Pipeline.arrRef spec2 1)) (((cfg2.win 2).blk t).view.emb (ix2 p q))
  refine (hpay (iblk2 V c 0 t) (iblk2 V c 1 t) p q).trans ?_
  unfold Spec.mm
  refine Finset.sum_congr rfl fun l _ => ?_
  have h0 : ((cfg2.win 0).blk t).view.emb (ix2 p l) = ix2 ((((cfg2.win 2).blk t).view.emb (ix2 p q)) 0) l := by
    funext a; apply Fin.ext
    match a with
    | ⟨0, _⟩ => show win2_0.index t (0 : Fin 2) * 400 + 1 * p.val = win2_2.index t (0 : Fin 2) * 400 + 1 * p.val; omega
    | ⟨1, _⟩ => show win2_0.index t (1 : Fin 2) * 10000 + 1 * l.val = l.val; omega
  have h1 : ((cfg2.win 1).blk t).view.emb (ix2 l q) = ix2 l ((((cfg2.win 2).blk t).view.emb (ix2 p q)) 1) := by
    funext a; apply Fin.ext
    match a with
    | ⟨0, _⟩ => show win2_1.index t (0 : Fin 2) * 10000 + 1 * l.val = l.val; omega
    | ⟨1, _⟩ => show win2_1.index t (1 : Fin 2) * 128 + 1 * q.val = win2_2.index t (1 : Fin 2) * 128 + 1 * q.val; omega
  have hA : iblk2 V c 0 t (ix2 p l) = V c (Pipeline.arrRef spec2 0) (ix2 ((((cfg2.win 2).blk t).view.emb (ix2 p q)) 0) l) := by
    show V c (Pipeline.arrRef spec2 0) (((cfg2.win 0).blk t).view.emb (ix2 p l)) = _
    exact congrArg (V c (Pipeline.arrRef spec2 0)) h0
  have hH : iblk2 V c 1 t (ix2 l q) = V c (Pipeline.arrRef spec2 1) (ix2 l ((((cfg2.win 2).blk t).view.emb (ix2 p q)) 1)) := by
    show V c (Pipeline.arrRef spec2 1) (((cfg2.win 1).blk t).view.emb (ix2 l q)) = _
    exact congrArg (V c (Pipeline.arrRef spec2 1)) h1
  rw [hA, hH]

/-- An index of the output array is in point `t`'s block iff each coordinate is in the block's range. -/
theorem mem_blk (t : Fin cfg2.N) (i : S10000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole (Pipeline.arrRef spec2 2)).slice (win2_2.rect t)).set ↔ _
  rw [View.set_slice_whole, Rect.mem_set_unit]
  exact Iff.rfl

/-- Every index of the output array is in some point's block: row r is in block r / 400. -/
theorem cover (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  have hlt : (i 0).val / 400 < grid2.N := by rw [N_2]; omega
  refine ⟨⟨(i 0).val / 400, hlt⟩, flush2_2 _, ?_⟩
  rw [mem_blk]
  obtain ⟨e0, e1, e2, e3, e4, e5⟩ := idx_facts ⟨(i 0).val / 400, hlt⟩
  have e4' : win2_2.index ⟨(i 0).val / 400, hlt⟩ (0 : Fin 2) = (i 0).val / 400 := e4
  intro a
  match a with
  | ⟨0, _⟩ =>
    show win2_2.index ⟨(i 0).val / 400, hlt⟩ (0 : Fin 2) * 400 ≤ (i 0).val ∧ (i 0).val < win2_2.index ⟨(i 0).val / 400, hlt⟩ (0 : Fin 2) * 400 + 400
    omega
  | ⟨1, _⟩ =>
    show win2_2.index ⟨(i 0).val / 400, hlt⟩ (1 : Fin 2) * 128 ≤ (i 1).val ∧ (i 1).val < win2_2.index ⟨(i 0).val / 400, hlt⟩ (1 : Fin 2) * 128 + 128
    omega

/-- The output array after the region: A · h of the two input arrays as the region finds them. -/
theorem out
    (hpay : ∀ (a : FVec Ideal S400x10000 .bf16) (h : FVec Ideal S10000x128 .bf16) (p : Fin 400) (q : Fin 128),
      k2_pay1 (F := Ideal) a h (ix2 p q) = ∑ l : Fin 10000, a (ix2 p l) * h (ix2 l q))
    (c : Dev nD) :
    (dat2 (F := Ideal) V c).arrAt 2 cfg2.N = Spec.mm (V c (Pipeline.arrRef spec2 0)) (V c (Pipeline.arrRef spec2 1)) :=
  (dat2 (F := Ideal) V c).arrAt_eq_of_cover 2 _ (fun t _ => flushed_eq V hpay c t) (cover)

end Cert.KVal.R2

end
-- ==== Proof.R3.lean ====
/-
  One propagation step, read off the pipeline's proof data: after all 25 grid points have written their
  blocks back, the output array of the step is A · h, where A and h are the two input arrays as the
  region finds them. Point `t` computes rows 400 t … 400 t + 399: its block of A is those rows (all 10000
  columns), its block of h is the whole array, and the 25 row blocks tile the 10000 rows.
-/
import proofs.«157186_g48524540510793_cont_sun_m_1392_3_alg».proof.Proof.Gen.KernelIdeal.Frame
import proofs.«157186_g48524540510793_cont_sun_m_1392_3_alg».proof.Proof.Spec
import Idealize.ShloMosaic.Lib.Pipeline.Value

noncomputable section

namespace Cert.KVal.R3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the A block and the output block sit at row block `t`,
    column block 0; the h block is the whole array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of A · h: entry (p, q) of the body's product is the sum over
    `l` of the A block at (p, l) times h at (l, q); the A block's row p is row 400 t + p of A, and that is
    the row of the output block's entry. -/
theorem flushed_eq
    (hpay : ∀ (a : FVec Ideal S400x10000 .bf16) (h : FVec Ideal S10000x128 .bf16) (p : Fin 400) (q : Fin 128),
      k3_pay1 (F := Ideal) a h (ix2 p q) = ∑ l : Fin 10000, a (ix2 p l) * h (ix2 l q))
    (c : Dev nD) (t : Fin cfg3.N) :
    (dat3 (F := Ideal) V c).flushed 2 t
      = ((cfg3.win 2).blk t).view.read (Elt Ideal) (Spec.mm (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S400x10000) hz, View.ld_unit_zero (S := S10000x128) hz]
  obtain ⟨e0, e1, e2, e3, e4, e5⟩ := idx_facts t
  funext j
  obtain ⟨p, q, rfl⟩ : ∃ (p : Fin 400) (q : Fin 128), j = ix2 p q := ⟨j 0, j 1, eq_ix2 j⟩
  show k3_pay1 (F := Ideal) (iblk3 V c 0 t) (iblk3 V c 1 t) (ix2 p q)
    = Spec.mm (V c (Pipeline.arrRef spec3 0)) (V c (Pipeline.arrRef spec3 1)) (((cfg3.win 2).blk t).view.emb (ix2 p q))
  refine (hpay (iblk3 V c 0 t) (iblk3 V c 1 t) p q).trans ?_
  unfold Spec.mm
  refine Finset.sum_congr rfl fun l _ => ?_
  have h0 : ((cfg3.win 0).blk t).view.emb (ix2 p l) = ix2 ((((cfg3.win 2).blk t).view.emb (ix2 p q)) 0) l := by
    funext a; apply Fin.ext
    match a with
    | ⟨0, _⟩ => show win3_0.index t (0 : Fin 2) * 400 + 1 * p.val = win3_2.index t (0 : Fin 2) * 400 + 1 * p.val; omega
    | ⟨1, _⟩ => show win3_0.index t (1 : Fin 2) * 10000 + 1 * l.val = l.val; omega
  have h1 : ((cfg3.win 1).blk t).view.emb (ix2 l q) = ix2 l ((((cfg3.win 2).blk t).view.emb (ix2 p q)) 1) := by
    funext a; apply Fin.ext
    match a with
    | ⟨0, _⟩ => show win3_1.index t (0 : Fin 2) * 10000 + 1 * l.val = l.val; omega
    | ⟨1, _⟩ => show win3_1.index t (1 : Fin 2) * 128 + 1 * q.val = win3_2.index t (1 : Fin 2) * 128 + 1 * q.val; omega
  have hA : iblk3 V c 0 t (ix2 p l) = V c (Pipeline.arrRef spec3 0) (ix2 ((((cfg3.win 2).blk t).view.emb (ix2 p q)) 0) l) := by
    show V c (Pipeline.arrRef spec3 0) (((cfg3.win 0).blk t).view.emb (ix2 p l)) = _
    exact congrArg (V c (Pipeline.arrRef spec3 0)) h0
  have hH : iblk3 V c 1 t (ix2 l q) = V c (Pipeline.arrRef spec3 1) (ix2 l ((((cfg3.win 2).blk t).view.emb (ix2 p q)) 1)) := by
    show V c (Pipeline.arrRef spec3 1) (((cfg3.win 1).blk t).view.emb (ix2 l q)) = _
    exact congrArg (V c (Pipeline.arrRef spec3 1)) h1
  rw [hA, hH]

/-- An index of the output array is in point `t`'s block iff each coordinate is in the block's range. -/
theorem mem_blk (t : Fin cfg3.N) (i : S10000x128.Idx) :
    i ∈ ((cfg3.win 2).blk t).view.set ↔ ∀ a : Fin 2, win3_2.index t a * S400x128.size a ≤ (i a).val ∧ (i a).val < win3_2.index t a * S400x128.size a + S400x128.size a := by
  show i ∈ ((View.whole (Pipeline.arrRef spec3 2)).slice (win3_2.rect t)).set ↔ _
  rw [View.set_slice_whole, Rect.mem_set_unit]
  exact Iff.rfl

/-- Every index of the output array is in some point's block: row r is in block r / 400. -/
theorem cover (i : S10000x128.Idx) : ∃ t : Fin cfg3.N, (cfg3.win 2).flush t = true ∧ i ∈ ((cfg3.win 2).blk t).view.set := by
  have hi0 : (i 0).val < 10000 := (i 0).isLt
  have hi1 : (i 1).val < 128 := (i 1).isLt
  have hlt : (i 0).val / 400 < grid3.N := by rw [N_3]; omega
  refine ⟨⟨(i 0).val / 400, hlt⟩, flush3_2 _, ?_⟩
  rw [mem_blk]
  obtain ⟨e0, e1, e2, e3, e4, e5⟩ := idx_facts ⟨(i 0).val / 400, hlt⟩
  have e4' : win3_2.index ⟨(i 0).val / 400, hlt⟩ (0 : Fin 2) = (i 0).val / 400 := e4
  intro a
  match a with
  | ⟨0, _⟩ =>
    show win3_2.index ⟨(i 0).val / 400, hlt⟩ (0 : Fin 2) * 400 ≤ (i 0).val ∧ (i 0).val < win3_2.index ⟨(i 0).val / 400, hlt⟩ (0 : Fin 2) * 400 + 400
    omega
  | ⟨1, _⟩ =>
    show win3_2.index ⟨(i 0).val / 400, hlt⟩ (1 : Fin 2) * 128 ≤ (i 1).val ∧ (i 1).val < win3_2.index ⟨(i 0).val / 400, hlt⟩ (1 : Fin 2) * 128 + 128
    omega

/-- The output array after the region: A · h of the two input arrays as the region finds them. -/
theorem out
    (hpay : ∀ (a : FVec Ideal S400x10000 .bf16) (h : FVec Ideal S10000x128 .bf16) (p : Fin 400) (q : Fin 128),
      k3_pay1 (F := Ideal) a h (ix2 p q) = ∑ l : Fin 10000, a (ix2 p l) * h (ix2 l q))
    (c : Dev nD) :
    (dat3 (F := Ideal) V c).arrAt 2 cfg3.N = Spec.mm (V c (Pipeline.arrRef spec3 0)) (V c (Pipeline.arrRef spec3 1)) :=
  (dat3 (F := Ideal) V c).arrAt_eq_of_cover 2 _ (fun t _ => flushed_eq V hpay c t) (cover)

end Cert.KVal.R3

end
-- ==== Proof.R4.lean ====
/-
  One propagation step, read off the pipeline's proof data: after all 25 grid points have written their
  blocks back, the output array of the step is A · h, where A and h are the two input arrays as the
  region finds them. Point `t` computes rows 400 t … 400 t + 399: its block of A is those rows (all 10000
  columns), its block of h is the whole array, and the 25 row blocks tile the 10000 rows.
-/
import proofs.«157186_g48524540510793_cont_sun_m_1392_3_alg».proof.Proof.Gen.KernelIdeal.Frame
import proofs.«157186_g48524540510793_cont_sun_m_1392_3_alg».proof.Proof.Spec
import Idealize.ShloMosaic.Lib.Pipeline.Value

noncomputable section

namespace Cert.KVal.R4

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the A block and the output block sit at row block `t`,
    column block 0; the h block is the whole array. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of A · h: entry (p, q) of the body's product is the sum over
    `l` of the A block at (p, l) times h at (l, q); the A block's row p is row 400 t + p of A, and that is
    the row of the output block's entry. -/
theorem flushed_eq
    (hpay : ∀ (a : FVec Ideal S400x10000 .bf16) (h : FVec Ideal S10000x128 .bf16) (p : Fin 400) (q : Fin 128),
      k4_pay1 (F := Ideal) a h (ix2 p q) = ∑ l : Fin 10000, a (ix2 p l) * h (ix2 l q))
    (c : Dev nD) (t : Fin cfg4.N) :
    (dat4 (F := Ideal) V c).flushed 2 t
      = ((cfg4.win 2).blk t).view.read (Elt Ideal) (Spec.mm (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S400x10000) hz, View.ld_unit_zero (S := S10000x128) hz]
  obtain ⟨e0, e1, e2, e3, e4, e5⟩ := idx_facts t
  funext j
  obtain ⟨p, q, rfl⟩ : ∃ (p : Fin 400) (q : Fin 128), j = ix2 p q := ⟨j 0, j 1, eq_ix2 j⟩
  show k4_pay1 (F := Ideal) (iblk4 V c 0 t) (iblk4 V c 1 t) (ix2 p q)
    = Spec.mm (V c (Pipeline.arrRef spec4 0)) (V c (Pipeline.arrRef spec4 1)) (((cfg4.win 2).blk t).view.emb (ix2 p q))
  refine (hpay (iblk4 V c 0 t) (iblk4 V c 1 t) p q).trans ?_
  unfold Spec.mm
  refine Finset.sum_congr rfl fun l _ => ?_
  have h0 : ((cfg4.win 0).blk t).view.emb (ix2 p l) = ix2 ((((cfg4.win 2).blk t).view.emb (ix2 p q)) 0) l := by
    funext a; apply Fin.ext
    match a with
    | ⟨0, _⟩ => show win4_0.index t (0 : Fin 2) * 400 + 1 * p.val = win4_2.index t (0 : Fin 2) * 400 + 1 * p.val; omega
    | ⟨1, _⟩ => show win4_0.index t (1 : Fin 2) * 10000 + 1 * l.val = l.val; omega
  have h1 : ((cfg4.win 1).blk t).view.emb (ix2 l q) = ix2 l ((((cfg4.win 2).blk t).view.emb (ix2 p q)) 1) := by
    funext a; apply Fin.ext
    match a with
    | ⟨0, _⟩ => show win4_1.index t (0 : Fin 2) * 10000 + 1 * l.val = l.val; omega
    | ⟨1, _⟩ => show win4_1.index t (1 : Fin 2) * 128 + 1 * q.val = win4_2.index t (1 : Fin 2) * 128 + 1 * q.val; omega
  have hA : iblk4 V c 0 t (ix2 p l) = V c (Pipeline.arrRef spec4 0) (ix2 ((((cfg4.win 2).blk t).view.emb (ix2 p q)) 0) l) := by
    show V c (Pipeline.arrRef spec4 0) (((cfg4.win 0).blk t).view.emb (ix2 p l)) = _
    exact congrArg (V c (Pipeline.arrRef spec4 0)) h0
  have hH : iblk4 V c 1 t (ix2 l q) = V c (Pipeline.arrRef spec4 1) (ix2 l ((((cfg4.win 2).blk t).view.emb (ix2 p q)) 1)) := by
    show V c (Pipeline.arrRef spec4 1) (((cfg4.win 1).blk t).view.emb (ix2 l q)) = _
    exact congrArg (V c (Pipeline.arrRef spec4 1)) h1
  rw [hA, hH]

/-- An index of the output array is in point `t`'s block iff each coordinate is in the block's range. -/
theorem mem_blk (t : Fin cfg4.N) (i : S10000x128.Idx) :
    i ∈ ((cfg4.win 2).blk t).view.set ↔ ∀ a : Fin 2, win4_2.index t a * S400x128.size a ≤ (i a).val ∧ (i a).val < win4_2.index t a * S400x128.size a + S400x128.size a := by
  show i ∈ ((View.whole (Pipeline.arrRef spec4 2)).slice (win4_2.rect t)).set ↔ _
  rw [View.set_slice_whole, Rect.mem_set_unit]
  exact Iff.rfl

/-- Every index of the output array is in some point's block: row r is in block r / 400. -/
theorem cover (i : S10000x128.Idx) : ∃ t : Fin cfg4.N, (cfg4.win 2).flush t = true ∧ i ∈ ((cfg4.win 2).blk t).view.set := by
  have hi0 : (i 0).val < 10000 := (i 0).isLt
  have hi1 : (i 1).val < 128 := (i 1).isLt
  have hlt : (i 0).val / 400 < grid4.N := by rw [N_4]; omega
  refine ⟨⟨(i 0).val / 400, hlt⟩, flush4_2 _, ?_⟩
  rw [mem_blk]
  obtain ⟨e0, e1, e2, e3, e4, e5⟩ := idx_facts ⟨(i 0).val / 400, hlt⟩
  have e4' : win4_2.index ⟨(i 0).val / 400, hlt⟩ (0 : Fin 2) = (i 0).val / 400 := e4
  intro a
  match a with
  | ⟨0, _⟩ =>
    show win4_2.index ⟨(i 0).val / 400, hlt⟩ (0 : Fin 2) * 400 ≤ (i 0).val ∧ (i 0).val < win4_2.index ⟨(i 0).val / 400, hlt⟩ (0 : Fin 2) * 400 + 400
    omega
  | ⟨1, _⟩ =>
    show win4_2.index ⟨(i 0).val / 400, hlt⟩ (1 : Fin 2) * 128 ≤ (i 1).val ∧ (i 1).val < win4_2.index ⟨(i 0).val / 400, hlt⟩ (1 : Fin 2) * 128 + 128
    omega

/-- The output array after the region: A · h of the two input arrays as the region finds them. -/
theorem out
    (hpay : ∀ (a : FVec Ideal S400x10000 .bf16) (h : FVec Ideal S10000x128 .bf16) (p : Fin 400) (q : Fin 128),
      k4_pay1 (F := Ideal) a h (ix2 p q) = ∑ l : Fin 10000, a (ix2 p l) * h (ix2 l q))
    (c : Dev nD) :
    (dat4 (F := Ideal) V c).arrAt 2 cfg4.N = Spec.mm (V c (Pipeline.arrRef spec4 0)) (V c (Pipeline.arrRef spec4 1)) :=
  (dat4 (F := Ideal) V c).arrAt_eq_of_cover 2 _ (fun t _ => flushed_eq V hpay c t) (cover)

end Cert.KVal.R4

end
-- ==== Proof.R5.lean ====
/-
  One propagation step, read off the pipeline's proof data: after all 25 grid points have written their
  blocks back, the output array of the step is A · h, where A and h are the two input arrays as the
  region finds them. Point `t` computes rows 400 t … 400 t + 399: its block of A is those rows (all 10000
  columns), its block of h is the whole array, and the 25 row blocks tile the 10000 rows.
-/
import proofs.«157186_g48524540510793_cont_sun_m_1392_3_alg».proof.Proof.Gen.KernelIdeal.Frame
import proofs.«157186_g48524540510793_cont_sun_m_1392_3_alg».proof.Proof.Spec
import Idealize.ShloMosaic.Lib.Pipeline.Value

noncomputable section

namespace Cert.KVal.R5

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the A block and the output block sit at row block `t`,
    column block 0; the h block is the whole array. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of A · h: entry (p, q) of the body's product is the sum over
    `l` of the A block at (p, l) times h at (l, q); the A block's row p is row 400 t + p of A, and that is
    the row of the output block's entry. -/
theorem flushed_eq
    (hpay : ∀ (a : FVec Ideal S400x10000 .bf16) (h : FVec Ideal S10000x128 .bf16) (p : Fin 400) (q : Fin 128),
      k5_pay1 (F := Ideal) a h (ix2 p q) = ∑ l : Fin 10000, a (ix2 p l) * h (ix2 l q))
    (c : Dev nD) (t : Fin cfg5.N) :
    (dat5 (F := Ideal) V c).flushed 2 t
      = ((cfg5.win 2).blk t).view.read (Elt Ideal) (Spec.mm (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S400x10000) hz, View.ld_unit_zero (S := S10000x128) hz]
  obtain ⟨e0, e1, e2, e3, e4, e5⟩ := idx_facts t
  funext j
  obtain ⟨p, q, rfl⟩ : ∃ (p : Fin 400) (q : Fin 128), j = ix2 p q := ⟨j 0, j 1, eq_ix2 j⟩
  show k5_pay1 (F := Ideal) (iblk5 V c 0 t) (iblk5 V c 1 t) (ix2 p q)
    = Spec.mm (V c (Pipeline.arrRef spec5 0)) (V c (Pipeline.arrRef spec5 1)) (((cfg5.win 2).blk t).view.emb (ix2 p q))
  refine (hpay (iblk5 V c 0 t) (iblk5 V c 1 t) p q).trans ?_
  unfold Spec.mm
  refine Finset.sum_congr rfl fun l _ => ?_
  have h0 : ((cfg5.win 0).blk t).view.emb (ix2 p l) = ix2 ((((cfg5.win 2).blk t).view.emb (ix2 p q)) 0) l := by
    funext a; apply Fin.ext
    match a with
    | ⟨0, _⟩ => show win5_0.index t (0 : Fin 2) * 400 + 1 * p.val = win5_2.index t (0 : Fin 2) * 400 + 1 * p.val; omega
    | ⟨1, _⟩ => show win5_0.index t (1 : Fin 2) * 10000 + 1 * l.val = l.val; omega
  have h1 : ((cfg5.win 1).blk t).view.emb (ix2 l q) = ix2 l ((((cfg5.win 2).blk t).view.emb (ix2 p q)) 1) := by
    funext a; apply Fin.ext
    match a with
    | ⟨0, _⟩ => show win5_1.index t (0 : Fin 2) * 10000 + 1 * l.val = l.val; omega
    | ⟨1, _⟩ => show win5_1.index t (1 : Fin 2) * 128 + 1 * q.val = win5_2.index t (1 : Fin 2) * 128 + 1 * q.val; omega
  have hA : iblk5 V c 0 t (ix2 p l) = V c (Pipeline.arrRef spec5 0) (ix2 ((((cfg5.win 2).blk t).view.emb (ix2 p q)) 0) l) := by
    show V c (Pipeline.arrRef spec5 0) (((cfg5.win 0).blk t).view.emb (ix2 p l)) = _
    exact congrArg (V c (Pipeline.arrRef spec5 0)) h0
  have hH : iblk5 V c 1 t (ix2 l q) = V c (Pipeline.arrRef spec5 1) (ix2 l ((((cfg5.win 2).blk t).view.emb (ix2 p q)) 1)) := by
    show V c (Pipeline.arrRef spec5 1) (((cfg5.win 1).blk t).view.emb (ix2 l q)) = _
    exact congrArg (V c (Pipeline.arrRef spec5 1)) h1
  rw [hA, hH]

/-- An index of the output array is in point `t`'s block iff each coordinate is in the block's range. -/
theorem mem_blk (t : Fin cfg5.N) (i : S10000x128.Idx) :
    i ∈ ((cfg5.win 2).blk t).view.set ↔ ∀ a : Fin 2, win5_2.index t a * S400x128.size a ≤ (i a).val ∧ (i a).val < win5_2.index t a * S400x128.size a + S400x128.size a := by
  show i ∈ ((View.whole (Pipeline.arrRef spec5 2)).slice (win5_2.rect t)).set ↔ _
  rw [View.set_slice_whole, Rect.mem_set_unit]
  exact Iff.rfl

/-- Every index of the output array is in some point's block: row r is in block r / 400. -/
theorem cover (i : S10000x128.Idx) : ∃ t : Fin cfg5.N, (cfg5.win 2).flush t = true ∧ i ∈ ((cfg5.win 2).blk t).view.set := by
  have hi0 : (i 0).val < 10000 := (i 0).isLt
  have hi1 : (i 1).val < 128 := (i 1).isLt
  have hlt : (i 0).val / 400 < grid5.N := by rw [N_5]; omega
  refine ⟨⟨(i 0).val / 400, hlt⟩, flush5_2 _, ?_⟩
  rw [mem_blk]
  obtain ⟨e0, e1, e2, e3, e4, e5⟩ := idx_facts ⟨(i 0).val / 400, hlt⟩
  have e4' : win5_2.index ⟨(i 0).val / 400, hlt⟩ (0 : Fin 2) = (i 0).val / 400 := e4
  intro a
  match a with
  | ⟨0, _⟩ =>
    show win5_2.index ⟨(i 0).val / 400, hlt⟩ (0 : Fin 2) * 400 ≤ (i 0).val ∧ (i 0).val < win5_2.index ⟨(i 0).val / 400, hlt⟩ (0 : Fin 2) * 400 + 400
    omega
  | ⟨1, _⟩ =>
    show win5_2.index ⟨(i 0).val / 400, hlt⟩ (1 : Fin 2) * 128 ≤ (i 1).val ∧ (i 1).val < win5_2.index ⟨(i 0).val / 400, hlt⟩ (1 : Fin 2) * 128 + 128
    omega

/-- The output array after the region: A · h of the two input arrays as the region finds them. -/
theorem out
    (hpay : ∀ (a : FVec Ideal S400x10000 .bf16) (h : FVec Ideal S10000x128 .bf16) (p : Fin 400) (q : Fin 128),
      k5_pay1 (F := Ideal) a h (ix2 p q) = ∑ l : Fin 10000, a (ix2 p l) * h (ix2 l q))
    (c : Dev nD) :
    (dat5 (F := Ideal) V c).arrAt 2 cfg5.N = Spec.mm (V c (Pipeline.arrRef spec5 0)) (V c (Pipeline.arrRef spec5 1)) :=
  (dat5 (F := Ideal) V c).arrAt_eq_of_cover 2 _ (fun t _ => flushed_eq V hpay c t) (cover)

end Cert.KVal.R5

end
-- ==== Proof.R6.lean ====
/-
  The affine step after ELU, read off the pipeline's proof data: after all 5 grid points have written their
  blocks back, the output array is elu x · w + b, ELU applied to x entry by entry, the bias row added to every row, where x, w and the one-row bias are
  the three input arrays as the region finds them. Point `t` computes rows 2000 t … 2000 t + 1999 from its
  block of x (those rows), the whole of w and the whole bias row; the 5 row blocks tile the 10000 rows.
-/
import proofs.«157186_g48524540510793_cont_sun_m_1392_3_alg».proof.Proof.Gen.KernelIdeal.Frame
import proofs.«157186_g48524540510793_cont_sun_m_1392_3_alg».proof.Proof.Spec
import proofs.«157186_g48524540510793_cont_sun_m_1392_3_alg».proof.Proof.SpecLaws
import Idealize.ShloMosaic.Lib.Pipeline.Value

noncomputable section

namespace Cert.KVal.R6

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 5 points: the x block and the output block sit at row block `t`,
    column block 0; the w block and the bias block are the whole arrays. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of elu x · w + b. -/
theorem flushed_eq
    (hpay : ∀ (x : FVec Ideal S2000x128 .bf16) (w : FVec Ideal S128x128 .f32) (bb : FVec Ideal S1x128 .f32) (p : Fin 2000) (q : Fin 128),
      k6_pay1 (F := Ideal) x w bb (ix2 p q) = (∑ l : Fin 128, Cert.Spec.elu1 (x (ix2 p l)) * w (ix2 l q)) + bb (ix2 (0 : Fin 1) q))
    (c : Dev nD) (t : Fin cfg6.N) :
    (dat6 (F := Ideal) V c).flushed 3 t
      = ((cfg6.win 3).blk t).view.read (Elt Ideal) (Spec.linRow (Spec.elu (V c (Pipeline.arrRef spec6 0))) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S2000x128) hz, View.ld_unit_zero (S := S128x128) hz, View.ld_unit_zero (S := S1x128) hz]
  obtain ⟨e0, e1, e2, e3, e4, e5, e6, e7⟩ := idx_facts t
  have htN : t.val < 5 := by
    have h := t.isLt; have hN : cfg6.N = 5 := N_6; omega
  funext j
  obtain ⟨p, q, rfl⟩ : ∃ (p : Fin 2000) (q : Fin 128), j = ix2 p q := ⟨j 0, j 1, eq_ix2 j⟩
  have hr : t.val * 2000 + p.val < 10000 := by have := p.isLt; omega
  have hemb : ((cfg6.win 3).blk t).view.emb (ix2 p q) = ix2 (⟨t.val * 2000 + p.val, hr⟩ : Fin 10000) q := by
    funext a; apply Fin.ext
    match a with
    | ⟨0, _⟩ => show win6_3.index t (0 : Fin 2) * 2000 + 1 * p.val = t.val * 2000 + p.val; omega
    | ⟨1, _⟩ => show win6_3.index t (1 : Fin 2) * 128 + 1 * q.val = q.val; omega
  show k6_pay1 (F := Ideal) (iblk6 V c 0 t) (iblk6 V c 1 t) (iblk6 V c 2 t) (ix2 p q)
    = (Spec.linRow (Spec.elu (V c (Pipeline.arrRef spec6 0))) (V c (Pipeline.arrRef spec6 1)) (V c (Pipeline.arrRef spec6 2))) (((cfg6.win 3).blk t).view.emb (ix2 p q))
  rw [hemb]
  refine (hpay (iblk6 V c 0 t) (iblk6 V c 1 t) (iblk6 V c 2 t) p q).trans ?_
  unfold Spec.linRow Spec.mm Spec.elu
  have hB : iblk6 V c 2 t (ix2 (0 : Fin 1) q) = V c (Pipeline.arrRef spec6 2) (ix2 (0 : Fin 1) q) := by
    have hb : ((cfg6.win 2).blk t).view.emb (ix2 (0 : Fin 1) q) = ix2 (0 : Fin 1) q := by
      funext a; apply Fin.ext
      match a with
      | ⟨0, _⟩ => show win6_2.index t (0 : Fin 2) * 1 + 1 * 0 = 0; omega
      | ⟨1, _⟩ => show win6_2.index t (1 : Fin 2) * 128 + 1 * q.val = q.val; omega
    show V c (Pipeline.arrRef spec6 2) (((cfg6.win 2).blk t).view.emb (ix2 (0 : Fin 1) q)) = _
    exact congrArg (V c (Pipeline.arrRef spec6 2)) hb
  rw [hB]
  refine congrArg (fun z : EReal => z + V c (Pipeline.arrRef spec6 2) (ix2 (0 : Fin 1) q)) (Finset.sum_congr rfl fun l _ => ?_)
  have h0 : ((cfg6.win 0).blk t).view.emb (ix2 p l) = ix2 (⟨t.val * 2000 + p.val, hr⟩ : Fin 10000) l := by
    funext a; apply Fin.ext
    match a with
    | ⟨0, _⟩ => show win6_0.index t (0 : Fin 2) * 2000 + 1 * p.val = t.val * 2000 + p.val; omega
    | ⟨1, _⟩ => show win6_0.index t (1 : Fin 2) * 128 + 1 * l.val = l.val; omega
  have h1 : ((cfg6.win 1).blk t).view.emb (ix2 l q) = ix2 l q := by
    funext a; apply Fin.ext
    match a with
    | ⟨0, _⟩ => show win6_1.index t (0 : Fin 2) * 128 + 1 * l.val = l.val; omega
    | ⟨1, _⟩ => show win6_1.index t (1 : Fin 2) * 128 + 1 * q.val = q.val; omega
  have hA : iblk6 V c 0 t (ix2 p l) = V c (Pipeline.arrRef spec6 0) (ix2 (⟨t.val * 2000 + p.val, hr⟩ : Fin 10000) l) := by
    show V c (Pipeline.arrRef spec6 0) (((cfg6.win 0).blk t).view.emb (ix2 p l)) = _
    exact congrArg (V c (Pipeline.arrRef spec6 0)) h0
  have hW : iblk6 V c 1 t (ix2 l q) = V c (Pipeline.arrRef spec6 1) (ix2 l q) := by
    show V c (Pipeline.arrRef spec6 1) (((cfg6.win 1).blk t).view.emb (ix2 l q)) = _
    exact congrArg (V c (Pipeline.arrRef spec6 1)) h1
  rw [hA, hW]

/-- An index of the output array is in point `t`'s block iff each coordinate is in the block's range. -/
theorem mem_blk (t : Fin cfg6.N) (i : S10000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole (Pipeline.arrRef spec6 3)).slice (win6_3.rect t)).set ↔ _
  rw [View.set_slice_whole, Rect.mem_set_unit]
  exact Iff.rfl

/-- Every index of the output array is in some point's block: row r is in block r / 2000. -/
theorem cover (i : S10000x128.Idx) : ∃ t : Fin cfg6.N, (cfg6.win 3).flush t = true ∧ i ∈ ((cfg6.win 3).blk t).view.set := by
  have hi0 : (i 0).val < 10000 := (i 0).isLt
  have hi1 : (i 1).val < 128 := (i 1).isLt
  have hlt : (i 0).val / 2000 < grid6.N := by rw [N_6]; omega
  refine ⟨⟨(i 0).val / 2000, hlt⟩, flush6_3 _, ?_⟩
  rw [mem_blk]
  obtain ⟨e0, e1, e2, e3, e4, e5, e6, e7⟩ := idx_facts ⟨(i 0).val / 2000, hlt⟩
  have e6' : win6_3.index ⟨(i 0).val / 2000, hlt⟩ (0 : Fin 2) = (i 0).val / 2000 := e6
  intro a
  match a with
  | ⟨0, _⟩ =>
    show win6_3.index ⟨(i 0).val / 2000, hlt⟩ (0 : Fin 2) * 2000 ≤ (i 0).val ∧ (i 0).val < win6_3.index ⟨(i 0).val / 2000, hlt⟩ (0 : Fin 2) * 2000 + 2000
    omega
  | ⟨1, _⟩ =>
    show win6_3.index ⟨(i 0).val / 2000, hlt⟩ (1 : Fin 2) * 128 ≤ (i 1).val ∧ (i 1).val < win6_3.index ⟨(i 0).val / 2000, hlt⟩ (1 : Fin 2) * 128 + 128
    omega

/-- The output array after the region: elu x · w + b of the three input arrays as the region finds them. -/
theorem out
    (hpay : ∀ (x : FVec Ideal S2000x128 .bf16) (w : FVec Ideal S128x128 .f32) (bb : FVec Ideal S1x128 .f32) (p : Fin 2000) (q : Fin 128),
      k6_pay1 (F := Ideal) x w bb (ix2 p q) = (∑ l : Fin 128, Cert.Spec.elu1 (x (ix2 p l)) * w (ix2 l q)) + bb (ix2 (0 : Fin 1) q))
    (c : Dev nD) :
    (dat6 (F := Ideal) V c).arrAt 3 cfg6.N = Spec.linRow (Spec.elu (V c (Pipeline.arrRef spec6 0))) (V c (Pipeline.arrRef spec6 1)) (V c (Pipeline.arrRef spec6 2)) :=
  (dat6 (F := Ideal) V c).arrAt_eq_of_cover 3 _ (fun t _ => flushed_eq V hpay c t) (cover)

end Cert.KVal.R6

end
-- ==== Proof.R7.lean ====
/-
  One propagation step, read off the pipeline's proof data: after all 25 grid points have written their
  blocks back, the output array of the step is A · h, where A and h are the two input arrays as the
  region finds them. Point `t` computes rows 400 t … 400 t + 399: its block of A is those rows (all 10000
  columns), its block of h is the whole array, and the 25 row blocks tile the 10000 rows.
-/
import proofs.«157186_g48524540510793_cont_sun_m_1392_3_alg».proof.Proof.Gen.KernelIdeal.Frame
import proofs.«157186_g48524540510793_cont_sun_m_1392_3_alg».proof.Proof.Spec
import Idealize.ShloMosaic.Lib.Pipeline.Value

noncomputable section

namespace Cert.KVal.R7

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the A block and the output block sit at row block `t`,
    column block 0; the h block is the whole array. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of A · h: entry (p, q) of the body's product is the sum over
    `l` of the A block at (p, l) times h at (l, q); the A block's row p is row 400 t + p of A, and that is
    the row of the output block's entry. -/
theorem flushed_eq
    (hpay : ∀ (a : FVec Ideal S400x10000 .bf16) (h : FVec Ideal S10000x128 .bf16) (p : Fin 400) (q : Fin 128),
      k7_pay1 (F := Ideal) a h (ix2 p q) = ∑ l : Fin 10000, a (ix2 p l) * h (ix2 l q))
    (c : Dev nD) (t : Fin cfg7.N) :
    (dat7 (F := Ideal) V c).flushed 2 t
      = ((cfg7.win 2).blk t).view.read (Elt Ideal) (Spec.mm (V c (Pipeline.arrRef spec7 0)) (V c (Pipeline.arrRef spec7 1))) := by
  show (cfg7.win 2).cut (grid7.coords t) ((dat7 V c).after 2 t) = _
  rw [after7_2]
  unfold out7_2
  rw [View.canon_unit_zero hz]
  simp only [View.ld_unit_zero (S := S400x10000) hz, View.ld_unit_zero (S := S10000x128) hz]
  obtain ⟨e0, e1, e2, e3, e4, e5⟩ := idx_facts t
  funext j
  obtain ⟨p, q, rfl⟩ : ∃ (p : Fin 400) (q : Fin 128), j = ix2 p q := ⟨j 0, j 1, eq_ix2 j⟩
  show k7_pay1 (F := Ideal) (iblk7 V c 0 t) (iblk7 V c 1 t) (ix2 p q)
    = Spec.mm (V c (Pipeline.arrRef spec7 0)) (V c (Pipeline.arrRef spec7 1)) (((cfg7.win 2).blk t).view.emb (ix2 p q))
  refine (hpay (iblk7 V c 0 t) (iblk7 V c 1 t) p q).trans ?_
  unfold Spec.mm
  refine Finset.sum_congr rfl fun l _ => ?_
  have h0 : ((cfg7.win 0).blk t).view.emb (ix2 p l) = ix2 ((((cfg7.win 2).blk t).view.emb (ix2 p q)) 0) l := by
    funext a; apply Fin.ext
    match a with
    | ⟨0, _⟩ => show win7_0.index t (0 : Fin 2) * 400 + 1 * p.val = win7_2.index t (0 : Fin 2) * 400 + 1 * p.val; omega
    | ⟨1, _⟩ => show win7_0.index t (1 : Fin 2) * 10000 + 1 * l.val = l.val; omega
  have h1 : ((cfg7.win 1).blk t).view.emb (ix2 l q) = ix2 l ((((cfg7.win 2).blk t).view.emb (ix2 p q)) 1) := by
    funext a; apply Fin.ext
    match a with
    | ⟨0, _⟩ => show win7_1.index t (0 : Fin 2) * 10000 + 1 * l.val = l.val; omega
    | ⟨1, _⟩ => show win7_1.index t (1 : Fin 2) * 128 + 1 * q.val = win7_2.index t (1 : Fin 2) * 128 + 1 * q.val; omega
  have hA : iblk7 V c 0 t (ix2 p l) = V c (Pipeline.arrRef spec7 0) (ix2 ((((cfg7.win 2).blk t).view.emb (ix2 p q)) 0) l) := by
    show V c (Pipeline.arrRef spec7 0) (((cfg7.win 0).blk t).view.emb (ix2 p l)) = _
    exact congrArg (V c (Pipeline.arrRef spec7 0)) h0
  have hH : iblk7 V c 1 t (ix2 l q) = V c (Pipeline.arrRef spec7 1) (ix2 l ((((cfg7.win 2).blk t).view.emb (ix2 p q)) 1)) := by
    show V c (Pipeline.arrRef spec7 1) (((cfg7.win 1).blk t).view.emb (ix2 l q)) = _
    exact congrArg (V c (Pipeline.arrRef spec7 1)) h1
  rw [hA, hH]

/-- An index of the output array is in point `t`'s block iff each coordinate is in the block's range. -/
theorem mem_blk (t : Fin cfg7.N) (i : S10000x128.Idx) :
    i ∈ ((cfg7.win 2).blk t).view.set ↔ ∀ a : Fin 2, win7_2.index t a * S400x128.size a ≤ (i a).val ∧ (i a).val < win7_2.index t a * S400x128.size a + S400x128.size a := by
  show i ∈ ((View.whole (Pipeline.arrRef spec7 2)).slice (win7_2.rect t)).set ↔ _
  rw [View.set_slice_whole, Rect.mem_set_unit]
  exact Iff.rfl

/-- Every index of the output array is in some point's block: row r is in block r / 400. -/
theorem cover (i : S10000x128.Idx) : ∃ t : Fin cfg7.N, (cfg7.win 2).flush t = true ∧ i ∈ ((cfg7.win 2).blk t).view.set := by
  have hi0 : (i 0).val < 10000 := (i 0).isLt
  have hi1 : (i 1).val < 128 := (i 1).isLt
  have hlt : (i 0).val / 400 < grid7.N := by rw [N_7]; omega
  refine ⟨⟨(i 0).val / 400, hlt⟩, flush7_2 _, ?_⟩
  rw [mem_blk]
  obtain ⟨e0, e1, e2, e3, e4, e5⟩ := idx_facts ⟨(i 0).val / 400, hlt⟩
  have e4' : win7_2.index ⟨(i 0).val / 400, hlt⟩ (0 : Fin 2) = (i 0).val / 400 := e4
  intro a
  match a with
  | ⟨0, _⟩ =>
    show win7_2.index ⟨(i 0).val / 400, hlt⟩ (0 : Fin 2) * 400 ≤ (i 0).val ∧ (i 0).val < win7_2.index ⟨(i 0).val / 400, hlt⟩ (0 : Fin 2) * 400 + 400
    omega
  | ⟨1, _⟩ =>
    show win7_2.index ⟨(i 0).val / 400, hlt⟩ (1 : Fin 2) * 128 ≤ (i 1).val ∧ (i 1).val < win7_2.index ⟨(i 0).val / 400, hlt⟩ (1 : Fin 2) * 128 + 128
    omega

/-- The output array after the region: A · h of the two input arrays as the region finds them. -/
theorem out
    (hpay : ∀ (a : FVec Ideal S400x10000 .bf16) (h : FVec Ideal S10000x128 .bf16) (p : Fin 400) (q : Fin 128),
      k7_pay1 (F := Ideal) a h (ix2 p q) = ∑ l : Fin 10000, a (ix2 p l) * h (ix2 l q))
    (c : Dev nD) :
    (dat7 (F := Ideal) V c).arrAt 2 cfg7.N = Spec.mm (V c (Pipeline.arrRef spec7 0)) (V c (Pipeline.arrRef spec7 1)) :=
  (dat7 (F := Ideal) V c).arrAt_eq_of_cover 2 _ (fun t _ => flushed_eq V hpay c t) (cover)

end Cert.KVal.R7

end
-- ==== Proof.R8.lean ====
/-
  One propagation step, read off the pipeline's proof data: after all 25 grid points have written their
  blocks back, the output array of the step is A · h, where A and h are the two input arrays as the
  region finds them. Point `t` computes rows 400 t … 400 t + 399: its block of A is those rows (all 10000
  columns), its block of h is the whole array, and the 25 row blocks tile the 10000 rows.
-/
import proofs.«157186_g48524540510793_cont_sun_m_1392_3_alg».proof.Proof.Gen.KernelIdeal.Frame
import proofs.«157186_g48524540510793_cont_sun_m_1392_3_alg».proof.Proof.Spec
import Idealize.ShloMosaic.Lib.Pipeline.Value

noncomputable section

namespace Cert.KVal.R8

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the A block and the output block sit at row block `t`,
    column block 0; the h block is the whole array. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point `t` writes back is block `t` of A · h: entry (p, q) of the body's product is the sum over
    `l` of the A block at (p, l) times h at (l, q); the A block's row p is row 400 t + p of A, and that is
    the row of the output block's entry. -/
theorem flushed_eq
    (hpay : ∀ (a : FVec Ideal S400x10000 .bf16) (h : FVec Ideal S10000x128 .bf16) (p : Fin 400) (q : Fin 128),
      k8_pay1 (F := Ideal) a h (ix2 p q) = ∑ l : Fin 10000, a (ix2 p l) * h (ix2 l q))
    (c : Dev nD) (t : Fin cfg8.N) :
    (dat8 (F := Ideal) V c).flushed 2 t
      = ((cfg8.win 2).blk t).view.read (Elt Ideal) (Spec.mm (V c (Pipeline.arrRef spec8 0)) (V c (Pipeline.arrRef spec8 1))) := by
  show (cfg8.win 2).cut (grid8.coords t) ((dat8 V c).after 2 t) = _
  rw [after8_2]
  unfold out8_2
  rw [View.canon_unit_zero hz]
  simp only [View.ld_unit_zero (S := S400x10000) hz, View.ld_unit_zero (S := S10000x128) hz]
  obtain ⟨e0, e1, e2, e3, e4, e5⟩ := idx_facts t
  funext j
  obtain ⟨p, q, rfl⟩ : ∃ (p : Fin 400) (q : Fin 128), j = ix2 p q := ⟨j 0, j 1, eq_ix2 j⟩
  show k8_pay1 (F := Ideal) (iblk8 V c 0 t) (iblk8 V c 1 t) (ix2 p q)
    = Spec.mm (V c (Pipeline.arrRef spec8 0)) (V c (Pipeline.arrRef spec8 1)) (((cfg8.win 2).blk t).view.emb (ix2 p q))
  refine (hpay (iblk8 V c 0 t) (iblk8 V c 1 t) p q).trans ?_
  unfold Spec.mm
  refine Finset.sum_congr rfl fun l _ => ?_
  have h0 : ((cfg8.win 0).blk t).view.emb (ix2 p l) = ix2 ((((cfg8.win 2).blk t).view.emb (ix2 p q)) 0) l := by
    funext a; apply Fin.ext
    match a with
    | ⟨0, _⟩ => show win8_0.index t (0 : Fin 2) * 400 + 1 * p.val = win8_2.index t (0 : Fin 2) * 400 + 1 * p.val; omega
    | ⟨1, _⟩ => show win8_0.index t (1 : Fin 2) * 10000 + 1 * l.val = l.val; omega
  have h1 : ((cfg8.win 1).blk t).view.emb (ix2 l q) = ix2 l ((((cfg8.win 2).blk t).view.emb (ix2 p q)) 1) := by
    funext a; apply Fin.ext
    match a with
    | ⟨0, _⟩ => show win8_1.index t (0 : Fin 2) * 10000 + 1 * l.val = l.val; omega
    | ⟨1, _⟩ => show win8_1.index t (1 : Fin 2) * 128 + 1 * q.val = win8_2.index t (1 : Fin 2) * 128 + 1 * q.val; omega
  have hA : iblk8 V c 0 t (ix2 p l) = V c (Pipeline.arrRef spec8 0) (ix2 ((((cfg8.win 2).blk t).view.emb (ix2 p q)) 0) l) := by
    show V c (Pipeline.arrRef spec8 0) (((cfg8.win 0).blk t).view.emb (ix2 p l)) = _
    exact congrArg (V c (Pipeline.arrRef spec8 0)) h0
  have hH : iblk8 V c 1 t (ix2 l q) = V c (Pipeline.arrRef spec8 1) (ix2 l ((((cfg8.win 2).blk t).view.emb (ix2 p q)) 1)) := by
    show V c (Pipeline.arrRef spec8 1) (((cfg8.win 1).blk t).view.emb (ix2 l q)) = _
    exact congrArg (V c (Pipeline.arrRef spec8 1)) h1
  rw [hA, hH]

/-- An index of the output array is in point `t`'s block iff each coordinate is in the block's range. -/
theorem mem_blk (t : Fin cfg8.N) (i : S10000x128.Idx) :
    i ∈ ((cfg8.win 2).blk t).view.set ↔ ∀ a : Fin 2, win8_2.index t a * S400x128.size a ≤ (i a).val ∧ (i a).val < win8_2.index t a * S400x128.size a + S400x128.size a := by
  show i ∈ ((View.whole (Pipeline.arrRef spec8 2)).slice (win8_2.rect t)).set ↔ _
  rw [View.set_slice_whole, Rect.mem_set_unit]
  exact Iff.rfl

/-- Every index of the output array is in some point's block: row r is in block r / 400. -/
theorem cover (i : S10000x128.Idx) : ∃ t : Fin cfg8.N, (cfg8.win 2).flush t = true ∧ i ∈ ((cfg8.win 2).blk t).view.set := by
  have hi0 : (i 0).val < 10000 := (i 0).isLt
  have hi1 : (i 1).val < 128 := (i 1).isLt
  have hlt : (i 0).val / 400 < grid8.N := by rw [N_8]; omega
  refine ⟨⟨(i 0).val / 400, hlt⟩, flush8_2 _, ?_⟩
  rw [mem_blk]
  obtain ⟨e0, e1, e2, e3, e4, e5⟩ := idx_facts ⟨(i 0).val / 400, hlt⟩
  have e4' : win8_2.index ⟨(i 0).val / 400, hlt⟩ (0 : Fin 2) = (i 0).val / 400 := e4
  intro a
  match a with
  | ⟨0, _⟩ =>
    show win8_2.index ⟨(i 0).val / 400, hlt⟩ (0 : Fin 2) * 400 ≤ (i 0).val ∧ (i 0).val < win8_2.index ⟨(i 0).val / 400, hlt⟩ (0 : Fin 2) * 400 + 400
    omega
  | ⟨1, _⟩ =>
    show win8_2.index ⟨(i 0).val / 400, hlt⟩ (1 : Fin 2) * 128 ≤ (i 1).val ∧ (i 1).val < win8_2.index ⟨(i 0).val / 400, hlt⟩ (1 : Fin 2) * 128 + 128
    omega

/-- The output array after the region: A · h of the two input arrays as the region finds them. -/
theorem out
    (hpay : ∀ (a : FVec Ideal S400x10000 .bf16) (h : FVec Ideal S10000x128 .bf16) (p : Fin 400) (q : Fin 128),
      k8_pay1 (F := Ideal) a h (ix2 p q) = ∑ l : Fin 10000, a (ix2 p l) * h (ix2 l q))
    (c : Dev nD) :
    (dat8 (F := Ideal) V c).arrAt 2 cfg8.N = Spec.mm (V c (Pipeline.arrRef spec8 0)) (V c (Pipeline.arrRef spec8 1)) :=
  (dat8 (F := Ideal) V c).arrAt_eq_of_cover 2 _ (fun t _ => flushed_eq V hpay c t) (cover)

end Cert.KVal.R8

end
-- ==== Proof.R9.lean ====
/-
  One propagation step, read off the pipeline's proof data: after all 25 grid points have written their
  blocks back, the output array of the step is A · h, where A and h are the two input arrays as the
  region finds them. Point `t` computes rows 400 t … 400 t + 399: its block of A is those rows (all 10000
  columns), its block of h is the whole array, and the 25 row blocks tile the 10000 rows.
-/
import proofs.«157186_g48524540510793_cont_sun_m_1392_3_alg».proof.Proof.Gen.KernelIdeal.Frame
import proofs.«157186_g48524540510793_cont_sun_m_1392_3_alg».proof.Proof.Spec
import Idealize.ShloMosaic.Lib.Pipeline.Value

noncomputable section

namespace Cert.KVal.R9

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the A block and the output block sit at row block `t`,
    column block 0; the h block is the whole array. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point `t` writes back is block `t` of A · h: entry (p, q) of the body's product is the sum over
    `l` of the A block at (p, l) times h at (l, q); the A block's row p is row 400 t + p of A, and that is
    the row of the output block's entry. -/
theorem flushed_eq
    (hpay : ∀ (a : FVec Ideal S400x10000 .bf16) (h : FVec Ideal S10000x128 .bf16) (p : Fin 400) (q : Fin 128),
      k9_pay1 (F := Ideal) a h (ix2 p q) = ∑ l : Fin 10000, a (ix2 p l) * h (ix2 l q))
    (c : Dev nD) (t : Fin cfg9.N) :
    (dat9 (F := Ideal) V c).flushed 2 t
      = ((cfg9.win 2).blk t).view.read (Elt Ideal) (Spec.mm (V c (Pipeline.arrRef spec9 0)) (V c (Pipeline.arrRef spec9 1))) := by
  show (cfg9.win 2).cut (grid9.coords t) ((dat9 V c).after 2 t) = _
  rw [after9_2]
  unfold out9_2
  rw [View.canon_unit_zero hz]
  simp only [View.ld_unit_zero (S := S400x10000) hz, View.ld_unit_zero (S := S10000x128) hz]
  obtain ⟨e0, e1, e2, e3, e4, e5⟩ := idx_facts t
  funext j
  obtain ⟨p, q, rfl⟩ : ∃ (p : Fin 400) (q : Fin 128), j = ix2 p q := ⟨j 0, j 1, eq_ix2 j⟩
  show k9_pay1 (F := Ideal) (iblk9 V c 0 t) (iblk9 V c 1 t) (ix2 p q)
    = Spec.mm (V c (Pipeline.arrRef spec9 0)) (V c (Pipeline.arrRef spec9 1)) (((cfg9.win 2).blk t).view.emb (ix2 p q))
  refine (hpay (iblk9 V c 0 t) (iblk9 V c 1 t) p q).trans ?_
  unfold Spec.mm
  refine Finset.sum_congr rfl fun l _ => ?_
  have h0 : ((cfg9.win 0).blk t).view.emb (ix2 p l) = ix2 ((((cfg9.win 2).blk t).view.emb (ix2 p q)) 0) l := by
    funext a; apply Fin.ext
    match a with
    | ⟨0, _⟩ => show win9_0.index t (0 : Fin 2) * 400 + 1 * p.val = win9_2.index t (0 : Fin 2) * 400 + 1 * p.val; omega
    | ⟨1, _⟩ => show win9_0.index t (1 : Fin 2) * 10000 + 1 * l.val = l.val; omega
  have h1 : ((cfg9.win 1).blk t).view.emb (ix2 l q) = ix2 l ((((cfg9.win 2).blk t).view.emb (ix2 p q)) 1) := by
    funext a; apply Fin.ext
    match a with
    | ⟨0, _⟩ => show win9_1.index t (0 : Fin 2) * 10000 + 1 * l.val = l.val; omega
    | ⟨1, _⟩ => show win9_1.index t (1 : Fin 2) * 128 + 1 * q.val = win9_2.index t (1 : Fin 2) * 128 + 1 * q.val; omega
  have hA : iblk9 V c 0 t (ix2 p l) = V c (Pipeline.arrRef spec9 0) (ix2 ((((cfg9.win 2).blk t).view.emb (ix2 p q)) 0) l) := by
    show V c (Pipeline.arrRef spec9 0) (((cfg9.win 0).blk t).view.emb (ix2 p l)) = _
    exact congrArg (V c (Pipeline.arrRef spec9 0)) h0
  have hH : iblk9 V c 1 t (ix2 l q) = V c (Pipeline.arrRef spec9 1) (ix2 l ((((cfg9.win 2).blk t).view.emb (ix2 p q)) 1)) := by
    show V c (Pipeline.arrRef spec9 1) (((cfg9.win 1).blk t).view.emb (ix2 l q)) = _
    exact congrArg (V c (Pipeline.arrRef spec9 1)) h1
  rw [hA, hH]

/-- An index of the output array is in point `t`'s block iff each coordinate is in the block's range. -/
theorem mem_blk (t : Fin cfg9.N) (i : S10000x128.Idx) :
    i ∈ ((cfg9.win 2).blk t).view.set ↔ ∀ a : Fin 2, win9_2.index t a * S400x128.size a ≤ (i a).val ∧ (i a).val < win9_2.index t a * S400x128.size a + S400x128.size a := by
  show i ∈ ((View.whole (Pipeline.arrRef spec9 2)).slice (win9_2.rect t)).set ↔ _
  rw [View.set_slice_whole, Rect.mem_set_unit]
  exact Iff.rfl

/-- Every index of the output array is in some point's block: row r is in block r / 400. -/
theorem cover (i : S10000x128.Idx) : ∃ t : Fin cfg9.N, (cfg9.win 2).flush t = true ∧ i ∈ ((cfg9.win 2).blk t).view.set := by
  have hi0 : (i 0).val < 10000 := (i 0).isLt
  have hi1 : (i 1).val < 128 := (i 1).isLt
  have hlt : (i 0).val / 400 < grid9.N := by rw [N_9]; omega
  refine ⟨⟨(i 0).val / 400, hlt⟩, flush9_2 _, ?_⟩
  rw [mem_blk]
  obtain ⟨e0, e1, e2, e3, e4, e5⟩ := idx_facts ⟨(i 0).val / 400, hlt⟩
  have e4' : win9_2.index ⟨(i 0).val / 400, hlt⟩ (0 : Fin 2) = (i 0).val / 400 := e4
  intro a
  match a with
  | ⟨0, _⟩ =>
    show win9_2.index ⟨(i 0).val / 400, hlt⟩ (0 : Fin 2) * 400 ≤ (i 0).val ∧ (i 0).val < win9_2.index ⟨(i 0).val / 400, hlt⟩ (0 : Fin 2) * 400 + 400
    omega
  | ⟨1, _⟩ =>
    show win9_2.index ⟨(i 0).val / 400, hlt⟩ (1 : Fin 2) * 128 ≤ (i 1).val ∧ (i 1).val < win9_2.index ⟨(i 0).val / 400, hlt⟩ (1 : Fin 2) * 128 + 128
    omega

/-- The output array after the region: A · h of the two input arrays as the region finds them. -/
theorem out
    (hpay : ∀ (a : FVec Ideal S400x10000 .bf16) (h : FVec Ideal S10000x128 .bf16) (p : Fin 400) (q : Fin 128),
      k9_pay1 (F := Ideal) a h (ix2 p q) = ∑ l : Fin 10000, a (ix2 p l) * h (ix2 l q))
    (c : Dev nD) :
    (dat9 (F := Ideal) V c).arrAt 2 cfg9.N = Spec.mm (V c (Pipeline.arrRef spec9 0)) (V c (Pipeline.arrRef spec9 1)) :=
  (dat9 (F := Ideal) V c).arrAt_eq_of_cover 2 _ (fun t _ => flushed_eq V hpay c t) (cover)

end Cert.KVal.R9

end
-- ==== Proof.R10.lean ====
/-
  One propagation step, read off the pipeline's proof data: after all 25 grid points have written their
  blocks back, the output array of the step is A · h, where A and h are the two input arrays as the
  region finds them. Point `t` computes rows 400 t … 400 t + 399: its block of A is those rows (all 10000
  columns), its block of h is the whole array, and the 25 row blocks tile the 10000 rows.
-/
import proofs.«157186_g48524540510793_cont_sun_m_1392_3_alg».proof.Proof.Gen.KernelIdeal.Frame
import proofs.«157186_g48524540510793_cont_sun_m_1392_3_alg».proof.Proof.Spec
import Idealize.ShloMosaic.Lib.Pipeline.Value

noncomputable section

namespace Cert.KVal.R10

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the A block and the output block sit at row block `t`,
    column block 0; the h block is the whole array. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What point `t` writes back is block `t` of A · h: entry (p, q) of the body's product is the sum over
    `l` of the A block at (p, l) times h at (l, q); the A block's row p is row 400 t + p of A, and that is
    the row of the output block's entry. -/
theorem flushed_eq
    (hpay : ∀ (a : FVec Ideal S400x10000 .bf16) (h : FVec Ideal S10000x128 .bf16) (p : Fin 400) (q : Fin 128),
      k10_pay1 (F := Ideal) a h (ix2 p q) = ∑ l : Fin 10000, a (ix2 p l) * h (ix2 l q))
    (c : Dev nD) (t : Fin cfg10.N) :
    (dat10 (F := Ideal) V c).flushed 2 t
      = ((cfg10.win 2).blk t).view.read (Elt Ideal) (Spec.mm (V c (Pipeline.arrRef spec10 0)) (V c (Pipeline.arrRef spec10 1))) := by
  show (cfg10.win 2).cut (grid10.coords t) ((dat10 V c).after 2 t) = _
  rw [after10_2]
  unfold out10_2
  rw [View.canon_unit_zero hz]
  simp only [View.ld_unit_zero (S := S400x10000) hz, View.ld_unit_zero (S := S10000x128) hz]
  obtain ⟨e0, e1, e2, e3, e4, e5⟩ := idx_facts t
  funext j
  obtain ⟨p, q, rfl⟩ : ∃ (p : Fin 400) (q : Fin 128), j = ix2 p q := ⟨j 0, j 1, eq_ix2 j⟩
  show k10_pay1 (F := Ideal) (iblk10 V c 0 t) (iblk10 V c 1 t) (ix2 p q)
    = Spec.mm (V c (Pipeline.arrRef spec10 0)) (V c (Pipeline.arrRef spec10 1)) (((cfg10.win 2).blk t).view.emb (ix2 p q))
  refine (hpay (iblk10 V c 0 t) (iblk10 V c 1 t) p q).trans ?_
  unfold Spec.mm
  refine Finset.sum_congr rfl fun l _ => ?_
  have h0 : ((cfg10.win 0).blk t).view.emb (ix2 p l) = ix2 ((((cfg10.win 2).blk t).view.emb (ix2 p q)) 0) l := by
    funext a; apply Fin.ext
    match a with
    | ⟨0, _⟩ => show win10_0.index t (0 : Fin 2) * 400 + 1 * p.val = win10_2.index t (0 : Fin 2) * 400 + 1 * p.val; omega
    | ⟨1, _⟩ => show win10_0.index t (1 : Fin 2) * 10000 + 1 * l.val = l.val; omega
  have h1 : ((cfg10.win 1).blk t).view.emb (ix2 l q) = ix2 l ((((cfg10.win 2).blk t).view.emb (ix2 p q)) 1) := by
    funext a; apply Fin.ext
    match a with
    | ⟨0, _⟩ => show win10_1.index t (0 : Fin 2) * 10000 + 1 * l.val = l.val; omega
    | ⟨1, _⟩ => show win10_1.index t (1 : Fin 2) * 128 + 1 * q.val = win10_2.index t (1 : Fin 2) * 128 + 1 * q.val; omega
  have hA : iblk10 V c 0 t (ix2 p l) = V c (Pipeline.arrRef spec10 0) (ix2 ((((cfg10.win 2).blk t).view.emb (ix2 p q)) 0) l) := by
    show V c (Pipeline.arrRef spec10 0) (((cfg10.win 0).blk t).view.emb (ix2 p l)) = _
    exact congrArg (V c (Pipeline.arrRef spec10 0)) h0
  have hH : iblk10 V c 1 t (ix2 l q) = V c (Pipeline.arrRef spec10 1) (ix2 l ((((cfg10.win 2).blk t).view.emb (ix2 p q)) 1)) := by
    show V c (Pipeline.arrRef spec10 1) (((cfg10.win 1).blk t).view.emb (ix2 l q)) = _
    exact congrArg (V c (Pipeline.arrRef spec10 1)) h1
  rw [hA, hH]

/-- An index of the output array is in point `t`'s block iff each coordinate is in the block's range. -/
theorem mem_blk (t : Fin cfg10.N) (i : S10000x128.Idx) :
    i ∈ ((cfg10.win 2).blk t).view.set ↔ ∀ a : Fin 2, win10_2.index t a * S400x128.size a ≤ (i a).val ∧ (i a).val < win10_2.index t a * S400x128.size a + S400x128.size a := by
  show i ∈ ((View.whole (Pipeline.arrRef spec10 2)).slice (win10_2.rect t)).set ↔ _
  rw [View.set_slice_whole, Rect.mem_set_unit]
  exact Iff.rfl

/-- Every index of the output array is in some point's block: row r is in block r / 400. -/
theorem cover (i : S10000x128.Idx) : ∃ t : Fin cfg10.N, (cfg10.win 2).flush t = true ∧ i ∈ ((cfg10.win 2).blk t).view.set := by
  have hi0 : (i 0).val < 10000 := (i 0).isLt
  have hi1 : (i 1).val < 128 := (i 1).isLt
  have hlt : (i 0).val / 400 < grid10.N := by rw [N_10]; omega
  refine ⟨⟨(i 0).val / 400, hlt⟩, flush10_2 _, ?_⟩
  rw [mem_blk]
  obtain ⟨e0, e1, e2, e3, e4, e5⟩ := idx_facts ⟨(i 0).val / 400, hlt⟩
  have e4' : win10_2.index ⟨(i 0).val / 400, hlt⟩ (0 : Fin 2) = (i 0).val / 400 := e4
  intro a
  match a with
  | ⟨0, _⟩ =>
    show win10_2.index ⟨(i 0).val / 400, hlt⟩ (0 : Fin 2) * 400 ≤ (i 0).val ∧ (i 0).val < win10_2.index ⟨(i 0).val / 400, hlt⟩ (0 : Fin 2) * 400 + 400
    omega
  | ⟨1, _⟩ =>
    show win10_2.index ⟨(i 0).val / 400, hlt⟩ (1 : Fin 2) * 128 ≤ (i 1).val ∧ (i 1).val < win10_2.index ⟨(i 0).val / 400, hlt⟩ (1 : Fin 2) * 128 + 128
    omega

/-- The output array after the region: A · h of the two input arrays as the region finds them. -/
theorem out
    (hpay : ∀ (a : FVec Ideal S400x10000 .bf16) (h : FVec Ideal S10000x128 .bf16) (p : Fin 400) (q : Fin 128),
      k10_pay1 (F := Ideal) a h (ix2 p q) = ∑ l : Fin 10000, a (ix2 p l) * h (ix2 l q))
    (c : Dev nD) :
    (dat10 (F := Ideal) V c).arrAt 2 cfg10.N = Spec.mm (V c (Pipeline.arrRef spec10 0)) (V c (Pipeline.arrRef spec10 1)) :=
  (dat10 (F := Ideal) V c).arrAt_eq_of_cover 2 _ (fun t _ => flushed_eq V hpay c t) (cover)

end Cert.KVal.R10

end
-- ==== Proof.R11.lean ====
/-
  The last step, with its row-wise log-softmax epilogue, read off the pipeline's proof data: after all 25
  grid points have written their blocks back, the output array is lsm (A · h). Point `t` computes rows
  400 t … 400 t + 399 of A · h from its block of A (those rows) and the whole of h, and log-softmax of a
  row reads that row only, so the block's log-softmax is the whole array's on those rows.
-/
import proofs.«157186_g48524540510793_cont_sun_m_1392_3_alg».proof.Proof.Gen.KernelIdeal.Frame
import proofs.«157186_g48524540510793_cont_sun_m_1392_3_alg».proof.Proof.Spec
import proofs.«157186_g48524540510793_cont_sun_m_1392_3_alg».proof.Proof.SpecLaws
import Idealize.ShloMosaic.Lib.Pipeline.Value

noncomputable section

namespace Cert.KVal.R11

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the A block and the output block sit at row block `t`,
    column block 0; the h block is the whole array. -/
theorem idx_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- What point `t` writes back is block `t` of lsm (A · h). -/
theorem flushed_eq
    (hpay : ∀ (a : FVec Ideal S400x10000 .bf16) (h : FVec Ideal S10000x128 .bf16) (p : Fin 400) (q : Fin 128),
      k11_pay1 (F := Ideal) a h (ix2 p q) = Spec.lsm (Spec.mm (a : Spec.Mat 400 10000) (h : Spec.Mat 10000 128)) (ix2 p q))
    (c : Dev nD) (t : Fin cfg11.N) :
    (dat11 (F := Ideal) V c).flushed 2 t
      = ((cfg11.win 2).blk t).view.read (Elt Ideal) (Spec.lsm (Spec.mm (V c (Pipeline.arrRef spec11 0)) (V c (Pipeline.arrRef spec11 1)))) := by
  show (cfg11.win 2).cut (grid11.coords t) ((dat11 V c).after 2 t) = _
  rw [after11_2]
  unfold out11_2
  rw [View.canon_unit_zero hz]
  simp only [View.ld_unit_zero (S := S400x10000) hz, View.ld_unit_zero (S := S10000x128) hz]
  obtain ⟨e0, e1, e2, e3, e4, e5⟩ := idx_facts t
  have htN : t.val < 25 := by
    have h := t.isLt; have hN : cfg11.N = 25 := N_11; omega
  funext j
  obtain ⟨p, q, rfl⟩ : ∃ (p : Fin 400) (q : Fin 128), j = ix2 p q := ⟨j 0, j 1, eq_ix2 j⟩
  have hr : t.val * 400 + p.val < 10000 := by have := p.isLt; omega
  have hemb : ((cfg11.win 2).blk t).view.emb (ix2 p q) = ix2 (⟨t.val * 400 + p.val, hr⟩ : Fin 10000) q := by
    funext a; apply Fin.ext
    match a with
    | ⟨0, _⟩ => show win11_2.index t (0 : Fin 2) * 400 + 1 * p.val = t.val * 400 + p.val; omega
    | ⟨1, _⟩ => show win11_2.index t (1 : Fin 2) * 128 + 1 * q.val = q.val; omega
  show k11_pay1 (F := Ideal) (iblk11 V c 0 t) (iblk11 V c 1 t) (ix2 p q)
    = Spec.lsm (Spec.mm (V c (Pipeline.arrRef spec11 0)) (V c (Pipeline.arrRef spec11 1))) (((cfg11.win 2).blk t).view.emb (ix2 p q))
  rw [hemb]
  refine (hpay (iblk11 V c 0 t) (iblk11 V c 1 t) p q).trans ?_
  refine Spec.lsm_congr_row _ _ p ⟨t.val * 400 + p.val, hr⟩ q fun l => ?_
  unfold Spec.mm
  refine Finset.sum_congr rfl fun k _ => ?_
  have h0 : ((cfg11.win 0).blk t).view.emb (ix2 p k) = ix2 (⟨t.val * 400 + p.val, hr⟩ : Fin 10000) k := by
    funext a; apply Fin.ext
    match a with
    | ⟨0, _⟩ => show win11_0.index t (0 : Fin 2) * 400 + 1 * p.val = t.val * 400 + p.val; omega
    | ⟨1, _⟩ => show win11_0.index t (1 : Fin 2) * 10000 + 1 * k.val = k.val; omega
  have h1 : ((cfg11.win 1).blk t).view.emb (ix2 k l) = ix2 k l := by
    funext a; apply Fin.ext
    match a with
    | ⟨0, _⟩ => show win11_1.index t (0 : Fin 2) * 10000 + 1 * k.val = k.val; omega
    | ⟨1, _⟩ => show win11_1.index t (1 : Fin 2) * 128 + 1 * l.val = l.val; omega
  have hA : iblk11 V c 0 t (ix2 p k) = V c (Pipeline.arrRef spec11 0) (ix2 (⟨t.val * 400 + p.val, hr⟩ : Fin 10000) k) := by
    show V c (Pipeline.arrRef spec11 0) (((cfg11.win 0).blk t).view.emb (ix2 p k)) = _
    exact congrArg (V c (Pipeline.arrRef spec11 0)) h0
  have hH : iblk11 V c 1 t (ix2 k l) = V c (Pipeline.arrRef spec11 1) (ix2 k l) := by
    show V c (Pipeline.arrRef spec11 1) (((cfg11.win 1).blk t).view.emb (ix2 k l)) = _
    exact congrArg (V c (Pipeline.arrRef spec11 1)) h1
  exact congrArg₂ (fun a b : EReal => a * b) hA hH
/-- An index of the output array is in point `t`'s block iff each coordinate is in the block's range. -/
theorem mem_blk (t : Fin cfg11.N) (i : S10000x128.Idx) :
    i ∈ ((cfg11.win 2).blk t).view.set ↔ ∀ a : Fin 2, win11_2.index t a * S400x128.size a ≤ (i a).val ∧ (i a).val < win11_2.index t a * S400x128.size a + S400x128.size a := by
  show i ∈ ((View.whole (Pipeline.arrRef spec11 2)).slice (win11_2.rect t)).set ↔ _
  rw [View.set_slice_whole, Rect.mem_set_unit]
  exact Iff.rfl

/-- Every index of the output array is in some point's block: row r is in block r / 400. -/
theorem cover (i : S10000x128.Idx) : ∃ t : Fin cfg11.N, (cfg11.win 2).flush t = true ∧ i ∈ ((cfg11.win 2).blk t).view.set := by
  have hi0 : (i 0).val < 10000 := (i 0).isLt
  have hi1 : (i 1).val < 128 := (i 1).isLt
  have hlt : (i 0).val / 400 < grid11.N := by rw [N_11]; omega
  refine ⟨⟨(i 0).val / 400, hlt⟩, flush11_2 _, ?_⟩
  rw [mem_blk]
  obtain ⟨e0, e1, e2, e3, e4, e5⟩ := idx_facts ⟨(i 0).val / 400, hlt⟩
  have e4' : win11_2.index ⟨(i 0).val / 400, hlt⟩ (0 : Fin 2) = (i 0).val / 400 := e4
  intro a
  match a with
  | ⟨0, _⟩ =>
    show win11_2.index ⟨(i 0).val / 400, hlt⟩ (0 : Fin 2) * 400 ≤ (i 0).val ∧ (i 0).val < win11_2.index ⟨(i 0).val / 400, hlt⟩ (0 : Fin 2) * 400 + 400
    omega
  | ⟨1, _⟩ =>
    show win11_2.index ⟨(i 0).val / 400, hlt⟩ (1 : Fin 2) * 128 ≤ (i 1).val ∧ (i 1).val < win11_2.index ⟨(i 0).val / 400, hlt⟩ (1 : Fin 2) * 128 + 128
    omega

/-- The output array after the region: lsm (A · h) of the two input arrays as the region finds them. -/
theorem out
    (hpay : ∀ (a : FVec Ideal S400x10000 .bf16) (h : FVec Ideal S10000x128 .bf16) (p : Fin 400) (q : Fin 128),
      k11_pay1 (F := Ideal) a h (ix2 p q) = Spec.lsm (Spec.mm (a : Spec.Mat 400 10000) (h : Spec.Mat 10000 128)) (ix2 p q))
    (c : Dev nD) :
    (dat11 (F := Ideal) V c).arrAt 2 cfg11.N = Spec.lsm (Spec.mm (V c (Pipeline.arrRef spec11 0)) (V c (Pipeline.arrRef spec11 1))) :=
  (dat11 (F := Ideal) V c).arrAt_eq_of_cover 2 _ (fun t _ => flushed_eq V hpay c t) (cover)

end Cert.KVal.R11

end
-- ==== Proof.Chain.lean ====
/-
  The chain through the program's boundaries: what the twelve regions and the two host reshapes leave in the
  result buffer is the network G applied to the six launched arrays.

  Going forward from the launch, with X, A, W₁, b₁, W₂, b₂ the launched arrays:

      the first reshape      b₁ as a one-row matrix;
      region 0               H₀ = X · W₁ + b₁;
      region 1               A narrowed (entry by entry, the same matrix on the extended reals), and A · H₀;
      regions 2 to 5         four more propagation steps: H₅ = A · (A · (A · (A · (A · H₀))));
      the second reshape     b₂ as a one-row matrix;
      region 6               K₀ = elu H₅ · W₂ + b₂;
      regions 7 to 10        four propagation steps of K₀;
      region 11              the fifth step, then the row-wise log-softmax.

  Each boundary's contents are a fold over the previous boundary's; a buffer a region does not write (it is no
  window of the region, or an input window) is as the region found it, and a host stretch changes only the
  buffer its reshape writes. So each value is read once, from the boundary before it, and the narrowed A is
  carried boundary by boundary from region 1's exit to region 11's entry.
-/
import proofs.«157186_g48524540510793_cont_sun_m_1392_3_alg».proof.Proof.Gen.KernelIdeal.Frame
import proofs.«157186_g48524540510793_cont_sun_m_1392_3_alg».proof.Proof.Spec
import proofs.«157186_g48524540510793_cont_sun_m_1392_3_alg».proof.Proof.SpecLaws
import proofs.«157186_g48524540510793_cont_sun_m_1392_3_alg».proof.Proof.Payloads
import proofs.«157186_g48524540510793_cont_sun_m_1392_3_alg».proof.Proof.R0
import proofs.«157186_g48524540510793_cont_sun_m_1392_3_alg».proof.Proof.R1
import proofs.«157186_g48524540510793_cont_sun_m_1392_3_alg».proof.Proof.R2
import proofs.«157186_g48524540510793_cont_sun_m_1392_3_alg».proof.Proof.R3
import proofs.«157186_g48524540510793_cont_sun_m_1392_3_alg».proof.Proof.R4
import proofs.«157186_g48524540510793_cont_sun_m_1392_3_alg».proof.Proof.R5
import proofs.«157186_g48524540510793_cont_sun_m_1392_3_alg».proof.Proof.R6
import proofs.«157186_g48524540510793_cont_sun_m_1392_3_alg».proof.Proof.R7
import proofs.«157186_g48524540510793_cont_sun_m_1392_3_alg».proof.Proof.R8
import proofs.«157186_g48524540510793_cont_sun_m_1392_3_alg».proof.Proof.R9
import proofs.«157186_g48524540510793_cont_sun_m_1392_3_alg».proof.Proof.R10
import proofs.«157186_g48524540510793_cont_sun_m_1392_3_alg».proof.Proof.R11
import Idealize.ShloMosaic.Lib.Pipeline.Value
import Idealize.ShloMosaic.Lib.StableHlo.Run
import Idealize.ShloMosaic.Lib.ValueLayout

noncomputable section

namespace Cert.KVal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-! ## The two host stretches: one reshape each -/

/-- The first host stretch writes the bias row of the first layer only: any other buffer is as launched. -/
theorem W1_keep (b : Ref sig .tc) (hb : b ≠ main_v0) :
    W1 (F := Ideal) m ρ c (Proc.devRef .tc b) = m ((c : Thread nD τ).loc b) :=
  (StableHlo.after_of_forall_not_mem (b := Proc.devRef .tc b) _ _ (List.forall_iff_forall_mem.mp (by
      simp only [hostOps0, List.Forall, StableHlo.reshape_writes, Finset.mem_singleton]
      exact StableHlo.devRef_ne_of_ne hb))).trans rfl

/-- The bias row of the first layer is the bias vector viewed as a one-row matrix. -/
theorem W1_v0 : (W1 (F := Ideal) m ρ c (Proc.devRef .tc main_v0) : S1x128.Idx → EReal)
    = shapeCast (s := S128) S1x128 (m ((c : Thread nD τ).loc main_arg3)) shapeCasts_S128_S1x128 := by
  show StableHlo.after hostOps0 (W0 (F := Ideal) m ρ c) (Proc.devRef .tc main_v0) = _
  after_results
  rfl

/-- Region 0's output: the first affine map of the launched arrays. -/
theorem W2_v1 : W2 (F := Ideal) m ρ c (Proc.devRef .tc main_v1)
    = Spec.lin (m ((c : Thread nD τ).loc main_arg0)) (m ((c : Thread nD τ).loc main_arg2)) (m ((c : Thread nD τ).loc main_arg3)) := by
  refine (W2_arr m ρ c 3).trans ?_
  refine (R0.out (V1 m ρ) Cert.Payloads.pay0 c).trans ?_
  show Spec.linRow (W1 (F := Ideal) m ρ c (Proc.devRef .tc main_arg0)) (W1 (F := Ideal) m ρ c (Proc.devRef .tc main_arg2))
      (W1 (F := Ideal) m ρ c (Proc.devRef .tc main_v0)) = _
  rw [W1_keep m ρ c main_arg0 (by decide), W1_keep m ρ c main_arg2 (by decide)]
  refine Spec.linRow_eq_lin _ _ _ _ fun q => ?_
  rw [W1_v0]
  exact shapeCast_a_1a_apply _ _ 0 q

/-- The second host stretch writes the bias row of the second layer only: any other buffer is as before it. -/
theorem W8_keep (b : Ref sig .tc) (hb : b ≠ main_v7) :
    W8 (F := Ideal) m ρ c (Proc.devRef .tc b) = W7 (F := Ideal) m ρ c (Proc.devRef .tc b) :=
  StableHlo.after_of_forall_not_mem (b := Proc.devRef .tc b) _ _ (List.forall_iff_forall_mem.mp (by
      simp only [hostOps6, List.Forall, StableHlo.reshape_writes, Finset.mem_singleton]
      exact StableHlo.devRef_ne_of_ne hb))

/-! ## Region 1: the adjacency matrix narrowed, and the first propagation step -/

/-- The adjacency matrix enters region 1 as launched. -/
theorem W2_arg1 : W2 (F := Ideal) m ρ c (Proc.devRef .tc main_arg1) = m ((c : Thread nD τ).loc main_arg1) :=
  (W2_of_ne m ρ c main_arg1 (by decide)).trans (W1_keep m ρ c main_arg1 (by decide))

/-- Region 1's first output: the adjacency matrix, entry by entry. -/
theorem W3_A : W3 (F := Ideal) m ρ c (Proc.devRef .tc main_v2_0) = m ((c : Thread nD τ).loc main_arg1) := by
  refine (W3_arr m ρ c 2).trans ?_
  refine (R1.outA (V2 m ρ) Cert.Payloads.pay1a c).trans ?_
  show W2 (F := Ideal) m ρ c (Proc.devRef .tc main_arg1) = _
  exact W2_arg1 m ρ c

/-- Region 1's second output: the first propagation step. -/
theorem W3_v2_1 : W3 (F := Ideal) m ρ c (Proc.devRef .tc main_v2_1) = Spec.mm (m ((c : Thread nD τ).loc main_arg1)) (W2 (F := Ideal) m ρ c (Proc.devRef .tc main_v1)) := by
  refine (W3_arr m ρ c 3).trans ?_
  refine (R1.outH (V2 m ρ) Cert.Payloads.pay1b c).trans ?_
  show Spec.mm (W2 (F := Ideal) m ρ c (Proc.devRef .tc main_arg1)) (W2 (F := Ideal) m ρ c (Proc.devRef .tc main_v1)) = _
  rw [W2_arg1]

/-! ## Regions 2 to 5: four more propagation steps -/

/-- Region 2's output: one propagation step of what region 2 found. -/
theorem W4_v3 : W4 (F := Ideal) m ρ c (Proc.devRef .tc main_v3) = Spec.mm (m ((c : Thread nD τ).loc main_arg1)) (W3 (F := Ideal) m ρ c (Proc.devRef .tc main_v2_1)) := by
  refine (W4_arr m ρ c 2).trans ?_
  refine (R2.out (V3 m ρ) Cert.Payloads.pay2 c).trans ?_
  show Spec.mm (W3 (F := Ideal) m ρ c (Proc.devRef .tc main_v2_0)) (W3 (F := Ideal) m ρ c (Proc.devRef .tc main_v2_1)) = _
  rw [W3_A]

/-- Region 2 reads the narrowed adjacency matrix through an input window and leaves it as it was. -/
theorem W4_A : W4 (F := Ideal) m ρ c (Proc.devRef .tc main_v2_0) = m ((c : Thread nD τ).loc main_arg1) :=
  ((W4_arr m ρ c 0).trans (((dat2 (V3 m ρ) c).arrAt_in 0 rfl _).trans (A_eq2 (V3 m ρ) c 0))).trans (W3_A m ρ c)

/-- Region 3's output: one propagation step of what region 3 found. -/
theorem W5_v4 : W5 (F := Ideal) m ρ c (Proc.devRef .tc main_v4) = Spec.mm (m ((c : Thread nD τ).loc main_arg1)) (W4 (F := Ideal) m ρ c (Proc.devRef .tc main_v3)) := by
  refine (W5_arr m ρ c 2).trans ?_
  refine (R3.out (V4 m ρ) Cert.Payloads.pay3 c).trans ?_
  show Spec.mm (W4 (F := Ideal) m ρ c (Proc.devRef .tc main_v2_0)) (W4 (F := Ideal) m ρ c (Proc.devRef .tc main_v3)) = _
  rw [W4_A]

/-- Region 3 reads the narrowed adjacency matrix through an input window and leaves it as it was. -/
theorem W5_A : W5 (F := Ideal) m ρ c (Proc.devRef .tc main_v2_0) = m ((c : Thread nD τ).loc main_arg1) :=
  ((W5_arr m ρ c 0).trans (((dat3 (V4 m ρ) c).arrAt_in 0 rfl _).trans (A_eq3 (V4 m ρ) c 0))).trans (W4_A m ρ c)

/-- Region 4's output: one propagation step of what region 4 found. -/
theorem W6_v5 : W6 (F := Ideal) m ρ c (Proc.devRef .tc main_v5) = Spec.mm (m ((c : Thread nD τ).loc main_arg1)) (W5 (F := Ideal) m ρ c (Proc.devRef .tc main_v4)) := by
  refine (W6_arr m ρ c 2).trans ?_
  refine (R4.out (V5 m ρ) Cert.Payloads.pay4 c).trans ?_
  show Spec.mm (W5 (F := Ideal) m ρ c (Proc.devRef .tc main_v2_0)) (W5 (F := Ideal) m ρ c (Proc.devRef .tc main_v4)) = _
  rw [W5_A]

/-- Region 4 reads the narrowed adjacency matrix through an input window and leaves it as it was. -/
theorem W6_A : W6 (F := Ideal) m ρ c (Proc.devRef .tc main_v2_0) = m ((c : Thread nD τ).loc main_arg1) :=
  ((W6_arr m ρ c 0).trans (((dat4 (V5 m ρ) c).arrAt_in 0 rfl _).trans (A_eq4 (V5 m ρ) c 0))).trans (W5_A m ρ c)

/-- Region 5's output: one propagation step of what region 5 found. -/
theorem W7_v6 : W7 (F := Ideal) m ρ c (Proc.devRef .tc main_v6) = Spec.mm (m ((c : Thread nD τ).loc main_arg1)) (W6 (F := Ideal) m ρ c (Proc.devRef .tc main_v5)) := by
  refine (W7_arr m ρ c 2).trans ?_
  refine (R5.out (V6 m ρ) Cert.Payloads.pay5 c).trans ?_
  show Spec.mm (W6 (F := Ideal) m ρ c (Proc.devRef .tc main_v2_0)) (W6 (F := Ideal) m ρ c (Proc.devRef .tc main_v5)) = _
  rw [W6_A]

/-- Region 5 reads the narrowed adjacency matrix through an input window and leaves it as it was. -/
theorem W7_A : W7 (F := Ideal) m ρ c (Proc.devRef .tc main_v2_0) = m ((c : Thread nD τ).loc main_arg1) :=
  ((W7_arr m ρ c 0).trans (((dat5 (V6 m ρ) c).arrAt_in 0 rfl _).trans (A_eq5 (V6 m ρ) c 0))).trans (W6_A m ρ c)

/-! ## The second host stretch and region 6: the second affine map, after ELU -/

/-- The narrowed adjacency matrix across the second host stretch. -/
theorem W8_A : W8 (F := Ideal) m ρ c (Proc.devRef .tc main_v2_0) = m ((c : Thread nD τ).loc main_arg1) :=
  (W8_keep m ρ c main_v2_0 (by decide)).trans (W7_A m ρ c)

/-- The bias row of the second layer is the bias vector viewed as a one-row matrix. -/
theorem W8_v7 : (W8 (F := Ideal) m ρ c (Proc.devRef .tc main_v7) : S1x128.Idx → EReal)
    = shapeCast (s := S128) S1x128 (W7 (F := Ideal) m ρ c (Proc.devRef .tc main_arg5)) shapeCasts_S128_S1x128 := by
  show StableHlo.after hostOps6 (W7 (F := Ideal) m ρ c) (Proc.devRef .tc main_v7) = _
  after_results
  rfl

/-- The second layer's bias vector is as launched when the second host stretch reads it. -/
theorem W7_arg5 : W7 (F := Ideal) m ρ c (Proc.devRef .tc main_arg5) = m ((c : Thread nD τ).loc main_arg5) :=
  calc W7 (F := Ideal) m ρ c (Proc.devRef .tc main_arg5)
    _ = W6 (F := Ideal) m ρ c (Proc.devRef .tc main_arg5) := W7_of_ne m ρ c main_arg5 (by decide)
    _ = W5 (F := Ideal) m ρ c (Proc.devRef .tc main_arg5) := W6_of_ne m ρ c main_arg5 (by decide)
    _ = W4 (F := Ideal) m ρ c (Proc.devRef .tc main_arg5) := W5_of_ne m ρ c main_arg5 (by decide)
    _ = W3 (F := Ideal) m ρ c (Proc.devRef .tc main_arg5) := W4_of_ne m ρ c main_arg5 (by decide)
    _ = W2 (F := Ideal) m ρ c (Proc.devRef .tc main_arg5) := W3_of_ne m ρ c main_arg5 (by decide)
    _ = W1 (F := Ideal) m ρ c (Proc.devRef .tc main_arg5) := W2_of_ne m ρ c main_arg5 (by decide)
    _ = m ((c : Thread nD τ).loc main_arg5) := W1_keep m ρ c main_arg5 (by decide)

/-- The second layer's weights are as launched when region 6 is entered. -/
theorem W8_arg4 : W8 (F := Ideal) m ρ c (Proc.devRef .tc main_arg4) = m ((c : Thread nD τ).loc main_arg4) :=
  calc W8 (F := Ideal) m ρ c (Proc.devRef .tc main_arg4)
    _ = W7 (F := Ideal) m ρ c (Proc.devRef .tc main_arg4) := W8_keep m ρ c main_arg4 (by decide)
    _ = W6 (F := Ideal) m ρ c (Proc.devRef .tc main_arg4) := W7_of_ne m ρ c main_arg4 (by decide)
    _ = W5 (F := Ideal) m ρ c (Proc.devRef .tc main_arg4) := W6_of_ne m ρ c main_arg4 (by decide)
    _ = W4 (F := Ideal) m ρ c (Proc.devRef .tc main_arg4) := W5_of_ne m ρ c main_arg4 (by decide)
    _ = W3 (F := Ideal) m ρ c (Proc.devRef .tc main_arg4) := W4_of_ne m ρ c main_arg4 (by decide)
    _ = W2 (F := Ideal) m ρ c (Proc.devRef .tc main_arg4) := W3_of_ne m ρ c main_arg4 (by decide)
    _ = W1 (F := Ideal) m ρ c (Proc.devRef .tc main_arg4) := W2_of_ne m ρ c main_arg4 (by decide)
    _ = m ((c : Thread nD τ).loc main_arg4) := W1_keep m ρ c main_arg4 (by decide)

/-- Region 6's output: the second affine map of ELU of what the first five steps left. -/
theorem W9_v8 : W9 (F := Ideal) m ρ c (Proc.devRef .tc main_v8)
    = Spec.lin (Spec.elu (W7 (F := Ideal) m ρ c (Proc.devRef .tc main_v6))) (m ((c : Thread nD τ).loc main_arg4)) (m ((c : Thread nD τ).loc main_arg5)) := by
  refine (W9_arr m ρ c 3).trans ?_
  refine (R6.out (V8 m ρ) Cert.Payloads.pay6 c).trans ?_
  show Spec.linRow (Spec.elu (W8 (F := Ideal) m ρ c (Proc.devRef .tc main_v6))) (W8 (F := Ideal) m ρ c (Proc.devRef .tc main_arg4)) (W8 (F := Ideal) m ρ c (Proc.devRef .tc main_v7)) = _
  rw [W8_keep m ρ c main_v6 (by decide), W8_arg4]
  refine Spec.linRow_eq_lin _ _ _ _ fun q => ?_
  rw [W8_v7, W7_arg5]
  exact shapeCast_a_1a_apply _ _ 0 q

/-- Region 6 does not touch the narrowed adjacency matrix. -/
theorem W9_A : W9 (F := Ideal) m ρ c (Proc.devRef .tc main_v2_0) = m ((c : Thread nD τ).loc main_arg1) :=
  (W9_of_ne m ρ c main_v2_0 (by decide)).trans (W8_A m ρ c)

/-! ## Regions 7 to 10: four propagation steps of the second layer -/

/-- Region 7's output: one propagation step of what region 7 found. -/
theorem W10_v9 : W10 (F := Ideal) m ρ c (Proc.devRef .tc main_v9) = Spec.mm (m ((c : Thread nD τ).loc main_arg1)) (W9 (F := Ideal) m ρ c (Proc.devRef .tc main_v8)) := by
  refine (W10_arr m ρ c 2).trans ?_
  refine (R7.out (V9 m ρ) Cert.Payloads.pay7 c).trans ?_
  show Spec.mm (W9 (F := Ideal) m ρ c (Proc.devRef .tc main_v2_0)) (W9 (F := Ideal) m ρ c (Proc.devRef .tc main_v8)) = _
  rw [W9_A]

/-- Region 7 reads the narrowed adjacency matrix through an input window and leaves it as it was. -/
theorem W10_A : W10 (F := Ideal) m ρ c (Proc.devRef .tc main_v2_0) = m ((c : Thread nD τ).loc main_arg1) :=
  ((W10_arr m ρ c 0).trans (((dat7 (V9 m ρ) c).arrAt_in 0 rfl _).trans (A_eq7 (V9 m ρ) c 0))).trans (W9_A m ρ c)

/-- Region 8's output: one propagation step of what region 8 found. -/
theorem W11_v10 : W11 (F := Ideal) m ρ c (Proc.devRef .tc main_v10) = Spec.mm (m ((c : Thread nD τ).loc main_arg1)) (W10 (F := Ideal) m ρ c (Proc.devRef .tc main_v9)) := by
  refine (W11_arr m ρ c 2).trans ?_
  refine (R8.out (V10 m ρ) Cert.Payloads.pay8 c).trans ?_
  show Spec.mm (W10 (F := Ideal) m ρ c (Proc.devRef .tc main_v2_0)) (W10 (F := Ideal) m ρ c (Proc.devRef .tc main_v9)) = _
  rw [W10_A]

/-- Region 8 reads the narrowed adjacency matrix through an input window and leaves it as it was. -/
theorem W11_A : W11 (F := Ideal) m ρ c (Proc.devRef .tc main_v2_0) = m ((c : Thread nD τ).loc main_arg1) :=
  ((W11_arr m ρ c 0).trans (((dat8 (V10 m ρ) c).arrAt_in 0 rfl _).trans (A_eq8 (V10 m ρ) c 0))).trans (W10_A m ρ c)

/-- Region 9's output: one propagation step of what region 9 found. -/
theorem W12_v11 : W12 (F := Ideal) m ρ c (Proc.devRef .tc main_v11) = Spec.mm (m ((c : Thread nD τ).loc main_arg1)) (W11 (F := Ideal) m ρ c (Proc.devRef .tc main_v10)) := by
  refine (W12_arr m ρ c 2).trans ?_
  refine (R9.out (V11 m ρ) Cert.Payloads.pay9 c).trans ?_
  show Spec.mm (W11 (F := Ideal) m ρ c (Proc.devRef .tc main_v2_0)) (W11 (F := Ideal) m ρ c (Proc.devRef .tc main_v10)) = _
  rw [W11_A]

/-- Region 9 reads the narrowed adjacency matrix through an input window and leaves it as it was. -/
theorem W12_A : W12 (F := Ideal) m ρ c (Proc.devRef .tc main_v2_0) = m ((c : Thread nD τ).loc main_arg1) :=
  ((W12_arr m ρ c 0).trans (((dat9 (V11 m ρ) c).arrAt_in 0 rfl _).trans (A_eq9 (V11 m ρ) c 0))).trans (W11_A m ρ c)

/-- Region 10's output: one propagation step of what region 10 found. -/
theorem W13_v12 : W13 (F := Ideal) m ρ c (Proc.devRef .tc main_v12) = Spec.mm (m ((c : Thread nD τ).loc main_arg1)) (W12 (F := Ideal) m ρ c (Proc.devRef .tc main_v11)) := by
  refine (W13_arr m ρ c 2).trans ?_
  refine (R10.out (V12 m ρ) Cert.Payloads.pay10 c).trans ?_
  show Spec.mm (W12 (F := Ideal) m ρ c (Proc.devRef .tc main_v2_0)) (W12 (F := Ideal) m ρ c (Proc.devRef .tc main_v11)) = _
  rw [W12_A]

/-- Region 10 reads the narrowed adjacency matrix through an input window and leaves it as it was. -/
theorem W13_A : W13 (F := Ideal) m ρ c (Proc.devRef .tc main_v2_0) = m ((c : Thread nD τ).loc main_arg1) :=
  ((W13_arr m ρ c 0).trans (((dat10 (V12 m ρ) c).arrAt_in 0 rfl _).trans (A_eq10 (V12 m ρ) c 0))).trans (W12_A m ρ c)

/-! ## Region 11 and the whole chain -/

/-- Region 11's output: the last propagation step, then the row-wise log-softmax. -/
theorem W14_v13 : W14 (F := Ideal) m ρ c (Proc.devRef .tc main_v13) = Spec.lsm (Spec.mm (m ((c : Thread nD τ).loc main_arg1)) (W13 (F := Ideal) m ρ c (Proc.devRef .tc main_v12))) := by
  refine (W14_arr m ρ c 2).trans ?_
  refine (R11.out (V13 m ρ) Cert.Payloads.pay11 c).trans ?_
  show Spec.lsm (Spec.mm (W13 (F := Ideal) m ρ c (Proc.devRef .tc main_v2_0)) (W13 (F := Ideal) m ρ c (Proc.devRef .tc main_v12))) = _
  rw [W13_A]

/-- What the program leaves in its result buffer is the network applied to the six launched arrays. -/
theorem chain : W14 (F := Ideal) m ρ c (Proc.devRef .tc main_v13)
    = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W14_v13, W13_v12, W12_v11, W11_v10, W10_v9, W9_v8, W7_v6, W6_v5, W5_v4, W4_v3, W3_v2_1, W2_v1]
  rfl

end Cert.KVal

end
-- ==== Proof.RefTerm.lean ====
import proofs.«157186_g48524540510793_cont_sun_m_1392_3_alg».proof.ReferenceIdeal
import proofs.«157186_g48524540510793_cont_sun_m_1392_3_alg».proof.Proof.Gen.ReferenceIdeal

/-!
  The reference program's operations composed into one term of its six argument arrays, in pieces:
  the affine map, one propagation step and five of them, ELU, the row maxima, log-softmax.
  Stated for any float values.
-/

noncomputable section

namespace Cert.RefSide

open Cert.ReferenceIdeal Cert.ReferenceIdeal.Gen Idealize.ShloMosaic

variable {F : FTy → Type} [FloatOps F]

/-- x · w + b as the program writes it: the product, the bias broadcast to one row and then to every row, the sum. -/
def linT (x : FVec F S10000x128 .f32) (w : FVec F S128x128 .f32) (b : FVec F S128 .f32) : FVec F S10000x128 .f32 :=
  addf (Host.dotGeneral dot_S10000x128_S128x128_S10000x128_1_0_0_1_n_n none x w)
    (broadcastInDim S10000x128 ![0, 1] bcast_S1x128_S10000x128_0_1 (broadcastInDim S1x128 ![1] bcast_S128_S1x128_1 b))

/-- One propagation step a · h. -/
def propT (a : FVec F S10000x10000 .f32) (h : FVec F S10000x128 .f32) : FVec F S10000x128 .f32 :=
  Host.dotGeneral dot_S10000x10000_S10000x128_S10000x128_1_0_0_1_n_n none a h

/-- Five propagation steps. -/
def prop5T (a : FVec F S10000x10000 .f32) (h : FVec F S10000x128 .f32) : FVec F S10000x128 .f32 :=
  propT a (propT a (propT a (propT a (propT a h))))

/-- The splat of the scalar pattern `w`. -/
def splatT (w : BitVec 32) : FVec F S10000x128 .f32 :=
  broadcastInDim S10000x128 ![] bcast_S_S10000x128 (constant S_ .f32 w)

/-- ELU as the program writes it: select (x > 0) x (1 · expm1 (select (x > 0) 0 x)). -/
def eluT (x : FVec F S10000x128 .f32) : FVec F S10000x128 .f32 :=
  select (cmpf .ogt x (splatT 0x00000000#32)) x
    (mulf (splatT 0x3F800000#32)
      (Host.expm1 (select (cmpf .ogt x (splatT 0x00000000#32))
        (broadcastInDim S10000x128 ![] bcast_S_S10000x128 (id (constant S_ .f32 0x00000000#32))) x)))

/-- The row maxima as the program writes them: the reduction from −∞, then the maximum with a splat of −∞. -/
def muT (y : FVec F S10000x128 .f32) : FVec F S10000 .f32 :=
  maximumf (broadcastInDim S10000 ![] bcast_S_S10000 (constant S_ .f32 0xFF800000#32))
    (Host.reduce FloatOps.maximumf y (constant S_ .f32 0xFF800000#32) reducesTo_S10000x128_S10000_d1 h_S_)

/-- A column broadcast along each row. -/
def colT (v : FVec F S10000 .f32) : FVec F S10000x128 .f32 :=
  broadcastInDim S10000x128 ![0, 1] bcast_S10000x1_S10000x128_0_1 (broadcastInDim S10000x1 ![0] bcast_S10000_S10000x1_0 v)

/-- The shifted entries y − μ. -/
def shT (y : FVec F S10000x128 .f32) : FVec F S10000x128 .f32 := subf y (colT (muT y))

/-- Log-softmax as the program writes it. -/
def lsmT (y : FVec F S10000x128 .f32) : FVec F S10000x128 .f32 :=
  subf (shT y)
    (broadcastInDim S10000x128 ![0, 1] bcast_S10000x1_S10000x128_0_1
      (Host.log (broadcastInDim S10000x1 ![0] bcast_S10000_S10000x1_0
        (Host.reduceAdd (Host.exp (shT y)) (constant S_ .f32 0x00000000#32) reducesTo_S10000x128_S10000_d1 h_S_))))

/-- The operations' composed term of the six arguments. -/
def refTerm (x : FVec F S10000x128 .f32) (a : FVec F S10000x10000 .f32) (w1 : FVec F S128x128 .f32) (b1 : FVec F S128 .f32)
    (w2 : FVec F S128x128 .f32) (b2 : FVec F S128 .f32) : FVec F S10000x128 .f32 :=
  lsmT (prop5T a (linT (eluT (prop5T a (linT x w1 b1))) w2 b2))

end Cert.RefSide

end
-- ==== Proof.RefSide.lean ====
import proofs.«157186_g48524540510793_cont_sun_m_1392_3_alg».proof.ReferenceIdeal
import proofs.«157186_g48524540510793_cont_sun_m_1392_3_alg».proof.Proof.Gen.ReferenceIdeal
import proofs.«157186_g48524540510793_cont_sun_m_1392_3_alg».proof.Proof.RefTerm
import proofs.«157186_g48524540510793_cont_sun_m_1392_3_alg».proof.Proof.Spec
import Idealize.ShloMosaic.Lib.StableHlo.Run

/-!
  The reference program's run: its operations as one straight line (the three outlined functions unfolded at
  their calls), the fold of their results at the result buffer as the composed term `refTerm` of the six
  argument arrays, and hence: every execution terminates with the result at that term and the arguments unchanged.
  The line is cut into stretches (first layer, ELU, second layer, the row-maximum reduction, the rest of
  log-softmax); each stretch's fold is read separately and the five are chained.
-/

noncomputable section

namespace Cert.RefSide

open Cert.ReferenceIdeal Cert.ReferenceIdeal.Gen Idealize.ShloMosaic Idealize.ShloMosaic.TcCoe Idealize.SL.Sem Idealize.ShloMosaic.StableHlo

section Line

variable {F : FTy → Type} [FloatOps F]
/-- The program's operations in order, the calls to the three outlined functions unfolded at their sites
    over each call's own buffers. -/
abbrev ops : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S10000x128 ![0, 1] bcast_S1x128_S10000x128_0_1 : (⟨S1x128, .f32⟩ : BufTy).Contents (Elt F) → (⟨S10000x128, .f32⟩ : BufTy).Contents (Elt F)),
    binary main_v0 main_v2 main_v3 (addf : (⟨S10000x128, .f32⟩ : BufTy).Contents (Elt F) → (⟨S10000x128, .f32⟩ : BufTy).Contents (Elt F) → (⟨S10000x128, .f32⟩ : BufTy).Contents (Elt F)),
    binary main_arg1 main_v3 main_v4 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v4 main_v5 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v5 main_v6 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v6 main_v7 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v7 main_v8 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    TRef.nullary main_call0.cst (constant S_ .f32 0x00000000#32),
    TRef.unary main_call0.cst main_call0.v0 (broadcastInDim S10000x128 ![] bcast_S_S10000x128),
    TRef.binary (.of main_v8 : TRef sig ⟨S10000x128, .f32⟩) main_call0.v0 main_call0.v1 (cmpf .ogt),
    TRef.nullary main_call0.cst_0 (constant S_ .f32 0x00000000#32),
    TRef.unary main_call0.cst_0 main_call0.v2 (broadcastInDim S10000x128 ![] bcast_S_S10000x128),
    TRef.binary (.of main_v8 : TRef sig ⟨S10000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x128 ![] bcast_S_S10000x128),
    TRef.ternary main_call0.v3 main_call0.call0.v1 (.of main_v8 : TRef sig ⟨S10000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S10000x128 ![] bcast_S_S10000x128),
    TRef.binary main_call0.v6 main_call0.v5 main_call0.v7 mulf,
    TRef.ternary main_call0.v1 (.of main_v8 : TRef sig ⟨S10000x128, .f32⟩) main_call0.v7 main_call0.call1.v0 select,
    binary main_v9 main_arg4 main_v10 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v11 (broadcastInDim S1x128 ![1] bcast_S128_S1x128_1 : (⟨S128, .f32⟩ : BufTy).Contents (Elt F) → (⟨S1x128, .f32⟩ : BufTy).Contents (Elt F)),
    unary main_v11 main_v12 (broadcastInDim S10000x128 ![0, 1] bcast_S1x128_S10000x128_0_1 : (⟨S1x128, .f32⟩ : BufTy).Contents (Elt F) → (⟨S10000x128, .f32⟩ : BufTy).Contents (Elt F)),
    binary main_v10 main_v12 main_v13 (addf : (⟨S10000x128, .f32⟩ : BufTy).Contents (Elt F) → (⟨S10000x128, .f32⟩ : BufTy).Contents (Elt F) → (⟨S10000x128, .f32⟩ : BufTy).Contents (Elt F)),
    binary main_arg1 main_v13 main_v14 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v14 main_v15 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v15 main_v16 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v16 main_v17 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v17 main_v18 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    TRef.nullary main_call1.cst (constant S_ .f32 0xFF800000#32),
    TRef.binary (.of main_v18 : TRef sig ⟨S10000x128, .f32⟩) main_call1.cst main_call1.v0 (fun x v => Host.reduce FloatOps.maximumf x v reducesTo_S10000x128_S10000_d1 h_S_),
    TRef.nullary main_call1.cst_0 (constant S_ .f32 0xFF800000#32),
    TRef.unary main_call1.cst_0 main_call1.v1 (broadcastInDim S10000 ![] bcast_S_S10000),
    TRef.binary main_call1.v1 main_call1.v0 main_call1.v2 maximumf,
    TRef.unary main_call1.v2 main_call1.v3 (broadcastInDim S10000x1 ![0] bcast_S10000_S10000x1_0),
    TRef.unary main_call1.v3 main_call1.v4 (broadcastInDim S10000x128 ![0, 1] bcast_S10000x1_S10000x128_0_1),
    TRef.binary (.of main_v18 : TRef sig ⟨S10000x128, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S10000x128_S10000_d1 h_S_),
    TRef.unary main_call1.v7 main_call1.v8 (broadcastInDim S10000x1 ![0] bcast_S10000_S10000x1_0),
    TRef.unary main_call1.v8 main_call1.v9 Host.log,
    TRef.unary main_call1.v9 main_call1.v10 (broadcastInDim S10000x128 ![0, 1] bcast_S10000x1_S10000x128_0_1),
    TRef.binary main_call1.v5 main_call1.v10 main_call1.v11 subf ]

set_option maxRecDepth 4096 in
/-- The program is that straight line: the outlined functions unfolded at their calls, sequencing reassociated. -/
theorem main_eq (c : Dev nD) : main (F := F) c = seq ops := by
  simp only [main, fn_elu.body, fn_where.body, fn_where_0.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The row maxima from −∞: the reduction alone. -/
def rmaxT (y : FVec F S10000x128 .f32) : FVec F S10000 .f32 :=
  Host.reduce FloatOps.maximumf y (constant S_ .f32 0xFF800000#32) reducesTo_S10000x128_S10000_d1 h_S_

/-- Log-softmax with the reduction's result `r0` given: the maximum with the splat of −∞, the shift, the sum of
    exponentials, its logarithm, the difference. -/
def lsmU (y : FVec F S10000x128 .f32) (r0 : FVec F S10000 .f32) : FVec F S10000x128 .f32 :=
  subf (subf y (colT (maximumf (broadcastInDim S10000 ![] bcast_S_S10000 (constant S_ .f32 0xFF800000#32)) r0)))
    (broadcastInDim S10000x128 ![0, 1] bcast_S10000x1_S10000x128_0_1
      (Host.log (broadcastInDim S10000x1 ![0] bcast_S10000_S10000x1_0
        (Host.reduceAdd (Host.exp (subf y (colT (maximumf (broadcastInDim S10000 ![] bcast_S_S10000 (constant S_ .f32 0xFF800000#32)) r0))))
          (constant S_ .f32 0x00000000#32) reducesTo_S10000x128_S10000_d1 h_S_))))

/-- Log-softmax is that, at the reduction of its own argument. -/
theorem lsmT_eq_lsmU (y : FVec F S10000x128 .f32) : lsmT y = lsmU y (rmaxT y) := rfl

/-! ## The line in stretches: the first layer, ELU, the second layer, the row maxima, the rest of log-softmax -/

abbrev opsA : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S10000x128 ![0, 1] bcast_S1x128_S10000x128_0_1 : (⟨S1x128, .f32⟩ : BufTy).Contents (Elt F) → (⟨S10000x128, .f32⟩ : BufTy).Contents (Elt F)),
    binary main_v0 main_v2 main_v3 (addf : (⟨S10000x128, .f32⟩ : BufTy).Contents (Elt F) → (⟨S10000x128, .f32⟩ : BufTy).Contents (Elt F) → (⟨S10000x128, .f32⟩ : BufTy).Contents (Elt F)),
    binary main_arg1 main_v3 main_v4 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v4 main_v5 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v5 main_v6 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v6 main_v7 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v7 main_v8 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)) ]

abbrev opsE : List (HloOp τ sig (Elt F)) :=
  [ TRef.nullary main_call0.cst (constant S_ .f32 0x00000000#32),
    TRef.unary main_call0.cst main_call0.v0 (broadcastInDim S10000x128 ![] bcast_S_S10000x128),
    TRef.binary (.of main_v8 : TRef sig ⟨S10000x128, .f32⟩) main_call0.v0 main_call0.v1 (cmpf .ogt),
    TRef.nullary main_call0.cst_0 (constant S_ .f32 0x00000000#32),
    TRef.unary main_call0.cst_0 main_call0.v2 (broadcastInDim S10000x128 ![] bcast_S_S10000x128),
    TRef.binary (.of main_v8 : TRef sig ⟨S10000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x128 ![] bcast_S_S10000x128),
    TRef.ternary main_call0.v3 main_call0.call0.v1 (.of main_v8 : TRef sig ⟨S10000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S10000x128 ![] bcast_S_S10000x128),
    TRef.binary main_call0.v6 main_call0.v5 main_call0.v7 mulf,
    TRef.ternary main_call0.v1 (.of main_v8 : TRef sig ⟨S10000x128, .f32⟩) main_call0.v7 main_call0.call1.v0 select ]

abbrev opsB : List (HloOp τ sig (Elt F)) :=
  [ binary main_v9 main_arg4 main_v10 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v11 (broadcastInDim S1x128 ![1] bcast_S128_S1x128_1 : (⟨S128, .f32⟩ : BufTy).Contents (Elt F) → (⟨S1x128, .f32⟩ : BufTy).Contents (Elt F)),
    unary main_v11 main_v12 (broadcastInDim S10000x128 ![0, 1] bcast_S1x128_S10000x128_0_1 : (⟨S1x128, .f32⟩ : BufTy).Contents (Elt F) → (⟨S10000x128, .f32⟩ : BufTy).Contents (Elt F)),
    binary main_v10 main_v12 main_v13 (addf : (⟨S10000x128, .f32⟩ : BufTy).Contents (Elt F) → (⟨S10000x128, .f32⟩ : BufTy).Contents (Elt F) → (⟨S10000x128, .f32⟩ : BufTy).Contents (Elt F)),
    binary main_arg1 main_v13 main_v14 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v14 main_v15 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v15 main_v16 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v16 main_v17 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v17 main_v18 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)) ]

abbrev opsL1 : List (HloOp τ sig (Elt F)) :=
  [ TRef.nullary main_call1.cst (constant S_ .f32 0xFF800000#32),
    TRef.binary (.of main_v18 : TRef sig ⟨S10000x128, .f32⟩) main_call1.cst main_call1.v0 (fun x v => Host.reduce FloatOps.maximumf x v reducesTo_S10000x128_S10000_d1 h_S_) ]

abbrev opsL2 : List (HloOp τ sig (Elt F)) :=
  [ TRef.nullary main_call1.cst_0 (constant S_ .f32 0xFF800000#32),
    TRef.unary main_call1.cst_0 main_call1.v1 (broadcastInDim S10000 ![] bcast_S_S10000),
    TRef.binary main_call1.v1 main_call1.v0 main_call1.v2 maximumf,
    TRef.unary main_call1.v2 main_call1.v3 (broadcastInDim S10000x1 ![0] bcast_S10000_S10000x1_0),
    TRef.unary main_call1.v3 main_call1.v4 (broadcastInDim S10000x128 ![0, 1] bcast_S10000x1_S10000x128_0_1),
    TRef.binary (.of main_v18 : TRef sig ⟨S10000x128, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S10000x128_S10000_d1 h_S_),
    TRef.unary main_call1.v7 main_call1.v8 (broadcastInDim S10000x1 ![0] bcast_S10000_S10000x1_0),
    TRef.unary main_call1.v8 main_call1.v9 Host.log,
    TRef.unary main_call1.v9 main_call1.v10 (broadcastInDim S10000x128 ![0, 1] bcast_S10000x1_S10000x128_0_1),
    TRef.binary main_call1.v5 main_call1.v10 main_call1.v11 subf ]

theorem ops_split : (ops : List (HloOp τ sig (Elt F))) = opsA ++ (opsE ++ (opsB ++ (opsL1 ++ opsL2))) := rfl

/-- The fold over a concatenation is the folds in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_split (V : Valuation τ sig (Elt F)) :
    after ops V = after opsL2 (after opsL1 (after opsB (after opsE (after opsA V)))) := by
  rw [ops_split, after_app, after_app, after_app, after_app]

/-- The first layer's stretch leaves x · w₁ + b₁ propagated five times. -/
theorem opsA_out (V : Valuation τ sig (Elt F)) :
    after opsA V (main_v8 : DevRef τ sig)
      = prop5T (V (main_arg1 : DevRef τ sig)) (linT (V (main_arg0 : DevRef τ sig)) (V (main_arg2 : DevRef τ sig)) (V (main_arg3 : DevRef τ sig))) := by
  after_results_simp
  rfl

/-- The ELU stretch leaves ELU of what it was given. -/
theorem opsE_out (V : Valuation τ sig (Elt F)) :
    after opsE V (main_v9 : DevRef τ sig) = eluT (V (main_v8 : DevRef τ sig)) := by
  after_results_simp
  rfl

/-- The second layer's stretch. -/
theorem opsB_out (V : Valuation τ sig (Elt F)) :
    after opsB V (main_v18 : DevRef τ sig)
      = prop5T (V (main_arg1 : DevRef τ sig)) (linT (V (main_v9 : DevRef τ sig)) (V (main_arg4 : DevRef τ sig)) (V (main_arg5 : DevRef τ sig))) := by
  after_results_simp
  rfl

attribute [local irreducible] Host.reduce in
/-- The reduction's stretch leaves the row maxima from −∞. -/
theorem opsL1_out (V : Valuation τ sig (Elt F)) :
    after opsL1 V (main_call1_v0 : DevRef τ sig) = rmaxT (V (main_v18 : DevRef τ sig)) := by
  unfold rmaxT
  after_results_simp
  simp only [TRef.ofBuf, TRef.toBuf, cast_eq]

/-- The rest of log-softmax, from the reduction's result. -/
theorem opsL2_out (V : Valuation τ sig (Elt F)) :
    after opsL2 V (main_v19 : DevRef τ sig) = lsmU (V (main_v18 : DevRef τ sig)) (V (main_call1_v0 : DevRef τ sig)) := by
  after_results_simp
  rfl

theorem opsA_arg0 (V : Valuation τ sig (Elt F)) : after opsA V (main_arg0 : DevRef τ sig) = V (main_arg0 : DevRef τ sig) := by
  after_results_simp
theorem opsA_arg1 (V : Valuation τ sig (Elt F)) : after opsA V (main_arg1 : DevRef τ sig) = V (main_arg1 : DevRef τ sig) := by
  after_results_simp
theorem opsA_arg2 (V : Valuation τ sig (Elt F)) : after opsA V (main_arg2 : DevRef τ sig) = V (main_arg2 : DevRef τ sig) := by
  after_results_simp
theorem opsA_arg3 (V : Valuation τ sig (Elt F)) : after opsA V (main_arg3 : DevRef τ sig) = V (main_arg3 : DevRef τ sig) := by
  after_results_simp
theorem opsA_arg4 (V : Valuation τ sig (Elt F)) : after opsA V (main_arg4 : DevRef τ sig) = V (main_arg4 : DevRef τ sig) := by
  after_results_simp
theorem opsA_arg5 (V : Valuation τ sig (Elt F)) : after opsA V (main_arg5 : DevRef τ sig) = V (main_arg5 : DevRef τ sig) := by
  after_results_simp

theorem opsE_arg0 (V : Valuation τ sig (Elt F)) : after opsE V (main_arg0 : DevRef τ sig) = V (main_arg0 : DevRef τ sig) := by
  after_results_simp
theorem opsE_arg1 (V : Valuation τ sig (Elt F)) : after opsE V (main_arg1 : DevRef τ sig) = V (main_arg1 : DevRef τ sig) := by
  after_results_simp
theorem opsE_arg2 (V : Valuation τ sig (Elt F)) : after opsE V (main_arg2 : DevRef τ sig) = V (main_arg2 : DevRef τ sig) := by
  after_results_simp
theorem opsE_arg3 (V : Valuation τ sig (Elt F)) : after opsE V (main_arg3 : DevRef τ sig) = V (main_arg3 : DevRef τ sig) := by
  after_results_simp
theorem opsE_arg4 (V : Valuation τ sig (Elt F)) : after opsE V (main_arg4 : DevRef τ sig) = V (main_arg4 : DevRef τ sig) := by
  after_results_simp
theorem opsE_arg5 (V : Valuation τ sig (Elt F)) : after opsE V (main_arg5 : DevRef τ sig) = V (main_arg5 : DevRef τ sig) := by
  after_results_simp

theorem opsB_arg0 (V : Valuation τ sig (Elt F)) : after opsB V (main_arg0 : DevRef τ sig) = V (main_arg0 : DevRef τ sig) := by
  after_results_simp
theorem opsB_arg1 (V : Valuation τ sig (Elt F)) : after opsB V (main_arg1 : DevRef τ sig) = V (main_arg1 : DevRef τ sig) := by
  after_results_simp
theorem opsB_arg2 (V : Valuation τ sig (Elt F)) : after opsB V (main_arg2 : DevRef τ sig) = V (main_arg2 : DevRef τ sig) := by
  after_results_simp
theorem opsB_arg3 (V : Valuation τ sig (Elt F)) : after opsB V (main_arg3 : DevRef τ sig) = V (main_arg3 : DevRef τ sig) := by
  after_results_simp
theorem opsB_arg4 (V : Valuation τ sig (Elt F)) : after opsB V (main_arg4 : DevRef τ sig) = V (main_arg4 : DevRef τ sig) := by
  after_results_simp
theorem opsB_arg5 (V : Valuation τ sig (Elt F)) : after opsB V (main_arg5 : DevRef τ sig) = V (main_arg5 : DevRef τ sig) := by
  after_results_simp

theorem opsL1_arg0 (V : Valuation τ sig (Elt F)) : after opsL1 V (main_arg0 : DevRef τ sig) = V (main_arg0 : DevRef τ sig) := by
  after_results_simp
theorem opsL1_arg1 (V : Valuation τ sig (Elt F)) : after opsL1 V (main_arg1 : DevRef τ sig) = V (main_arg1 : DevRef τ sig) := by
  after_results_simp
theorem opsL1_arg2 (V : Valuation τ sig (Elt F)) : after opsL1 V (main_arg2 : DevRef τ sig) = V (main_arg2 : DevRef τ sig) := by
  after_results_simp
theorem opsL1_arg3 (V : Valuation τ sig (Elt F)) : after opsL1 V (main_arg3 : DevRef τ sig) = V (main_arg3 : DevRef τ sig) := by
  after_results_simp
theorem opsL1_arg4 (V : Valuation τ sig (Elt F)) : after opsL1 V (main_arg4 : DevRef τ sig) = V (main_arg4 : DevRef τ sig) := by
  after_results_simp
theorem opsL1_arg5 (V : Valuation τ sig (Elt F)) : after opsL1 V (main_arg5 : DevRef τ sig) = V (main_arg5 : DevRef τ sig) := by
  after_results_simp
theorem opsL1_v18 (V : Valuation τ sig (Elt F)) : after opsL1 V (main_v18 : DevRef τ sig) = V (main_v18 : DevRef τ sig) := by
  after_results_simp

theorem opsL2_arg0 (V : Valuation τ sig (Elt F)) : after opsL2 V (main_arg0 : DevRef τ sig) = V (main_arg0 : DevRef τ sig) := by
  after_results_simp
theorem opsL2_arg1 (V : Valuation τ sig (Elt F)) : after opsL2 V (main_arg1 : DevRef τ sig) = V (main_arg1 : DevRef τ sig) := by
  after_results_simp
theorem opsL2_arg2 (V : Valuation τ sig (Elt F)) : after opsL2 V (main_arg2 : DevRef τ sig) = V (main_arg2 : DevRef τ sig) := by
  after_results_simp
theorem opsL2_arg3 (V : Valuation τ sig (Elt F)) : after opsL2 V (main_arg3 : DevRef τ sig) = V (main_arg3 : DevRef τ sig) := by
  after_results_simp
theorem opsL2_arg4 (V : Valuation τ sig (Elt F)) : after opsL2 V (main_arg4 : DevRef τ sig) = V (main_arg4 : DevRef τ sig) := by
  after_results_simp
theorem opsL2_arg5 (V : Valuation τ sig (Elt F)) : after opsL2 V (main_arg5 : DevRef τ sig) = V (main_arg5 : DevRef τ sig) := by
  after_results_simp

/-- The fold of the whole line at the result buffer is the composed term of the arguments' contents. -/
theorem out_eq (V : Valuation τ sig (Elt F)) :
    after ops V (main_v19 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [after_split, opsL2_out, opsL1_out, opsL1_v18, ← lsmT_eq_lsmU, opsB_out, opsE_out, opsE_arg1, opsE_arg4, opsE_arg5,
    opsA_out, opsA_arg1, opsA_arg4, opsA_arg5]
  rfl

theorem ops_arg0 (V : Valuation τ sig (Elt F)) : after ops V (main_arg0 : DevRef τ sig) = V (main_arg0 : DevRef τ sig) := by
  rw [after_split, opsL2_arg0, opsL1_arg0, opsB_arg0, opsE_arg0, opsA_arg0]
theorem ops_arg1 (V : Valuation τ sig (Elt F)) : after ops V (main_arg1 : DevRef τ sig) = V (main_arg1 : DevRef τ sig) := by
  rw [after_split, opsL2_arg1, opsL1_arg1, opsB_arg1, opsE_arg1, opsA_arg1]
theorem ops_arg2 (V : Valuation τ sig (Elt F)) : after ops V (main_arg2 : DevRef τ sig) = V (main_arg2 : DevRef τ sig) := by
  rw [after_split, opsL2_arg2, opsL1_arg2, opsB_arg2, opsE_arg2, opsA_arg2]
theorem ops_arg3 (V : Valuation τ sig (Elt F)) : after ops V (main_arg3 : DevRef τ sig) = V (main_arg3 : DevRef τ sig) := by
  rw [after_split, opsL2_arg3, opsL1_arg3, opsB_arg3, opsE_arg3, opsA_arg3]
theorem ops_arg4 (V : Valuation τ sig (Elt F)) : after ops V (main_arg4 : DevRef τ sig) = V (main_arg4 : DevRef τ sig) := by
  rw [after_split, opsL2_arg4, opsL1_arg4, opsB_arg4, opsE_arg4, opsA_arg4]
theorem ops_arg5 (V : Valuation τ sig (Elt F)) : after ops V (main_arg5 : DevRef τ sig) = V (main_arg5 : DevRef τ sig) := by
  rw [after_split, opsL2_arg5, opsL1_arg5, opsB_arg5, opsE_arg5, opsA_arg5]

/-- On every device, for any float values, from any memory with zero counters: every weakly fair execution of the
    program terminates with the result at the composed term of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v19).trans (out_eq _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _)⟩)
    (run_seq scopedRefs_eq scopedSems_eq defs main (fun _ => ops) main_eq (fun _ => ops_sub) m ρ)

end Line

/-! ## At the ideal values, given that the composed term is the specification's function -/

/-- If the composed term is the specification's function of the six arrays, every execution of the reference
    terminates with the result at that function of the arguments' launch contents and the arguments unchanged. -/
theorem run_of_eq
    (hG : ∀ (x : FVec Ideal S10000x128 .f32) (a : FVec Ideal S10000x10000 .f32) (w1 : FVec Ideal S128x128 .f32)
      (b1 : FVec Ideal S128 .f32) (w2 : FVec Ideal S128x128 .f32) (b2 : FVec Ideal S128 .f32),
      refTerm (F := Ideal) x a w1 b1 w2 b2 = Cert.Spec.G x a w1 b1 w2 b2)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c => ⟨(h c).1.trans (hG _ _ _ _ _ _), (h c).2⟩) (run_term m ρ)

end Cert.RefSide

end
-- ==== Proof.RefMathLsm.lean ====
import proofs.«157186_g48524540510793_cont_sun_m_1392_3_alg».proof.ReferenceIdeal
import proofs.«157186_g48524540510793_cont_sun_m_1392_3_alg».proof.Proof.Gen.ReferenceIdeal
import proofs.«157186_g48524540510793_cont_sun_m_1392_3_alg».proof.Proof.RefTerm
import proofs.«157186_g48524540510793_cont_sun_m_1392_3_alg».proof.Proof.Spec
import Idealize.ShloMosaic.Lib.IdealHost
import Idealize.ShloMosaic.Lib.ValueIdx
import Idealize.ShloMosaic.Lib.Pipeline.Value
import Idealize.ShloMosaic.PureOps.Ideal.Laws
import Idealize.ShloMosaic.PureOps.Reduce

/-!
  Log-softmax as the reference writes it is the specification's shifted log-softmax, entry by entry, at the
  ideal values: the row reduction with a maximum body from −∞ is the fold of `max` from ⊥ over the row, the
  maximum of that with −∞ is itself, the keep-dimension broadcasts read the row's entry, and the add-reduction
  from 0 is the row's sum.
  The reduction is never opened: every step up to the fold is a rewrite by a lemma stated over variables.
-/

noncomputable section

namespace Cert.RefSide

open Cert.ReferenceIdeal Cert.ReferenceIdeal.Gen Idealize.ShloMosaic Idealize.ShloMosaic.ValueIdx

/-! ## The elementwise operations read at an index (over variables) -/

theorem vsub_apply {s : Shape} (x y : FVec Ideal s .f32) (i : s.Idx) : subf x y i = x i - y i := rfl
theorem vmax_apply {s : Shape} (x y : FVec Ideal s .f32) (i : s.Idx) : maximumf x y i = max (x i) (y i) := rfl
theorem vexp_apply {s : Shape} (x : FVec Ideal s .f32) (i : s.Idx) : Host.exp x i = Ideal.exp (x i) := rfl
theorem vlog_apply {s : Shape} (x : FVec Ideal s .f32) (i : s.Idx) : Host.log x i = Ideal.log (x i) := rfl
theorem const_apply {s : Shape} (w : BitVec 32) (i : s.Idx) :
    constant (F := Ideal) s .f32 w i = Ideal.ofBits .f32 w := rfl
/-- A scalar constant splat over the rows reads the constant. -/
theorem splatRow_apply (w : BitVec 32) (j : S10000.Idx) :
    broadcastInDim S10000 ![] bcast_S_S10000 (constant (F := Ideal) S_ .f32 w) j = Ideal.ofBits .f32 w := rfl

/-! ## The keep-dimension broadcasts read at an index -/

/-- A [10000,1] column broadcast along the rows, read at (r, q), is the column at (r, 0). -/
theorem colOuter_apply {α : Type} (y : S10000x1.Idx → α) (r : Fin 10000) (q : Fin 128) :
    broadcastInDim S10000x128 ![0, 1] bcast_S10000x1_S10000x128_0_1 y (ix2 r q) = y (ix2 r (0 : Fin 1)) := by
  refine broadcastInDim_apply ![0, 1] bcast_S10000x1_S10000x128_0_1 y (ix2 r q) (ix2 r (0 : Fin 1)) ?_
  intro a
  match a with
  | ⟨0, _⟩ => show r.val = if (10000 : ℕ) = 1 then 0 else r.val; simp
  | ⟨1, _⟩ => show (0 : ℕ) = if (1 : ℕ) = 1 then 0 else q.val; simp

/-- A vector laid as a [10000,1] column, read at (r, 0), is entry r. -/
theorem colInner_apply {α : Type} (v : S10000.Idx → α) (r : Fin 10000) :
    broadcastInDim S10000x1 ![0] bcast_S10000_S10000x1_0 v (ix2 r (0 : Fin 1)) = v (ix1 r) := by
  refine broadcastInDim_apply ![0] bcast_S10000_S10000x1_0 v (ix2 r (0 : Fin 1)) (ix1 r) ?_
  intro a
  match a with
  | ⟨0, _⟩ => show r.val = if (10000 : ℕ) = 1 then 0 else r.val; simp

theorem colT_apply (v : FVec Ideal S10000 .f32) (r : Fin 10000) (q : Fin 128) :
    colT (F := Ideal) v (ix2 r q) = v (ix1 r) := by
  unfold colT; rw [colOuter_apply, colInner_apply]

/-! ## The row reduction -/

theorem redS : S10000x128.Reduces [1] S10000 := by decide

/-- The reduced index r with column l put back is (r, l). -/
theorem lift_row (r : Fin 10000) (l : Fin (S10000x128.size 1)) :
    redS.lift (ix1 r) l = ix2 r (⟨l.val, l.isLt⟩ : Fin 128) := by
  funext c; apply Fin.ext
  fin_cases c <;> rfl

/-- The fold of `max` from ⊥ over a row's entries, the entries read through the lifted index. -/
theorem fold_row (y : FVec Ideal S10000x128 .f32) (r : Fin 10000) :
    (Finset.univ : Finset (Fin (S10000x128.size 1))).fold FloatOps.maximumf (⊥ : EReal) (y ∘ redS.lift (ix1 r))
      = Spec.rowMax y r := by
  have hf : (y ∘ redS.lift (ix1 r)) = fun l : Fin 128 => y (ix2 r l) := funext fun l => congrArg y (lift_row r l)
  exact congrArg (fun f => Finset.fold max (⊥ : EReal) f (Finset.univ : Finset (Fin 128))) hf

attribute [local irreducible] Host.reduce in
/-- The row maxima as the program writes them are the row maxima. -/
theorem muT_apply (y : FVec Ideal S10000x128 .f32) (r : Fin 10000) :
    muT (F := Ideal) y (ix1 r) = Spec.rowMax y r := by
  unfold muT
  rw [vmax_apply, splatRow_apply,
    Host.reduce_eq_fold_single FloatOps.maximumf y _ reducesTo_S10000x128_S10000_d1 redS h_S_,
    const_apply, Spec.ofBits_neg_inf, fold_row]
  exact max_eq_right bot_le

attribute [local irreducible] Host.reduce in
theorem shT_apply (y : FVec Ideal S10000x128 .f32) (r : Fin 10000) (q : Fin 128) :
    shT (F := Ideal) y (ix2 r q) = y (ix2 r q) - Spec.rowMax y r := by
  unfold shT
  rw [vsub_apply, colT_apply, muT_apply]

/-! ## Log-softmax -/

attribute [local irreducible] Host.reduce in
/-- Log-softmax as the program writes it is the shifted log-softmax. -/
theorem lsmT_eq (y : FVec Ideal S10000x128 .f32) : lsmT (F := Ideal) y = Cert.Spec.lsm y := by
  funext i
  obtain ⟨r, q, rfl⟩ : ∃ (r : Fin 10000) (q : Fin 128), i = ix2 r q := ⟨i 0, i 1, eq_ix2 i⟩
  unfold lsmT
  rw [vsub_apply, shT_apply, colOuter_apply, vlog_apply, colInner_apply, hostReduceAdd_apply,
    Ideal.hostReduceAdd_single reducesTo_S10000x128_S10000_d1 redS, const_apply, Spec.ofBits_zero, zero_add]
  refine congrArg (fun s => (y (ix2 r q) - Spec.rowMax y r) - Ideal.log s) ?_
  refine Finset.sum_congr rfl fun l _ => ?_
  rw [vexp_apply, lift_row, shT_apply]
  rfl

end Cert.RefSide

end
-- ==== Proof.RefMath.lean ====
/-
  The reference's composed term is the network G, on the extended reals.

  Piece by piece: the host's product of two matrices read at (r, q) is the plain sum over the contraction
  index (its contraction index has one axis, re-indexed by that axis's coordinate), so one propagation step is
  the matrix product and five of them are five products; the affine map adds the bias, laid as one row and
  repeated down the rows, so its entry at (r, q) is b(q); ELU as the program writes it,
  select (x > 0) x (1 · (e^z − 1)) with z = select (x > 0) 0 x, is x above zero and eˣ − 1 otherwise, because
  1 · t = t on the extended reals. With the row-wise log-softmax read the same way, the composed term is
  lsm (A⁵ (elu (A⁵ (x · w₁ + b₁)) · w₂ + b₂)).
-/
import proofs.«157186_g48524540510793_cont_sun_m_1392_3_alg».proof.Proof.RefTerm
import proofs.«157186_g48524540510793_cont_sun_m_1392_3_alg».proof.Proof.Spec
import proofs.«157186_g48524540510793_cont_sun_m_1392_3_alg».proof.Proof.RefMathLsm
import Idealize.ShloMosaic.PureOps.Ideal
import Idealize.ShloMosaic.PureOps.Ideal.Laws
import Idealize.ShloMosaic.Lib.ValueIdx
import Idealize.ShloMosaic.Lib.Pipeline.Value

noncomputable section

namespace Cert.RefSide

open Cert.ReferenceIdeal Cert.ReferenceIdeal.Gen Idealize.ShloMosaic Idealize.ShloMosaic.ValueIdx Cert.Spec

/-! ## The operations read at an index, at any extents -/

/-- The host's product of an m×k by a k×n matrix, read at (a, b): the sum over the contracted coordinate of the
    products of the entries. The contraction index has one axis, of extent k; the sum over it is re-indexed by
    that axis's coordinate c, at which the left operand is read at (a, c) and the right one at (c, b). -/
private theorem hostDot_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- So the host's product is the matrix product. -/
private theorem hostDot_eq_mm {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) :
    Host.dotGeneral (⟨[1], [0], [0], [1], [], [], w⟩ : DotDims ⟨2, ![m, k]⟩ ⟨2, ![k, n]⟩ ⟨2, ![m, n]⟩) none A B = mm A B := by
  funext i
  obtain ⟨r, q, rfl⟩ : ∃ (r : Fin m) (q : Fin n), i = ix2 r q := ⟨i 0, i 1, eq_ix2 i⟩
  exact hostDot_apply w A B r q

/-- A vector laid as a one-row matrix reads, at (u, q), its entry q. -/
private theorem bcast_vec_row_apply {n : ℕ} {α : Type} (h : (⟨1, ![n]⟩ : Shape).BroadcastsInDim ⟨2, ![1, n]⟩ ![1])
    (b : (⟨1, ![n]⟩ : Shape).Idx → α) (u : Fin 1) (q : Fin n) :
    broadcastInDim ⟨2, ![1, n]⟩ ![1] h b (ix2 u q) = b (ix1 q) := by
  refine broadcastInDim_apply ![1] h b (ix2 u q) (ix1 q) fun ax => ?_
  match ax with
  | ⟨0, _⟩ =>
    show q.val = if n = 1 then 0 else q.val
    split
    · have := q.isLt; omega
    · rfl

/-- A one-row matrix repeated down m rows reads, at (r, q), the row's entry q. -/
private theorem bcast_row_apply {m n : ℕ} {α : Type} (h : (⟨2, ![1, n]⟩ : Shape).BroadcastsInDim ⟨2, ![m, n]⟩ ![0, 1])
    (y : (⟨2, ![1, n]⟩ : Shape).Idx → α) (r : Fin m) (q : Fin n) :
    broadcastInDim ⟨2, ![m, n]⟩ ![0, 1] h y (ix2 r q) = y (ix2 (0 : Fin 1) q) := by
  refine broadcastInDim_apply ![0, 1] h y (ix2 r q) (ix2 (0 : Fin 1) q) fun ax => ?_
  match ax with
  | ⟨0, _⟩ => rfl
  | ⟨1, _⟩ =>
    show q.val = if n = 1 then 0 else q.val
    split
    · have := q.isLt; omega
    · rfl

/-! ## The pieces of the reference's term, at the program's extents -/

/-- One propagation step is the matrix product. -/
theorem propT_eq (a : FVec Ideal S10000x10000 .f32) (h : FVec Ideal S10000x128 .f32) :
    propT (F := Ideal) a h = mm a h :=
  hostDot_eq_mm _ a h

/-- Five propagation steps. -/
theorem prop5T_eq (a : FVec Ideal S10000x10000 .f32) (h : FVec Ideal S10000x128 .f32) :
    prop5T (F := Ideal) a h = prop5 a h := by
  unfold prop5T prop5
  rw [propT_eq, propT_eq, propT_eq, propT_eq, propT_eq]

/-- The affine map: the bias, laid as one row and repeated down the rows, reads b(q) at (r, q). -/
theorem linT_eq (x : FVec Ideal S10000x128 .f32) (w : FVec Ideal S128x128 .f32) (b : FVec Ideal S128 .f32) :
    linT (F := Ideal) x w b = lin x w b := by
  funext i
  obtain ⟨r, q, rfl⟩ : ∃ (r : Fin 10000) (q : Fin 128), i = ix2 r q := ⟨i 0, i 1, eq_ix2 i⟩
  unfold linT
  refine (addf_apply _ _ (ix2 r q)).trans ?_
  show _ = mm x w (ix2 r q) + b (ix1 q)
  refine congrArg₂ (· + ·) (congrFun (hostDot_eq_mm _ x w) (ix2 r q)) ?_
  exact (bcast_row_apply _ _ r q).trans (bcast_vec_row_apply _ b 0 q)

/-- The splat of a word reads the word's value everywhere. -/
private theorem splatT_apply (w : BitVec 32) (i : S10000x128.Idx) : splatT (F := Ideal) w i = Ideal.ofBits .f32 w := rfl

/-- ELU as the program writes it — select (x > 0) x (1 · (e^z − 1)) with z = select (x > 0) 0 x — is ELU, entry
    by entry: above zero the outer select takes x; otherwise z = x and 1 · (eˣ − 1) = eˣ − 1. -/
theorem eluT_eq (x : FVec Ideal S10000x128 .f32) : eluT (F := Ideal) x = elu x := by
  funext i
  show Scalar.select (Ideal.cmp .ogt (x i) (Ideal.ofBits .f32 0x00000000#32)) (x i)
      (Ideal.ofBits .f32 0x3F800000#32
        * (Ideal.exp (Scalar.select (Ideal.cmp .ogt (x i) (Ideal.ofBits .f32 0x00000000#32)) (Ideal.ofBits .f32 0x00000000#32) (x i)) - 1))
    = elu1 (x i)
  rw [ofBits_zero, ofBits_one, one_mul, cmp_ogt_zero]
  unfold elu1
  by_cases h : 0 < x i
  · rw [if_pos h, if_pos h]; exact select_one _ _
  · rw [if_neg h, if_neg h, select_zero, select_zero]

/-! ## The composition -/

/-- The reference's composed term is the network applied to the six arrays. -/
theorem refTerm_eq_G (x : FVec Ideal S10000x128 .f32) (a : FVec Ideal S10000x10000 .f32) (w1 : FVec Ideal S128x128 .f32)
    (b1 : FVec Ideal S128 .f32) (w2 : FVec Ideal S128x128 .f32) (b2 : FVec Ideal S128 .f32) :
    refTerm (F := Ideal) x a w1 b1 w2 b2 = Cert.Spec.G x a w1 b1 w2 b2 := by
  unfold refTerm G
  rw [lsmT_eq, prop5T_eq, linT_eq, eluT_eq, prop5T_eq, linT_eq]

end Cert.RefSide

end
-- ==== Proof.lean ====
/-
  The certificate of the twelve-region graph-convolution kernel against its jnp reference.

  Both programs compute, at the ideal values (floats as extended reals, operations exact, a change of float
  format the identity), the function `Cert.Spec.G` of the six argument arrays:

      log_softmax (A⁵ · (elu (A⁵ · (X · W₁ + b₁)) · W₂ + b₂)),        A⁵ · h = A · (A · (A · (A · (A · h)))).

  The kernel side. Each region's output array, after all its grid points have written their blocks back, is
  a function of the region's input arrays as the region finds them (Proof/R0 … R11: the body's arithmetic
  read at an index is Proof/Payloads; the row blocks tile the rows). The contents of every buffer at each
  boundary between regions are a fold of those write-backs through the program, and walking the result
  buffer back through the fold gives `G` of the launch contents of the arguments (Proof/Chain). The run
  itself — termination, no fault, the result buffer at the last boundary's contents, the arguments as
  launched — is Proof/KRun.
  The reference side. Its run as a list of host operations ends with the result at the operations' composed
  term of the arguments (Proof/RefTerm, Proof/RefSide), which is `G` index by index (Proof/RefMath, Proof/RefMathLsm): a host dot_general and a kernel matmul
  into a zero accumulator are the same sum over the contraction index; jax's ELU `select (x > 0) x
  (1 · expm1 (select (x > 0) 0 x))` and the kernel's `select (x > 0) x (eˣ − 1)` agree because expm1 x is
  eˣ − 1 on every extended real and 1 · y = y; the reference's extra `max (−∞) μ` is μ.
  Nothing here uses distributivity or cancellation, so the finiteness precondition is never opened.
  The three frames: the two kernel programs' are the generated frame certificates; the reference's is its
  run with the result dropped. The idealization rewrote nothing, so `preserves` is `True`.
-/
import proofs.«157186_g48524540510793_cont_sun_m_1392_3_alg».proof.Defs
import proofs.«157186_g48524540510793_cont_sun_m_1392_3_alg».proof.Proof.Gen.Kernel
import proofs.«157186_g48524540510793_cont_sun_m_1392_3_alg».proof.Proof.Gen.Kernel.Skeleton
import proofs.«157186_g48524540510793_cont_sun_m_1392_3_alg».proof.Proof.Gen.Kernel.Launch
import proofs.«157186_g48524540510793_cont_sun_m_1392_3_alg».proof.Proof.Gen.Kernel.Points
import proofs.«157186_g48524540510793_cont_sun_m_1392_3_alg».proof.Proof.Gen.Kernel.Frame
import proofs.«157186_g48524540510793_cont_sun_m_1392_3_alg».proof.Proof.Gen.KernelIdeal
import proofs.«157186_g48524540510793_cont_sun_m_1392_3_alg».proof.Proof.Gen.KernelIdeal.Skeleton
import proofs.«157186_g48524540510793_cont_sun_m_1392_3_alg».proof.Proof.Gen.KernelIdeal.Launch
import proofs.«157186_g48524540510793_cont_sun_m_1392_3_alg».proof.Proof.Gen.KernelIdeal.Points
import proofs.«157186_g48524540510793_cont_sun_m_1392_3_alg».proof.Proof.Gen.KernelIdeal.Frame
import proofs.«157186_g48524540510793_cont_sun_m_1392_3_alg».proof.Proof.Gen.ReferenceIdeal
import proofs.«157186_g48524540510793_cont_sun_m_1392_3_alg».proof.Proof.Gen.Pre_finite_inputs
import proofs.«157186_g48524540510793_cont_sun_m_1392_3_alg».proof.Proof.Spec
import proofs.«157186_g48524540510793_cont_sun_m_1392_3_alg».proof.Proof.KRun
import proofs.«157186_g48524540510793_cont_sun_m_1392_3_alg».proof.Proof.Chain
import proofs.«157186_g48524540510793_cont_sun_m_1392_3_alg».proof.Proof.RefSide
import proofs.«157186_g48524540510793_cont_sun_m_1392_3_alg».proof.Proof.RefMath
import Idealize.ShloMosaic.Adequacy
import Idealize.ShloMosaic.Init

noncomputable section

namespace Cert.Proof

open Idealize.ShloMosaic Idealize.SL.Sem

/-- The word-level kernel runs and leaves its arguments as launched: the generated frame certificate. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.RefSide.run_term (F := Ideal) m ρ)

/-- The idealization rewrote no operation. -/
theorem preserves : Cert.preserves_Kernel_KernelIdeal := trivial

/-- From memories agreeing on the six arguments both programs end with the result array at `G` of the
    arguments: the kernel's result is the last boundary's contents of its buffer, which the chain through the
    regions reads as `G`; the reference's is `G` of its own arguments, which agree with the kernel's. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KVal.chain m ρ c), (h c).2⟩)
      (Cert.KVal.run_named (F := Ideal) m ρ)
  · refine (θ_run Cert.ReferenceIdeal.defs _ _).mono (fun r h c => ⟨(h c).1.trans ?_, (h c).2⟩)
      (Cert.RefSide.run_of_eq Cert.RefSide.refTerm_eq_G m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
